-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1024x1024 : Shape := ⟨2, ![1024, 1024]⟩
abbrev S1024x512x20 : Shape := ⟨3, ![1024, 512, 20]⟩
abbrev S1536x1 : Shape := ⟨2, ![1536, 1]⟩
abbrev S1 : Shape := ⟨1, ![1]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x512x20 : S_.BroadcastsInDim S1024x512x20 (![] : Fin 0 → Fin S1024x512x20.rank)
  reducesTo_S1024x512x20_S_d0_1_2 : S1024x512x20.ReducesTo [0, 1, 2] S_
  bcast_S_S1536x1 : S_.BroadcastsInDim S1536x1 (![] : Fin 0 → Fin S1536x1.rank)
  reducesTo_S1536x1_S_d0_1 : S1536x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1024x512x20 .f32) (main_arg8 : FVec F S1536x1 .f32) (main_arg9 : FVec F S1 .f32) (main_v33 : IVec S_ 1) : IVec S_ 1 :=
  let main_v34 : FVec F S1024x512x20 .f32 := Host.absf main_arg7
  let main_cst_12 : FVec F S_ .f32 := constant S_ .f32 0x7F800000#32
  let main_v35 : FVec F S1024x512x20 .f32 := broadcastInDim S1024x512x20 ![] bcast_S_S1024x512x20 main_cst_12
  let main_v36 : IVec S1024x512x20 1 := cmpf .olt main_v34 main_v35
  let main_c_13 : IVec S_ 1 := constantI S_ 1 1#1
  let main_v37 : IVec S_ 1 := (fun x v => Host.reduce IntOp.andi x v reducesTo_S1024x512x20_S_d0_1_2 h_S_) main_v36 main_c_13
  let main_v38 : IVec S_ 1 := andi main_v33 main_v37
  let main_v39 : FVec F S1536x1 .f32 := Host.absf main_arg8
  let main_cst_14 : FVec F S_ .f32 := constant S_ .f32 0x7F800000#32
  let main_v40 : FVec F S1536x1 .f32 := broadcastInDim S1536x1 ![] bcast_S_S1536x1 main_cst_14
  let main_v41 : IVec S1536x1 1 := cmpf .olt main_v39 main_v40
  let main_c_15 : IVec S_ 1 := constantI S_ 1 1#1
  let main_v42 : IVec S_ 1 := (fun x v => Host.reduce IntOp.andi x v reducesTo_S1536x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S1024 .f32) (main_arg5 : FVec F S1024x1024 .f32) (main_arg6 : FVec F S1024 .f32) (main_arg7 : FVec F S1024x512x20 .f32) (main_arg8 : FVec F S1536x1 .f32) (main_arg9 : FVec F S1 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_v33

def fn {F : FTy → Type} [FloatOps F] (main_arg0 : FVec F S128x512 .f32) (main_arg1 : FVec F S512x512 .f32) (main_arg2 : FVec F S512 .f32) (main_arg3 : FVec F S512x1024 .f32) (main_arg4 : FVec F S1024 .f32) (main_arg5 : FVec F S1024x1024 .f32) (main_arg6 : FVec F S1024 .f32) (main_arg7 : FVec F S1024x512x20 .f32) (main_arg8 : FVec F S1536x1 .f32) (main_arg9 : FVec F S1 .f32) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_v13 main_v16
-- ==== Kernel.lean ====
abbrev S128x512 : Shape := ⟨2, ![128, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1024x1024 : Shape := ⟨2, ![1024, 1024]⟩
abbrev S1024x512x20 : Shape := ⟨3, ![1024, 512, 20]⟩
abbrev S1536x1 : Shape := ⟨2, ![1536, 1]⟩
abbrev S1 : Shape := ⟨1, ![1]⟩
abbrev S1x512 : Shape := ⟨2, ![1, 512]⟩
abbrev S1x1024 : Shape := ⟨2, ![1, 1024]⟩
abbrev S128x1024 : Shape := ⟨2, ![128, 1024]⟩
abbrev S1024x512 : Shape := ⟨2, ![1024, 512]⟩
abbrev S1024x10240 : Shape := ⟨2, ![1024, 10240]⟩
abbrev S128x10240 : Shape := ⟨2, ![128, 10240]⟩
abbrev S1024x1280 : Shape := ⟨2, ![1024, 1280]⟩
abbrev S128x1280 : Shape := ⟨2, ![128, 1280]⟩
abbrev S128x512x20 : Shape := ⟨3, ![128, 512, 20]⟩
abbrev S128x128x20 : Shape := ⟨3, ![128, 128, 20]⟩
abbrev S32x128x20 : Shape := ⟨3, ![32, 128, 20]⟩
abbrev S32x128 : Shape := ⟨2, ![32, 128]⟩
abbrev S128x32x128 : Shape := ⟨3, ![128, 32, 128]⟩
abbrev S128x128x1 : Shape := ⟨3, ![128, 128, 1]⟩
abbrev S128x128 : Shape := ⟨2, ![128, 128]⟩
abbrev S128x1x128 : Shape := ⟨3, ![128, 1, 128]⟩
abbrev S32x128x1 : Shape := ⟨3, ![32, 128, 1]⟩
abbrev S1x32x128 : Shape := ⟨3, ![1, 32, 128]⟩
abbrev S1024x1 : Shape := ⟨2, ![1024, 1]⟩
abbrev S512x1 : Shape := ⟨2, ![512, 1]⟩
abbrev S128x1 : Shape := ⟨2, ![128, 1]⟩
abbrev S1x1 : Shape := ⟨2, ![1, 1]⟩

abbrev nBuf : Space → Nat
  | .hbm => 26
  | .vmem => 21
  | .smem => 0
  | _ => 0

abbrev bufTy : (tb : Table) → Fin (tcTables nBuf tb) → BufTy
  | .hbm, ⟨0, _⟩ => ⟨S128x512, .f32⟩
  | .hbm, ⟨1, _⟩ => ⟨S512x512, .f32⟩
  | .hbm, ⟨2, _⟩ => ⟨S512, .f32⟩
  | .hbm, ⟨3, _⟩ => ⟨S512x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x512x20, .f32⟩
  | .hbm, ⟨8, _⟩ => ⟨S1536x1, .f32⟩
  | .hbm, ⟨9, _⟩ => ⟨S1, .f32⟩
  | .hbm, ⟨10, _⟩ => ⟨S1x512, .f32⟩
  | .hbm, ⟨11, _⟩ => ⟨S1x1024, .f32⟩
  | .hbm, ⟨12, _⟩ => ⟨S1x1024, .f32⟩
  | .hbm, ⟨13, _⟩ => ⟨S128x1024, .f32⟩
  | .hbm, ⟨14, _⟩ => ⟨S1024x10240, .f32⟩
  | .hbm, ⟨15, _⟩ => ⟨S128x10240, .f32⟩
  | .hbm, ⟨16, _⟩ => ⟨S128x512x20, .f32⟩
  | .hbm, ⟨17, _⟩ => ⟨S128x512, .f32⟩
  | .hbm, ⟨18, _⟩ => ⟨S1024x1, .f32⟩
  | .hbm, ⟨19, _⟩ => ⟨S512x1, .f32⟩
  | .hbm, ⟨20, _⟩ => ⟨S128x1, .f32⟩
  | .hbm, ⟨21, _⟩ => ⟨S128x1, .f32⟩
  | .hbm, ⟨22, _⟩ => ⟨S128x1, .f32⟩
  | .hbm, ⟨23, _⟩ => ⟨S1x1, .f32⟩
  | .hbm, ⟨24, _⟩ => ⟨S128x1, .f32⟩
  | .hbm, ⟨25, _⟩ => ⟨S128x1, .f32⟩
  | .local _ .vmem, ⟨0, _⟩ => ⟨S128x512, .f32⟩
  | .local _ .vmem, ⟨1, _⟩ => ⟨S512x512, .f32⟩
  | .local _ .vmem, ⟨2, _⟩ => ⟨S1x512, .f32⟩
  | .local _ .vmem, ⟨3, _⟩ => ⟨S512x1024, .f32⟩
  | .local _ .vmem, ⟨4, _⟩ => ⟨S1x1024, .f32⟩
  | .local _ .vmem, ⟨5, _⟩ => ⟨S1024x512, .f32⟩
  | .local _ .vmem, ⟨6, _⟩ => ⟨S1024x512, .f32⟩
  | .local _ .vmem, ⟨7, _⟩ => ⟨S1x512, .f32⟩
  | .local _ .vmem, ⟨8, _⟩ => ⟨S1x512, .f32⟩
  | .local _ .vmem, ⟨9, _⟩ => ⟨S128x512, .f32⟩
  | .local _ .vmem, ⟨10, _⟩ => ⟨S128x512, .f32⟩
  | .local _ .vmem, ⟨11, _⟩ => ⟨S128x1024, .f32⟩
  | .local _ .vmem, ⟨12, _⟩ => ⟨S1024x1280, .f32⟩
  | .local _ .vmem, ⟨13, _⟩ => ⟨S1024x1280, .f32⟩
  | .local _ .vmem, ⟨14, _⟩ => ⟨S128x1280, .f32⟩
  | .local _ .vmem, ⟨15, _⟩ => ⟨S128x1280, .f32⟩
  | .local _ .vmem, ⟨16, _⟩ => ⟨S128x128x20, .f32⟩
  | .local _ .vmem, ⟨17, _⟩ => ⟨S32x128x20, .f32⟩
  | .local _ .vmem, ⟨18, _⟩ => ⟨S32x128x20, .f32⟩
  | .local _ .vmem, ⟨19, _⟩ => ⟨S32x128, .f32⟩
  | .local _ .vmem, ⟨20, _⟩ => ⟨S32x128, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem2_1 : DmaSem sig := 20

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x1280 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 1 → Memref sig .tc .vmem S128x128x20 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S32x128x20 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S32x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S512_S1x512 : S512.ShapeCasts S1x512
  shapeCasts_S1024_S1x1024 : S1024.ShapeCasts S1x1024
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S1024x512_S1024x512_0_0 : ∀ a, (![0, 0] : Fin 2 → Nat) a + S1024x512.size a ≤ S1024x512.size a
  h_S1024x512 : 0 < S1024x512.numel
  shapeCasts_S1024x512x20_S1024x10240 : S1024x512x20.ShapeCasts S1024x10240
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  inb_S128x1280_S128x1280_0_0 : ∀ a, (![0, 0] : Fin 2 → Nat) a + S128x1280.size a ≤ S128x1280.size a
  h_S128x1280 : 0 < S128x1280.numel
  shapeCasts_S128x10240_S128x512x20 : S128x10240.ShapeCasts S128x512x20
  inb_S128x128x20_S128x128x20_0_0_0 : ∀ a, (![0, 0, 0] : Fin 3 → Nat) a + S128x128x20.size a ≤ S128x128x20.size a
  h_S128x128x20 : 0 < S128x128x20.numel
  shapeCasts_S128x128x20_S128x128x20 : S128x128x20.ShapeCasts S128x128x20
  inb_S32x128x20_S32x128x20_0_0_0 : ∀ a, (![0, 0, 0] : Fin 3 → Nat) a + S32x128x20.size a ≤ S32x128x20.size a
  h_S32x128x20 : 0 < S32x128x20.numel
  shapeCasts_S32x128x20_S32x128x20 : S32x128x20.ShapeCasts S32x128x20
  slices_S128x128x20_o0_0_0_S128x128x1 : S128x128x20.Slices ![0, 0, 0] S128x128x1
  shapeCasts_S128x128x1_S128x128 : S128x128x1.ShapeCasts S128x128
  shapeCasts_S128x128_S128x1x128 : S128x128.ShapeCasts S128x1x128
  slices_S32x128x20_o0_0_0_S32x128x1 : S32x128x20.Slices ![0, 0, 0] S32x128x1
  shapeCasts_S32x128x1_S32x128 : S32x128x1.ShapeCasts S32x128
  shapeCasts_S32x128_S1x32x128 : S32x128.ShapeCasts S1x32x128
  broadcasts_S128x1x128_S128x32x128 : S128x1x128.Broadcasts S128x32x128
  broadcasts_S1x32x128_S128x32x128 : S1x32x128.Broadcasts S128x32x128
  slices_S128x128x20_o0_0_1_S128x128x1 : S128x128x20.Slices ![0, 0, 1] S128x128x1
  slices_S32x128x20_o0_0_1_S32x128x1 : S32x128x20.Slices ![0, 0, 1] S32x128x1
  slices_S128x128x20_o0_0_2_S128x128x1 : S128x128x20.Slices ![0, 0, 2] S128x128x1
  slices_S32x128x20_o0_0_2_S32x128x1 : S32x128x20.Slices ![0, 0, 2] S32x128x1
  slices_S128x128x20_o0_0_3_S128x128x1 : S128x128x20.Slices ![0, 0, 3] S128x128x1
  slices_S32x128x20_o0_0_3_S32x128x1 : S32x128x20.Slices ![0, 0, 3] S32x128x1
  slices_S128x128x20_o0_0_4_S128x128x1 : S128x128x20.Slices ![0, 0, 4] S128x128x1
  slices_S32x128x20_o0_0_4_S32x128x1 : S32x128x20.Slices ![0, 0, 4] S32x128x1
  slices_S128x128x20_o0_0_5_S128x128x1 : S128x128x20.Slices ![0, 0, 5] S128x128x1
  slices_S32x128x20_o0_0_5_S32x128x1 : S32x128x20.Slices ![0, 0, 5] S32x128x1
  slices_S128x128x20_o0_0_6_S128x128x1 : S128x128x20.Slices ![0, 0, 6] S128x128x1
  slices_S32x128x20_o0_0_6_S32x128x1 : S32x128x20.Slices ![0, 0, 6] S32x128x1
  slices_S128x128x20_o0_0_7_S128x128x1 : S128x128x20.Slices ![0, 0, 7] S128x128x1
  slices_S32x128x20_o0_0_7_S32x128x1 : S32x128x20.Slices ![0, 0, 7] S32x128x1
  slices_S128x128x20_o0_0_8_S128x128x1 : S128x128x20.Slices ![0, 0, 8] S128x128x1
  slices_S32x128x20_o0_0_8_S32x128x1 : S32x128x20.Slices ![0, 0, 8] S32x128x1
  slices_S128x128x20_o0_0_9_S128x128x1 : S128x128x20.Slices ![0, 0, 9] S128x128x1
  slices_S32x128x20_o0_0_9_S32x128x1 : S32x128x20.Slices ![0, 0, 9] S32x128x1
  slices_S128x128x20_o0_0_10_S128x128x1 : S128x128x20.Slices ![0, 0, 10] S128x128x1
  slices_S32x128x20_o0_0_10_S32x128x1 : S32x128x20.Slices ![0, 0, 10] S32x128x1
  slices_S128x128x20_o0_0_11_S128x128x1 : S128x128x20.Slices ![0, 0, 11] S128x128x1
  slices_S32x128x20_o0_0_11_S32x128x1 : S32x128x20.Slices ![0, 0, 11] S32x128x1
  slices_S128x128x20_o0_0_12_S128x128x1 : S128x128x20.Slices ![0, 0, 12] S128x128x1
  slices_S32x128x20_o0_0_12_S32x128x1 : S32x128x20.Slices ![0, 0, 12] S32x128x1
  slices_S128x128x20_o0_0_13_S128x128x1 : S128x128x20.Slices ![0, 0, 13] S128x128x1
  slices_S32x128x20_o0_0_13_S32x128x1 : S32x128x20.Slices ![0, 0, 13] S32x128x1
  slices_S128x128x20_o0_0_14_S128x128x1 : S128x128x20.Slices ![0, 0, 14] S128x128x1
  slices_S32x128x20_o0_0_14_S32x128x1 : S32x128x20.Slices ![0, 0, 14] S32x128x1
  slices_S128x128x20_o0_0_15_S128x128x1 : S128x128x20.Slices ![0, 0, 15] S128x128x1
  slices_S32x128x20_o0_0_15_S32x128x1 : S32x128x20.Slices ![0, 0, 15] S32x128x1
  slices_S128x128x20_o0_0_16_S128x128x1 : S128x128x20.Slices ![0, 0, 16] S128x128x1
  slices_S32x128x20_o0_0_16_S32x128x1 : S32x128x20.Slices ![0, 0, 16] S32x128x1
  slices_S128x128x20_o0_0_17_S128x128x1 : S128x128x20.Slices ![0, 0, 17] S128x128x1
  slices_S32x128x20_o0_0_17_S32x128x1 : S32x128x20.Slices ![0, 0, 17] S32x128x1
  slices_S128x128x20_o0_0_18_S128x128x1 : S128x128x20.Slices ![0, 0, 18] S128x128x1
  slices_S32x128x20_o0_0_18_S32x128x1 : S32x128x20.Slices ![0, 0, 18] S32x128x1
  slices_S128x128x20_o0_0_19_S128x128x1 : S128x128x20.Slices ![0, 0, 19] S128x128x1
  slices_S32x128x20_o0_0_19_S32x128x1 : S32x128x20.Slices ![0, 0, 19] S32x128x1
  reduces_S128x32x128_S32x128 : S128x32x128.Reduces [0] S32x128
  inb_S32x128_S32x128_0_0 : ∀ a, (![0, 0] : Fin 2 → Nat) a + S32x128.size a ≤ S32x128.size a
  h_S32x128 : 0 < S32x128.numel
  slices_S1536x1_S1024x1_0_0 : S1536x1.Slices ![0, 0] S1024x1
  slices_S1536x1_S512x1_1024_0 : S1536x1.Slices ![1024, 0] S512x1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  dot_S128x512_S512x512_S128x512_1_0_0_1_n_n_wf : DotDims.WF S128x512 S512x512 S128x512 [1] [0] [0] [1] [] []
  dot_S128x512_S512x1024_S128x1024_1_0_0_1_n_n_wf : DotDims.WF S128x512 S512x1024 S128x1024 [1] [0] [0] [1] [] []
  dot_S128x1024_S1024x512_S128x512_1_0_0_1_n_n_wf : DotDims.WF S128x1024 S1024x512 S128x512 [1] [0] [0] [1] [] []
  dot_S128x1024_S1024x1280_S128x1280_1_0_0_1_n_n_wf : DotDims.WF S128x1024 S1024x1280 S128x1280 [1] [0] [0] [1] [] []
  dot_S128x1024_S1024x1_S128x1_1_0_0_1_n_n_wf : DotDims.WF S128x1024 S1024x1 S128x1 [1] [0] [0] [1] [] []
  dot_S128x512_S512x1_S128x1_1_0_0_1_n_n_wf : DotDims.WF S128x512 S512x1 S128x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S128x512.size a
  hwx0_0 : ∀ i : grid0.Coords, EltTy.bits .f32 = 32 ∨ (Rect.block (s := S128x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .f32 = 32 ∨ (Rect.block (s := S512x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x1024.size a
  hwx0_5 : ∀ i : grid0.Coords, EltTy.bits .f32 = 32 ∨ (Rect.block (s := S1024x1024) S1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x1024.size a
  hwx0_6 : ∀ i : grid0.Coords, EltTy.bits .f32 = 32 ∨ (Rect.block (s := S1x1024) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S128x1024.size a
  hwx0_7 : ∀ i : grid0.Coords, EltTy.bits .f32 = 32 ∨ (Rect.block (s := S128x1024) S128x512.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S128x1024.size a
  hwx1_0 : ∀ i : grid1.Coords, EltTy.bits .f32 = 32 ∨ (Rect.block (s := S128x1024) S128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1280.size a ≤ S1024x10240.size a
  hwx1_1 : ∀ i : grid1.Coords, EltTy.bits .f32 = 32 ∨ (Rect.block (s := S1024x10240) S1024x1280.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1280.size a ≤ S128x10240.size a
  hwx1_2 : ∀ i : grid1.Coords, EltTy.bits .f32 = 32 ∨ (Rect.block (s := S128x10240) S128x1280.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x128x20.size a ≤ S128x512x20.size a
  hwx2_0 : ∀ i : grid2.Coords, EltTy.bits .f32 = 32 ∨ (Rect.block (s := S128x512x20) S128x128x20.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x128x20.size a ≤ S128x512x20.size a
  hwx2_1 : ∀ i : grid2.Coords, EltTy.bits .f32 = 32 ∨ (Rect.block (s := S128x512x20) S32x128x20.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x128.size a ≤ S128x512.size a
  hwx2_2 : ∀ i : grid2.Coords, EltTy.bits .f32 = 32 ∨ (Rect.block (s := S128x512) S32x128.size (cc2_transform_2 i) (hinb2_2 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x1024_S1024x1280_S128x1280_1_0_0_1_n_n : DotDims S128x1024 S1024x1280 S128x1280 where
  lhsContracting := [1]
  rhsContracting := [0]
  lhsNonContracting := [0]
  rhsNonContracting := [1]
  lhsBatch := []
  rhsBatch := []
  wf := dot_S128x1024_S1024x1280_S128x1280_1_0_0_1_n_n_wf
def dot_S128x1024_S1024x1_S128x1_1_0_0_1_n_n : DotDims S128x1024 S1024x1 S128x1 where
  lhsContracting := [1]
  rhsContracting := [0]
  lhsNonContracting := [0]
  rhsNonContracting := [1]
  lhsBatch := []
  rhsBatch := []
  wf := dot_S128x1024_S1024x1_S128x1_1_0_0_1_n_n_wf
def dot_S128x512_S512x1_S128x1_1_0_0_1_n_n : DotDims S128x512 S512x1 S128x1 where
  lhsContracting := [1]
  rhsContracting := [0]
  lhsNonContracting := [0]
  rhsNonContracting := [1]
  lhsBatch := []
  rhsBatch := []
  wf := dot_S128x512_S512x1_S128x1_1_0_0_1_n_n_wf

abbrev win0_0 : Pipeline.Window sig grid0 :=
  Pipeline.Window.ofSpec (Memref.whole main_arg0) S128x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v3) S128x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1280.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x1280.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6) S128x128x20.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v6) S32x128x20.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S32x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S128x512 : Shape := ⟨2, ![128, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1024x1024 : Shape := ⟨2, ![1024, 1024]⟩
abbrev S1024x512x20 : Shape := ⟨3, ![1024, 512, 20]⟩
abbrev S1536x1 : Shape := ⟨2, ![1536, 1]⟩
abbrev S1 : Shape := ⟨1, ![1]⟩
abbrev S1x512 : Shape := ⟨2, ![1, 512]⟩
abbrev S_ : Shape := ⟨0, ![]⟩
abbrev S128x1024 : Shape := ⟨2, ![128, 1024]⟩
abbrev S1x1024 : Shape := ⟨2, ![1, 1024]⟩
abbrev S1024x10240 : Shape := ⟨2, ![1024, 10240]⟩
abbrev S128x10240 : Shape := ⟨2, ![128, 10240]⟩
abbrev S128x512x20 : Shape := ⟨3, ![128, 512, 20]⟩
abbrev S1x128x512x20 : Shape := ⟨4, ![1, 128, 512, 20]⟩
abbrev S128x1x512x20 : Shape := ⟨4, ![128, 1, 512, 20]⟩
abbrev S128x128x512x20 : Shape := ⟨4, ![128, 128, 512, 20]⟩
abbrev S128x128x512 : Shape := ⟨3, ![128, 128, 512]⟩
abbrev S128x1536 : Shape := ⟨2, ![128, 1536]⟩
abbrev S128x1 : Shape := ⟨2, ![128, 1]⟩
abbrev S1x1 : Shape := ⟨2, ![1, 1]⟩

abbrev nBuf : Space → Nat
  | .hbm => 66
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S512x512, .f32⟩
  | .hbm, ⟨2, _⟩ => ⟨S512, .f32⟩
  | .hbm, ⟨3, _⟩ => ⟨S512x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x512x20, .f32⟩
  | .hbm, ⟨8, _⟩ => ⟨S1536x1, .f32⟩
  | .hbm, ⟨9, _⟩ => ⟨S1, .f32⟩
  | .hbm, ⟨10, _⟩ => ⟨S128x512, .f32⟩
  | .hbm, ⟨11, _⟩ => ⟨S1x512, .f32⟩
  | .hbm, ⟨12, _⟩ => ⟨S128x512, .f32⟩
  | .hbm, ⟨13, _⟩ => ⟨S128x512, .f32⟩
  | .hbm, ⟨14, _⟩ => ⟨S_, .f32⟩
  | .hbm, ⟨15, _⟩ => ⟨S128x512, .f32⟩
  | .hbm, ⟨16, _⟩ => ⟨S128x512, .i1⟩
  | .hbm, ⟨17, _⟩ => ⟨S_, .f32⟩
  | .hbm, ⟨18, _⟩ => ⟨S128x512, .f32⟩
  | .hbm, ⟨19, _⟩ => ⟨S128x512, .f32⟩
  | .hbm, ⟨20, _⟩ => ⟨S128x512, .f32⟩
  | .hbm, ⟨21, _⟩ => ⟨S128x1024, .f32⟩
  | .hbm, ⟨22, _⟩ => ⟨S1x1024, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .i1⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S1x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .i1⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S1024x10240, .f32⟩
  | .hbm, ⟨44, _⟩ => ⟨S128x10240, .f32⟩
  | .hbm, ⟨45, _⟩ => ⟨S128x512x20, .f32⟩
  | .hbm, ⟨46, _⟩ => ⟨S1x128x512x20, .f32⟩
  | .hbm, ⟨47, _⟩ => ⟨S128x1x512x20, .f32⟩
  | .hbm, ⟨48, _⟩ => ⟨S128x128x512x20, .f32⟩
  | .hbm, ⟨49, _⟩ => ⟨S128x128x512x20, .f32⟩
  | .hbm, ⟨50, _⟩ => ⟨S128x128x512x20, .f32⟩
  | .hbm, ⟨51, _⟩ => ⟨S128x128x512x20, .f32⟩
  | .hbm, ⟨52, _⟩ => ⟨S_, .f32⟩
  | .hbm, ⟨53, _⟩ => ⟨S128x128x512, .f32⟩
  | .hbm, ⟨54, _⟩ => ⟨S128x128x512, .f32⟩
  | .hbm, ⟨55, _⟩ => ⟨S128x128x512, .f32⟩
  | .hbm, ⟨56, _⟩ => ⟨S_, .f32⟩
  | .hbm, ⟨57, _⟩ => ⟨S128x512, .f32⟩
  | .hbm, ⟨58, _⟩ => ⟨S_, .f32⟩
  | .hbm, ⟨59, _⟩ => ⟨S128x512, .f32⟩
  | .hbm, ⟨60, _⟩ => ⟨S128x512, .f32⟩
  | .hbm, ⟨61, _⟩ => ⟨S128x1536, .f32⟩
  | .hbm, ⟨62, _⟩ => ⟨S128x1, .f32⟩
  | .hbm, ⟨63, _⟩ => ⟨S1x1, .f32⟩
  | .hbm, ⟨64, _⟩ => ⟨S128x1, .f32⟩
  | .hbm, ⟨65, _⟩ => ⟨S128x1, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  bcast_S_S128x512 : S_.BroadcastsInDim S128x512 (![] : Fin 0 → Fin S128x512.rank)
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S_S128x1024 : S_.BroadcastsInDim S128x1024 (![] : Fin 0 → Fin S128x1024.rank)
  shapeCasts_S1024x512x20_S1024x10240 : S1024x512x20.ShapeCasts S1024x10240
  shapeCasts_S128x10240_S128x512x20 : S128x10240.ShapeCasts S128x512x20
  bcast_S128x512x20_S1x128x512x20_1_2_3 : S128x512x20.BroadcastsInDim S1x128x512x20 (![1, 2, 3] : Fin 3 → Fin S1x128x512x20.rank)
  bcast_S128x512x20_S128x1x512x20_0_2_3 : S128x512x20.BroadcastsInDim S128x1x512x20 (![0, 2, 3] : Fin 3 → Fin S128x1x512x20.rank)
  bcast_S1x128x512x20_S128x128x512x20_0_1_2_3 : S1x128x512x20.BroadcastsInDim S128x128x512x20 (![0, 1, 2, 3] : Fin 4 → Fin S128x128x512x20.rank)
  bcast_S128x1x512x20_S128x128x512x20_0_1_2_3 : S128x1x512x20.BroadcastsInDim S128x128x512x20 (![0, 1, 2, 3] : Fin 4 → Fin S128x128x512x20.rank)
  reducesTo_S128x128x512x20_S128x128x512_d3 : S128x128x512x20.ReducesTo [3] S128x128x512
  h_S_ : 0 < S_.numel
  reducesTo_S128x128x512_S128x512_d0 : S128x128x512.ReducesTo [0] S128x512
  concatenates_S128x1024_S128x512_S128x1536_d1 : Shape.Concatenates [S128x1024, S128x512] S128x1536 1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  dot_S128x512_S512x512_S128x512_1_0_0_1_n_n_wf : DotDims.WF S128x512 S512x512 S128x512 [1] [0] [0] [1] [] []
  dot_S128x512_S512x1024_S128x1024_1_0_0_1_n_n_wf : DotDims.WF S128x512 S512x1024 S128x1024 [1] [0] [0] [1] [] []
  dot_S128x1024_S1024x1024_S128x1024_1_0_0_1_n_n_wf : DotDims.WF S128x1024 S1024x1024 S128x1024 [1] [0] [0] [1] [] []
  dot_S128x1024_S1024x10240_S128x10240_1_0_0_1_n_n_wf : DotDims.WF S128x1024 S1024x10240 S128x10240 [1] [0] [0] [1] [] []
  dot_S128x1536_S1536x1_S128x1_1_0_0_1_n_n_wf : DotDims.WF S128x1536 S1536x1 S128x1 [1] [0] [0] [1] [] []

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S1024x10240_S128x10240_1_0_0_1_n_n : DotDims S128x1024 S1024x10240 S128x10240 where
  lhsContracting := [1]
  rhsContracting := [0]
  lhsNonContracting := [0]
  rhsNonContracting := [1]
  lhsBatch := []
  rhsBatch := []
  wf := dot_S128x1024_S1024x10240_S128x10240_1_0_0_1_n_n_wf
def dot_S128x1536_S1536x1_S128x1_1_0_0_1_n_n : DotDims S128x1536 S1536x1 S128x1 where
  lhsContracting := [1]
  rhsContracting := [0]
  lhsNonContracting := [0]
  rhsNonContracting := [1]
  lhsBatch := []
  rhsBatch := []
  wf := dot_S128x1536_S1536x1_S128x1_1_0_0_1_n_n_wf

class Facts : Prop extends Facts₀ where

variable [Facts]
-- ==== Proof.PayTerms.lean ====
/-
  What each kernel body stores, as one function of what it loads: the layered activations' block for the first
  kernel, the product block for the second (already one term), and for the third the pairwise term's block, whose
  twenty distance summands the body accumulates in four stretches.
-/
import proofs.«123244_j24532853195159_2_alg».proof.Proof.Gen.KernelIdeal.Skeleton

noncomputable section

namespace Cert.KernelIdeal.Gen

open Idealize.ShloMosaic

variable {F : FTy → Type} [FloatOps F]

/-- The first kernel's stored block: the third layer's pre-activation, then the rectifier's select. -/
def pay0 (v0 : Vec F S128x512 .f32) (v2 : Vec F S512x512 .f32) (v5 : Vec F S1x512 .f32) (v15 : Vec F S512x1024 .f32)
    (v18 : Vec F S1x1024 .f32) (v28 : Vec F S1024x512 .f32) (v31 : Vec F S1x512 .f32) : FVec F S128x512 .f32 :=
  k0_pay1 (k0_pay2 v0 v2 v5 v15 v18 v28 v31) (k0_pay3 v0 v2 v5 v15 v18 v28 v31)

/-- The third kernel's accumulated distances after all twenty summands, their exponentials summed over the rows. -/
def pay2sum (v0 : Vec F S128x128x20 .f32) (v2 : Vec F S32x128x20 .f32) : FVec F S32x128 .f32 :=
  k2_pay11 (k2_pay2 v0) (k2_pay3 v2)
    (k2_pay9 (k2_pay2 v0) (k2_pay3 v2) (k2_pay6 (k2_pay2 v0) (k2_pay3 v2) (k2_pay4 v0 v2) (k2_pay5 v0)) (k2_pay7 (k2_pay3 v2)) (k2_pay8 (k2_pay2 v0)))
    (k2_pay10 (k2_pay2 v0))

/-- The third kernel's stored block: that sum less one. -/
def pay2 (v0 : Vec F S128x128x20 .f32) (v2 : Vec F S32x128x20 .f32) : FVec F S32x128 .f32 :=
  k2_pay1 (pay2sum v0 v2)

end Cert.KernelIdeal.Gen

end
-- ==== Proof.Body0.lean ====
/-
  The first kernel's body at one point of its grid of two: on whole staging buffers, with the batch [128,512], the
  first two layers' weights and biases whole, and the third layer's weight and bias at their column blocks
  [1024,512] and [1,512], all held at what was read of them, it leaves in the output's buffer the block [128,512] of
  the third layer's activations — one store of the whole buffer, whose payload is a function of the seven loads —
  and leaves the inputs as they were. From this: the proof data of the pipeline at the contents `V` the region is
  entered with (each input's buffer at its block of `V`'s array, the output's at that function of the seven input
  blocks) and the body obligation at every point.
-/
import proofs.«123244_j24532853195159_2_alg».proof.Proof.Gen.KernelIdeal.Launch
import proofs.«123244_j24532853195159_2_alg».proof.Proof.Gen.KernelIdeal.Skeleton
import proofs.«123244_j24532853195159_2_alg».proof.Proof.Gen.KernelIdeal.Points
import proofs.«123244_j24532853195159_2_alg».proof.Proof.PayTerms
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # The first kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block index
    has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block index
    has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): unfetched, the block index
    has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s (`hA`) and whose body leaves the block in place (`hafter`): unfetched, the block index
    has not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S128x512 := Rect.unit (s := S128x512) ![0, 0] S128x512.size inb_S128x512_S128x512_0_0
abbrev r0_1 : Rect S512x512 := Rect.unit (s := S512x512) ![0, 0] S512x512.size inb_S512x512_S512x512_0_0
abbrev r0_2 : Rect S1x512 := Rect.unit (s := S1x512) ![0, 0] S1x512.size inb_S1x512_S1x512_0_0
abbrev r0_3 : Rect S512x1024 := Rect.unit (s := S512x1024) ![0, 0] S512x1024.size inb_S512x1024_S512x1024_0_0
abbrev r0_4 : Rect S1x1024 := Rect.unit (s := S1x1024) ![0, 0] S1x1024.size inb_S1x1024_S1x1024_0_0
abbrev r0_5 : Rect S1024x512 := Rect.unit (s := S1024x512) ![0, 0] S1024x512.size inb_S1024x512_S1024x512_0_0
abbrev r0_6 : Rect S1x512 := Rect.unit (s := S1x512) ![0, 0] S1x512.size inb_S1x512_S1x512_0_0
abbrev r0_7 : Rect S128x512 := Rect.unit (s := S128x512) ![0, 0] S128x512.size inb_S128x512_S128x512_0_0

/-! ## What the body leaves in the output window's buffer -/

/-- Window 7's staging buffer after the body, from the input windows' blocks: its one store, of the whole buffer,
    whose payload is the third layer's activations computed from the seven loads. -/
def out0_7 (x0 : Vec F S128x512 .f32) (x1 : Vec F S512x512 .f32) (x2 : Vec F S1x512 .f32) (x3 : Vec F S512x1024 .f32) (x4 : Vec F S1x1024 .f32) (x5 : Vec F S1024x512 .f32) (x6 : Vec F S1x512 .f32) : Vec F S128x512 .f32 :=
  View.canon [⟨r0_7, pay0 (View.ld x0 r0_0) (View.ld x1 r0_1) (View.ld x2 r0_2) (View.ld x3 r0_3) (View.ld x4 r0_4) (View.ld x5 r0_5) (View.ld x6 r0_6)⟩]

/-- The store tiles the buffer (checked by evaluation), so it covers it. -/
theorem cover0_7 (p0 : Vec F S128x512 .f32) (y : S128x512.Idx) :
    ∃ pc ∈ ([⟨r0_7, p0⟩] : List (View.Piece (Elt F) S128x512 .f32)), y ∈ pc.1.set :=
  View.cover_of_tiled [⟨r0_7, p0⟩] S128x512.size (by rfl) y

/-! ## The body's triple -/

set_option maxHeartbeats 1000000 in
/-- The kernel body on whole staging memrefs, the inputs' at read contents `x0` … `x6` and the output's at anything
    (the body reads it once before overwriting it, and uses nothing of what it read), runs to the continuation holding
    the inputs' as they were and the output's at `out0_7` of the inputs': the seven loads and the arithmetic are the
    kernel's first part, the select and the store its own. -/
theorem sound_kernel0 (c : Dev nD) (E : Set ℕ) (i : grid0.Coords) (arg1 : Memref sig .tc .vmem S128x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S128x512 .f32) (harg8 : arg8.IsWhole)
    (x0 : Vec F S128x512 .f32) (x1 : Vec F S512x512 .f32) (x2 : Vec F S1x512 .f32) (x3 : Vec F S512x1024 .f32) (x4 : Vec F S1x1024 .f32) (x5 : Vec F S1024x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

/-! ## The pipeline's proof data -/

/-- The proof data of pipeline 0 on core `c`: the arrays as the region finds them (`V`); after the body at point `t`
    each input's buffer at its block and the output's at `out0_7` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so `sound_kernel0` applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.Body1.lean ====
/-
  The second kernel's body at one point of its grid of eight: on whole staging buffers, with the activations
  [128,1024] and the tensor's column block [1024,1280] held at what was read of them, it leaves in the output's
  buffer the product block [128,1280] — one store of the whole buffer, whose payload is a function of the two
  loads — and leaves the inputs as they were. From this: the proof data of the pipeline at the contents `V` the
  region is entered with (each input's buffer at its block of `V`'s array, the output's at that product of the two
  input blocks) and the body obligation at every point.
-/
import proofs.«123244_j24532853195159_2_alg».proof.Proof.Gen.KernelIdeal.Launch
import proofs.«123244_j24532853195159_2_alg».proof.Proof.Gen.KernelIdeal.Skeleton
import proofs.«123244_j24532853195159_2_alg».proof.Proof.Gen.KernelIdeal.Points
import proofs.«123244_j24532853195159_2_alg».proof.Proof.PayTerms
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # The second kernel (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S128x1024 := Rect.unit (s := S128x1024) ![0, 0] S128x1024.size inb_S128x1024_S128x1024_0_0
abbrev r1_1 : Rect S1024x1280 := Rect.unit (s := S1024x1280) ![0, 0] S1024x1280.size inb_S1024x1280_S1024x1280_0_0
abbrev r1_2 : Rect S128x1280 := Rect.unit (s := S128x1280) ![0, 0] S128x1280.size inb_S128x1280_S128x1280_0_0

/-! ## What the body leaves in the output window's buffer -/

/-- Window 2's staging buffer after the body, from the input windows' blocks: its one store, of the whole buffer,
    whose payload is the product of the two loads. -/
def out1_2 (x0 : Vec F S128x1024 .f32) (x1 : Vec F S1024x1280 .f32) : Vec F S128x1280 .f32 :=
  View.canon [⟨r1_2, k1_pay1 (View.ld x0 r1_0) (View.ld x1 r1_1)⟩]

/-- The store tiles the buffer (checked by evaluation), so it covers it. -/
theorem cover1_2 (p0 : Vec F S128x1280 .f32) (y : S128x1280.Idx) :
    ∃ pc ∈ ([⟨r1_2, p0⟩] : List (View.Piece (Elt F) S128x1280 .f32)), y ∈ pc.1.set :=
  View.cover_of_tiled [⟨r1_2, p0⟩] S128x1280.size (by rfl) y

/-! ## The body's triple -/

set_option maxHeartbeats 1000000 in
/-- The kernel body on whole staging memrefs, the inputs' at read contents `x0`, `x1` and the output's at anything (the
    body reads it once before overwriting it, and uses nothing of what it read), runs to the continuation holding the
    inputs' as they were and the output's at `out1_2` of the inputs'. -/
theorem sound_kernel1 (c : Dev nD) (E : Set ℕ) (i : grid1.Coords) (arg1 : Memref sig .tc .vmem S128x1024 .f32) (harg1 : arg1.IsWhole) (arg2 : Memref sig .tc .vmem S1024x1280 .f32) (harg2 : arg2.IsWhole) (arg3 : Memref sig .tc .vmem S128x1280 .f32) (harg3 : arg3.IsWhole)
    (x0 : Vec F S128x1024 .f32) (x1 : Vec F S1024x1280 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__mbd_matmul_kernel i arg1 harg1 arg2 harg2 arg3 harg3) K := by
  simp only [cc1__mbd_matmul_kernel_eq_skeleton]; unfold cc1__mbd_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point `t`
    each input's buffer at its block and the output's at `out1_2` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.Body2.lean ====
/-
  The third kernel region (the pairwise term), entered with the core's buffers at contents V. Its two input windows
  read ONE array, the features m : [128, 512, 20]: window 0 takes all 128 rows of a block of 128 features, window 1
  a block of 32 rows of the same features; the output window's block is [32, 128]. The body loads both input blocks
  whole and stores the output block whole, so what it leaves is one function of the two input blocks. The array read
  twice is held in two halves of the full share, one per window.
-/
import proofs.«123244_j24532853195159_2_alg».proof.Proof.Gen.KernelIdeal.Launch
import proofs.«123244_j24532853195159_2_alg».proof.Proof.Gen.KernelIdeal.Skeleton
import proofs.«123244_j24532853195159_2_alg».proof.Proof.Gen.KernelIdeal.Points
import proofs.«123244_j24532853195159_2_alg».proof.Proof.PayTerms
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, its
    index has not moved), for any proof data whose array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S128x128x20 := Rect.unit (s := S128x128x20) ![0, 0, 0] S128x128x20.size inb_S128x128x20_S128x128x20_0_0_0
abbrev r2_1 : Rect S32x128x20 := Rect.unit (s := S32x128x20) ![0, 0, 0] S32x128x20.size inb_S32x128x20_S32x128x20_0_0_0
abbrev r2_2 : Rect S32x128 := Rect.unit (s := S32x128) ![0, 0] S32x128.size inb_S32x128_S32x128_0_0

/-! ## What the body leaves in the output window's buffer -/

/-- The output buffer after the body: its one store, of the pairwise term's block of the two input blocks. -/
def out2_2 (x0 : Vec F S128x128x20 .f32) (x1 : Vec F S32x128x20 .f32) : Vec F S32x128 .f32 :=
  View.canon [⟨r2_2, pay2 (View.ld x0 r2_0) (View.ld x1 r2_1)⟩]

/-- The store covers the buffer. -/
theorem cover2_2 (p0 : Vec F S32x128 .f32) (y : S32x128.Idx) :
    ∃ pc ∈ ([⟨r2_2, p0⟩] : List (View.Piece (Elt F) S32x128 .f32)), y ∈ pc.1.set :=
  View.cover_of_tiled [⟨r2_2, p0⟩] S32x128.size (by rfl) y

/-! ## The body's triple -/

set_option maxHeartbeats 4000000 in
/-- The body on whole staging memrefs, the inputs' at read contents and the output's at anything, runs to the
    continuation holding the inputs' as they were and the output's at out2_2 of the inputs'. -/
theorem sound_kernel2 (c : Dev nD) (E : Set ℕ) (i : grid2.Coords) (arg2 : Memref sig .tc .vmem S128x128x20 .f32) (harg2 : arg2.IsWhole)
    (arg3 : Memref sig .tc .vmem S32x128x20 .f32) (harg3 : arg3.IsWhole) (arg4 : Memref sig .tc .vmem S32x128 .f32) (harg4 : arg4.IsWhole)
    (x0 : Vec F S128x128x20 .f32) (x1 : Vec F S32x128x20 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__mbd_pairwise_kernel i arg2 harg2 arg3 harg3 arg4 harg4) K := by
  simp only [cc2__mbd_pairwise_kernel_eq_skeleton]; unfold cc2__mbd_pairwise_kernel_skel
  simp only [k2_part1_eq_skeleton, k2_part2_eq_skeleton, k2_part3_eq_skeleton, k2_part4_eq_skeleton]
  unfold k2_part1_skel k2_part2_skel k2_part3_skel k2_part4_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the third pipeline on core c: the arrays as the region finds them; after the body at point t
    each input's buffer at its block and the output's at out2_2 of the input blocks; the scoped rest and the generator
    register untouched; nothing owed; the array read through both input windows dealt in halves. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.Run.lean ====
/-
  The run of the kernel program: three host stretches, each followed by a kernel region, and a last host stretch.
  The contents of a core's unscoped buffers at each boundary are a fold from the launch memory: a host stretch applies
  its operations, a region replaces its output array by what its write-backs leave. Every region is a segment entered
  from all unscoped buffers held at the boundary's contents; the third region's input array, read through two
  windows, is split into two halves of the full share on entry and made whole again on exit. The run ends with every
  unscoped buffer of every core at the last boundary's contents.
-/
import proofs.«123244_j24532853195159_2_alg».proof.Proof.Gen.KernelIdeal.Launch
import proofs.«123244_j24532853195159_2_alg».proof.Proof.Gen.KernelIdeal.Skeleton
import proofs.«123244_j24532853195159_2_alg».proof.Proof.Gen.KernelIdeal.Points
import proofs.«123244_j24532853195159_2_alg».proof.Proof.Body0
import proofs.«123244_j24532853195159_2_alg».proof.Proof.Body1
import proofs.«123244_j24532853195159_2_alg».proof.Proof.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (the three bias rows recast). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (T recast as a matrix). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the features recast as [128, 512, 20]). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At the third region's exit: its output array at what the pipeline leaves, every other buffer as entered. -/
def W6 (c : Dev nD) : Valuation τ sig (Elt F) :=
  Function.update (W5 m ρ c) (Proc.devRef .tc main_v7) ((dat2 (V5 m ρ) c).arrAt 2 cfg2.N)
theorem W6_out (c : Dev nD) : W6 m ρ c (Proc.devRef .tc main_v7) = (dat2 (V5 m ρ) c).arrAt 2 cfg2.N := by
  unfold W6; exact Function.update_self ..
theorem W6_of_ne (c : Dev nD) (b : Ref sig .tc) (hb : b ≠ main_v7) : W6 m ρ c (Proc.devRef .tc b) = W5 m ρ c (Proc.devRef .tc b) := by
  unfold W6; exact Function.update_of_ne (StableHlo.devRef_ne_of_ne hb) ..
/-- After the last host stretch (the two projections, their sum and the bias). -/
abbrev W7 : Dev nD → Valuation τ sig (Elt F) := fun c => StableHlo.after hostOps3 (W6 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at W1, left at W2. Its arrays are sorted out of
    the unscoped buffers and put back at the exit contents; the generator register goes into the invariant and comes
    out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its arrays are sorted out of
    the unscoped buffers and put back at the exit contents; the generator register goes into the invariant and comes
    out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The third region: its input array in two halves -/

section Shares

variable (V : (c : Dev nD) → (b : Ref sig .tc) → Buf (Elt F) ((c : Thread nD τ).loc b))

/-- The third pipeline's arrays, window by window: the features at the left and at the right half of the full share,
    the output whole. -/
theorem arrays2_eq (c : Dev nD) (Fn : (w : Fin cfg2.W) → Buf (Elt F) ((cfg2.win w).arr.view.loc (c.tc : Thread nD τ))) :
    ((dat2 V c).arrays Fn : sProp 𝕄) = iprop((((c : Thread nD τ).loc main_v6) ↦{fullShare.left} Fn 0) ∗ (((c : Thread nD τ).loc main_v6) ↦{fullShare.right} Fn 1) ∗ (((c : Thread nD τ).loc main_v7) ↦{fullShare} Fn 2)) := by
  unfold Dat.arrays
  rw [bigSep_W2]
  rw [(arr_whole2 0).set_eq_univ, (arr_whole2 2).set_eq_univ]
  rfl

/-- The array read through both input windows, whole at the full share, is its two halves; the output array stays whole. -/
theorem arrays2_of_bufs (c : Dev nD) (Fn : (w : Fin cfg2.W) → Buf (Elt F) ((cfg2.win w).arr.view.loc (c.tc : Thread nD τ)))
    (G6 : Buf (Elt F) ((c : Thread nD τ).loc main_v6)) (G7 : Buf (Elt F) ((c : Thread nD τ).loc main_v7))
    (h0 : Fn 0 = G6) (h1 : Fn 1 = G6) (h2 : Fn 2 = G7) :
    ((dat2 V c).arrays Fn : sProp 𝕄) ⊣⊢ iprop((((c : Thread nD τ).loc main_v6) ↦{fullShare} G6) ∗ (((c : Thread nD τ).loc main_v7) ↦{fullShare} G7)) := by
  rw [arrays2_eq, h0, h1, h2]
  have hs : ((((c : Thread nD τ).loc main_v6) ↦{fullShare} G6 : sProp 𝕄)) ⊣⊢ iprop((((c : Thread nD τ).loc main_v6) ↦{fullShare.left} G6) ∗ (((c : Thread nD τ).loc main_v6) ↦{fullShare.right} G6)) :=
    pointsTo_share (PosShare.mem_left_op_right fullShare)
  constructor
  · iintro ⟨Ha, Hb, Hc⟩
    isplitl [Ha Hb]
    · iapply hs.2; isplitl [Ha] <;> iassumption
    iexact Hc
  · refine (sep_mono hs.1 .rfl).trans ?_
    iintro ⟨⟨Ha, Hb⟩, Hc⟩
    isplitl [Ha]; · iexact Ha
    isplitl [Hb]; · iexact Hb
    iexact Hc

end Shares

/-- The buffers behind the third region's arrays: the features and the output, each once. -/
theorem arrBufs2_eq (c : Dev nD) (Vb : (b : Ref sig .tc) → Buf (Elt F) ((c : Thread nD τ).loc b)) :
    (Pipeline.arrBufs (Ix := Unit) (Name := ℕ) (U := UR sig nD τ) (Lvl := ℕ) spec2 c Vb : sProp 𝕄)
      = iprop((((c : Thread nD τ).loc main_v6) ↦{fullShare} Vb main_v6) ∗ (((c : Thread nD τ).loc main_v7) ↦{fullShare} Vb main_v7)) := by
  unfold Pipeline.arrBufs
  rw [show Finset.univ.image (Pipeline.arrRef spec2) = {main_v6, main_v7} from by decide, bigSep_insert (by decide), bigSep_singleton]
  rfl

/-- A core's unscoped buffers: the features, the third region's output, and the rest. -/
theorem bufs2_split (c : Dev nD) (Vb : (b : Ref sig .tc) → Buf (Elt F) ((c : Thread nD τ).loc b)) :
    (unscopedBufs c Vb : sProp 𝕄) = iprop(((((c : Thread nD τ).loc main_v6) ↦{fullShare} Vb main_v6) ∗ (((c : Thread nD τ).loc main_v7) ↦{fullShare} Vb main_v7))
      ∗ Pipeline.unscopedRest spec2 c Vb) := by
  have h : (unscopedBufs c Vb : sProp 𝕄) = iprop(Pipeline.arrBufs spec2 c Vb ∗ Pipeline.unscopedRest spec2 c Vb) :=
    Pipeline.unscopedBufs_split₀ (Pipeline.pin (pcfgs (F := F)) adm) 2 winFacts₀2.arr_unscoped c Vb
  rw [h, arrBufs2_eq]

/-- No buffer other than the third region's output differs between its entry and its exit. -/
theorem rest2_eq (c : Dev nD) :
    (Pipeline.unscopedRest (Ix := Unit) (Name := ℕ) (U := UR sig nD τ) (Lvl := ℕ) spec2 c (V5 m ρ c) : sProp 𝕄)
      = Pipeline.unscopedRest spec2 c (fun b => W6 m ρ c b) := by
  unfold Pipeline.unscopedRest
  exact bigSep_congr fun b hb => by
    dsimp only
    rw [W6_of_ne m ρ c b (fun e => (Finset.mem_sdiff.mp hb).2 (e ▸ (by decide : main_v7 ∈ Finset.univ.image (Pipeline.arrRef spec2))))]

set_option backward.isDefEq.respectTransparency.types false in
/-- Region 2 over the thread state: entered from every unscoped buffer at W5, left at W6. The features' array, whole at
    entry, is dealt in halves to the two windows that read it and made whole again at exit (no point writes it); the
    output array leaves at what the write-backs made of it. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none, ← Pipeline.unscopedBufs_held c (W5 m ρ c), bufs2_split c (V5 m ρ c)]
    have ha := (arrays2_of_bufs (V5 m ρ) c ((dat2 (V5 m ρ) c).arrAt · 0) (V5 m ρ c main_v6) (V5 m ρ c main_v7) rfl rfl rfl).2
    iintro ⟨⟨⟨⟨H6, H7⟩, Hrest⟩, Hp, HO⟩, -, -⟩
    ihave Ha := ha $$ [H6 H7]
    · isplitl [H6] <;> iassumption
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    rw [← Pipeline.unscopedBufs_held c (W6 m ρ c), bufs2_split c (fun b => W6 m ρ c b), ← rest2_eq m ρ c]
    have ha := (arrays2_of_bufs (V5 m ρ) c ((dat2 (V5 m ρ) c).arrAt · cfg2.N) (W6 m ρ c main_v6) (W6 m ρ c main_v7)
      ((((dat2 (V5 m ρ) c).arrAt_in 0 rfl _).trans (A_eq2 (V5 m ρ) c 0)).trans (W6_of_ne m ρ c main_v6 (by decide)).symm)
      ((((dat2 (V5 m ρ) c).arrAt_in 1 rfl _).trans (A_eq2 (V5 m ρ) c 1)).trans (W6_of_ne m ρ c main_v6 (by decide)).symm)
      (W6_out m ρ c).symm).1
    iintro ⟨Ha, HO, HY, Hrest⟩
    ihave Hb := ha $$ [Ha]
    · iexact Ha
    imodintro
    isplitl [Hb Hrest]
    · isplitl [Hb] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ),
    .host (hseg hostOps2 hostOps2_sub hostOps2_fresh' (W4 m ρ)),
    .region (reg2 m ρ),
    .host (hseg hostOps3 hostOps3_sub hostOps3_fresh' (W6 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final state every unscoped buffer of every core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-! ## The arguments end as launched

No host operation writes an argument and no region's output is one: a region reads an argument through an input
window, which leaves the array as entered, or passes it by. -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- The frame: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c)⟩)
    (run_main m ρ)

end Cert.KernelIdeal.Run

end
-- ==== Proof.KPayTerms.lean ====
/-
  What each kernel body stores, as one function of what it loads: the layered activations' block for the first
  kernel, the product block for the second (already one term), and for the third the pairwise term's block, whose
  twenty distance summands the body accumulates in four stretches.
-/
import proofs.«123244_j24532853195159_2_alg».proof.Proof.Gen.Kernel.Skeleton

noncomputable section

namespace Cert.Kernel.Gen

open Idealize.ShloMosaic

variable {F : FTy → Type} [FloatOps F]

/-- The first kernel's stored block: the third layer's pre-activation, then the rectifier's select. -/
def pay0 (v0 : Vec F S128x512 .f32) (v2 : Vec F S512x512 .f32) (v5 : Vec F S1x512 .f32) (v15 : Vec F S512x1024 .f32)
    (v18 : Vec F S1x1024 .f32) (v28 : Vec F S1024x512 .f32) (v31 : Vec F S1x512 .f32) : FVec F S128x512 .f32 :=
  k0_pay1 (k0_pay2 v0 v2 v5 v15 v18 v28 v31) (k0_pay3 v0 v2 v5 v15 v18 v28 v31)

/-- The third kernel's accumulated distances after all twenty summands, their exponentials summed over the rows. -/
def pay2sum (v0 : Vec F S128x128x20 .f32) (v2 : Vec F S32x128x20 .f32) : FVec F S32x128 .f32 :=
  k2_pay11 (k2_pay2 v0) (k2_pay3 v2)
    (k2_pay9 (k2_pay2 v0) (k2_pay3 v2) (k2_pay6 (k2_pay2 v0) (k2_pay3 v2) (k2_pay4 v0 v2) (k2_pay5 v0)) (k2_pay7 (k2_pay3 v2)) (k2_pay8 (k2_pay2 v0)))
    (k2_pay10 (k2_pay2 v0))

/-- The third kernel's stored block: that sum less one. -/
def pay2 (v0 : Vec F S128x128x20 .f32) (v2 : Vec F S32x128x20 .f32) : FVec F S32x128 .f32 :=
  k2_pay1 (pay2sum v0 v2)

end Cert.Kernel.Gen

end
-- ==== Proof.KBody0.lean ====
/-
  The first kernel's body at one point of its grid of two: on whole staging buffers, with the batch [128,512], the
  first two layers' weights and biases whole, and the third layer's weight and bias at their column blocks
  [1024,512] and [1,512], all held at what was read of them, it leaves in the output's buffer the block [128,512] of
  the third layer's activations — one store of the whole buffer, whose payload is a function of the seven loads —
  and leaves the inputs as they were. From this: the proof data of the pipeline at the contents `V` the region is
  entered with (each input's buffer at its block of `V`'s array, the output's at that function of the seven input
  blocks) and the body obligation at every point.
-/
import proofs.«123244_j24532853195159_2_alg».proof.Proof.Gen.Kernel.Launch
import proofs.«123244_j24532853195159_2_alg».proof.Proof.Gen.Kernel.Skeleton
import proofs.«123244_j24532853195159_2_alg».proof.Proof.Gen.Kernel.Points
import proofs.«123244_j24532853195159_2_alg».proof.Proof.KPayTerms
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # The first kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block index
    has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block index
    has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): unfetched, the block index
    has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s (`hA`) and whose body leaves the block in place (`hafter`): unfetched, the block index
    has not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S128x512 := Rect.unit (s := S128x512) ![0, 0] S128x512.size inb_S128x512_S128x512_0_0
abbrev r0_1 : Rect S512x512 := Rect.unit (s := S512x512) ![0, 0] S512x512.size inb_S512x512_S512x512_0_0
abbrev r0_2 : Rect S1x512 := Rect.unit (s := S1x512) ![0, 0] S1x512.size inb_S1x512_S1x512_0_0
abbrev r0_3 : Rect S512x1024 := Rect.unit (s := S512x1024) ![0, 0] S512x1024.size inb_S512x1024_S512x1024_0_0
abbrev r0_4 : Rect S1x1024 := Rect.unit (s := S1x1024) ![0, 0] S1x1024.size inb_S1x1024_S1x1024_0_0
abbrev r0_5 : Rect S1024x512 := Rect.unit (s := S1024x512) ![0, 0] S1024x512.size inb_S1024x512_S1024x512_0_0
abbrev r0_6 : Rect S1x512 := Rect.unit (s := S1x512) ![0, 0] S1x512.size inb_S1x512_S1x512_0_0
abbrev r0_7 : Rect S128x512 := Rect.unit (s := S128x512) ![0, 0] S128x512.size inb_S128x512_S128x512_0_0

/-! ## What the body leaves in the output window's buffer -/

/-- Window 7's staging buffer after the body, from the input windows' blocks: its one store, of the whole buffer,
    whose payload is the third layer's activations computed from the seven loads. -/
def out0_7 (x0 : Vec F S128x512 .f32) (x1 : Vec F S512x512 .f32) (x2 : Vec F S1x512 .f32) (x3 : Vec F S512x1024 .f32) (x4 : Vec F S1x1024 .f32) (x5 : Vec F S1024x512 .f32) (x6 : Vec F S1x512 .f32) : Vec F S128x512 .f32 :=
  View.canon [⟨r0_7, pay0 (View.ld x0 r0_0) (View.ld x1 r0_1) (View.ld x2 r0_2) (View.ld x3 r0_3) (View.ld x4 r0_4) (View.ld x5 r0_5) (View.ld x6 r0_6)⟩]

/-- The store tiles the buffer (checked by evaluation), so it covers it. -/
theorem cover0_7 (p0 : Vec F S128x512 .f32) (y : S128x512.Idx) :
    ∃ pc ∈ ([⟨r0_7, p0⟩] : List (View.Piece (Elt F) S128x512 .f32)), y ∈ pc.1.set :=
  View.cover_of_tiled [⟨r0_7, p0⟩] S128x512.size (by rfl) y

/-! ## The body's triple -/

set_option maxHeartbeats 1000000 in
/-- The kernel body on whole staging memrefs, the inputs' at read contents `x0` … `x6` and the output's at anything
    (the body reads it once before overwriting it, and uses nothing of what it read), runs to the continuation holding
    the inputs' as they were and the output's at `out0_7` of the inputs': the seven loads and the arithmetic are the
    kernel's first part, the select and the store its own. -/
theorem sound_kernel0 (c : Dev nD) (E : Set ℕ) (i : grid0.Coords) (arg1 : Memref sig .tc .vmem S128x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x512 .f32) (harg6 : arg6.IsWhole) (arg7 : Memref sig .tc .vmem S1x512 .f32) (harg7 : arg7.IsWhole) (arg8 : Memref sig .tc .vmem S128x512 .f32) (harg8 : arg8.IsWhole)
    (x0 : Vec F S128x512 .f32) (x1 : Vec F S512x512 .f32) (x2 : Vec F S1x512 .f32) (x3 : Vec F S512x1024 .f32) (x4 : Vec F S1x1024 .f32) (x5 : Vec F S1024x512 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

/-! ## The pipeline's proof data -/

/-- The proof data of pipeline 0 on core `c`: the arrays as the region finds them (`V`); after the body at point `t`
    each input's buffer at its block and the output's at `out0_7` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so `sound_kernel0` applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KBody1.lean ====
/-
  The second kernel's body at one point of its grid of eight: on whole staging buffers, with the activations
  [128,1024] and the tensor's column block [1024,1280] held at what was read of them, it leaves in the output's
  buffer the product block [128,1280] — one store of the whole buffer, whose payload is a function of the two
  loads — and leaves the inputs as they were. From this: the proof data of the pipeline at the contents `V` the
  region is entered with (each input's buffer at its block of `V`'s array, the output's at that product of the two
  input blocks) and the body obligation at every point.
-/
import proofs.«123244_j24532853195159_2_alg».proof.Proof.Gen.Kernel.Launch
import proofs.«123244_j24532853195159_2_alg».proof.Proof.Gen.Kernel.Skeleton
import proofs.«123244_j24532853195159_2_alg».proof.Proof.Gen.Kernel.Points
import proofs.«123244_j24532853195159_2_alg».proof.Proof.KPayTerms
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! # The second kernel (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S128x1024 := Rect.unit (s := S128x1024) ![0, 0] S128x1024.size inb_S128x1024_S128x1024_0_0
abbrev r1_1 : Rect S1024x1280 := Rect.unit (s := S1024x1280) ![0, 0] S1024x1280.size inb_S1024x1280_S1024x1280_0_0
abbrev r1_2 : Rect S128x1280 := Rect.unit (s := S128x1280) ![0, 0] S128x1280.size inb_S128x1280_S128x1280_0_0

/-! ## What the body leaves in the output window's buffer -/

/-- Window 2's staging buffer after the body, from the input windows' blocks: its one store, of the whole buffer,
    whose payload is the product of the two loads. -/
def out1_2 (x0 : Vec F S128x1024 .f32) (x1 : Vec F S1024x1280 .f32) : Vec F S128x1280 .f32 :=
  View.canon [⟨r1_2, k1_pay1 (View.ld x0 r1_0) (View.ld x1 r1_1)⟩]

/-- The store tiles the buffer (checked by evaluation), so it covers it. -/
theorem cover1_2 (p0 : Vec F S128x1280 .f32) (y : S128x1280.Idx) :
    ∃ pc ∈ ([⟨r1_2, p0⟩] : List (View.Piece (Elt F) S128x1280 .f32)), y ∈ pc.1.set :=
  View.cover_of_tiled [⟨r1_2, p0⟩] S128x1280.size (by rfl) y

/-! ## The body's triple -/

set_option maxHeartbeats 1000000 in
/-- The kernel body on whole staging memrefs, the inputs' at read contents `x0`, `x1` and the output's at anything (the
    body reads it once before overwriting it, and uses nothing of what it read), runs to the continuation holding the
    inputs' as they were and the output's at `out1_2` of the inputs'. -/
theorem sound_kernel1 (c : Dev nD) (E : Set ℕ) (i : grid1.Coords) (arg1 : Memref sig .tc .vmem S128x1024 .f32) (harg1 : arg1.IsWhole) (arg2 : Memref sig .tc .vmem S1024x1280 .f32) (harg2 : arg2.IsWhole) (arg3 : Memref sig .tc .vmem S128x1280 .f32) (harg3 : arg3.IsWhole)
    (x0 : Vec F S128x1024 .f32) (x1 : Vec F S1024x1280 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__mbd_matmul_kernel i arg1 harg1 arg2 harg2 arg3 harg3) K := by
  simp only [cc1__mbd_matmul_kernel_eq_skeleton]; unfold cc1__mbd_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point `t`
    each input's buffer at its block and the output's at `out1_2` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.KBody2.lean ====
/-
  The third kernel region (the pairwise term), entered with the core's buffers at contents V. Its two input windows
  read ONE array, the features m : [128, 512, 20]: window 0 takes all 128 rows of a block of 128 features, window 1
  a block of 32 rows of the same features; the output window's block is [32, 128]. The body loads both input blocks
  whole and stores the output block whole, so what it leaves is one function of the two input blocks. The array read
  twice is held in two halves of the full share, one per window.
-/
import proofs.«123244_j24532853195159_2_alg».proof.Proof.Gen.Kernel.Launch
import proofs.«123244_j24532853195159_2_alg».proof.Proof.Gen.Kernel.Skeleton
import proofs.«123244_j24532853195159_2_alg».proof.Proof.Gen.Kernel.Points
import proofs.«123244_j24532853195159_2_alg».proof.Proof.KPayTerms
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, its
    index has not moved), for any proof data whose array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S128x128x20 := Rect.unit (s := S128x128x20) ![0, 0, 0] S128x128x20.size inb_S128x128x20_S128x128x20_0_0_0
abbrev r2_1 : Rect S32x128x20 := Rect.unit (s := S32x128x20) ![0, 0, 0] S32x128x20.size inb_S32x128x20_S32x128x20_0_0_0
abbrev r2_2 : Rect S32x128 := Rect.unit (s := S32x128) ![0, 0] S32x128.size inb_S32x128_S32x128_0_0

/-! ## What the body leaves in the output window's buffer -/

/-- The output buffer after the body: its one store, of the pairwise term's block of the two input blocks. -/
def out2_2 (x0 : Vec F S128x128x20 .f32) (x1 : Vec F S32x128x20 .f32) : Vec F S32x128 .f32 :=
  View.canon [⟨r2_2, pay2 (View.ld x0 r2_0) (View.ld x1 r2_1)⟩]

/-- The store covers the buffer. -/
theorem cover2_2 (p0 : Vec F S32x128 .f32) (y : S32x128.Idx) :
    ∃ pc ∈ ([⟨r2_2, p0⟩] : List (View.Piece (Elt F) S32x128 .f32)), y ∈ pc.1.set :=
  View.cover_of_tiled [⟨r2_2, p0⟩] S32x128.size (by rfl) y

/-! ## The body's triple -/

set_option maxHeartbeats 4000000 in
/-- The body on whole staging memrefs, the inputs' at read contents and the output's at anything, runs to the
    continuation holding the inputs' as they were and the output's at out2_2 of the inputs'. -/
theorem sound_kernel2 (c : Dev nD) (E : Set ℕ) (i : grid2.Coords) (arg2 : Memref sig .tc .vmem S128x128x20 .f32) (harg2 : arg2.IsWhole)
    (arg3 : Memref sig .tc .vmem S32x128x20 .f32) (harg3 : arg3.IsWhole) (arg4 : Memref sig .tc .vmem S32x128 .f32) (harg4 : arg4.IsWhole)
    (x0 : Vec F S128x128x20 .f32) (x1 : Vec F S32x128x20 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__mbd_pairwise_kernel i arg2 harg2 arg3 harg3 arg4 harg4) K := by
  simp only [cc2__mbd_pairwise_kernel_eq_skeleton]; unfold cc2__mbd_pairwise_kernel_skel
  simp only [k2_part1_eq_skeleton, k2_part2_eq_skeleton, k2_part3_eq_skeleton, k2_part4_eq_skeleton]
  unfold k2_part1_skel k2_part2_skel k2_part3_skel k2_part4_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the third pipeline on core c: the arrays as the region finds them; after the body at point t
    each input's buffer at its block and the output's at out2_2 of the input blocks; the scoped rest and the generator
    register untouched; nothing owed; the array read through both input windows dealt in halves. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.KRun.lean ====
/-
  The run of the kernel program: three host stretches, each followed by a kernel region, and a last host stretch.
  The contents of a core's unscoped buffers at each boundary are a fold from the launch memory: a host stretch applies
  its operations, a region replaces its output array by what its write-backs leave. Every region is a segment entered
  from all unscoped buffers held at the boundary's contents; the third region's input array, read through two
  windows, is split into two halves of the full share on entry and made whole again on exit. The run ends with every
  unscoped buffer of every core at the last boundary's contents.
-/
import proofs.«123244_j24532853195159_2_alg».proof.Proof.Gen.Kernel.Launch
import proofs.«123244_j24532853195159_2_alg».proof.Proof.Gen.Kernel.Skeleton
import proofs.«123244_j24532853195159_2_alg».proof.Proof.Gen.Kernel.Points
import proofs.«123244_j24532853195159_2_alg».proof.Proof.KBody0
import proofs.«123244_j24532853195159_2_alg».proof.Proof.KBody1
import proofs.«123244_j24532853195159_2_alg».proof.Proof.KBody2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (the three bias rows recast). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (T recast as a matrix). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the features recast as [128, 512, 20]). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At the third region's exit: its output array at what the pipeline leaves, every other buffer as entered. -/
def W6 (c : Dev nD) : Valuation τ sig (Elt F) :=
  Function.update (W5 m ρ c) (Proc.devRef .tc main_v7) ((dat2 (V5 m ρ) c).arrAt 2 cfg2.N)
theorem W6_out (c : Dev nD) : W6 m ρ c (Proc.devRef .tc main_v7) = (dat2 (V5 m ρ) c).arrAt 2 cfg2.N := by
  unfold W6; exact Function.update_self ..
theorem W6_of_ne (c : Dev nD) (b : Ref sig .tc) (hb : b ≠ main_v7) : W6 m ρ c (Proc.devRef .tc b) = W5 m ρ c (Proc.devRef .tc b) := by
  unfold W6; exact Function.update_of_ne (StableHlo.devRef_ne_of_ne hb) ..
/-- After the last host stretch (the two projections, their sum and the bias). -/
abbrev W7 : Dev nD → Valuation τ sig (Elt F) := fun c => StableHlo.after hostOps3 (W6 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at W1, left at W2. Its arrays are sorted out of
    the unscoped buffers and put back at the exit contents; the generator register goes into the invariant and comes
    out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its arrays are sorted out of
    the unscoped buffers and put back at the exit contents; the generator register goes into the invariant and comes
    out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The third region: its input array in two halves -/

section Shares

variable (V : (c : Dev nD) → (b : Ref sig .tc) → Buf (Elt F) ((c : Thread nD τ).loc b))

/-- The third pipeline's arrays, window by window: the features at the left and at the right half of the full share,
    the output whole. -/
theorem arrays2_eq (c : Dev nD) (Fn : (w : Fin cfg2.W) → Buf (Elt F) ((cfg2.win w).arr.view.loc (c.tc : Thread nD τ))) :
    ((dat2 V c).arrays Fn : sProp 𝕄) = iprop((((c : Thread nD τ).loc main_v6) ↦{fullShare.left} Fn 0) ∗ (((c : Thread nD τ).loc main_v6) ↦{fullShare.right} Fn 1) ∗ (((c : Thread nD τ).loc main_v7) ↦{fullShare} Fn 2)) := by
  unfold Dat.arrays
  rw [bigSep_W2]
  rw [(arr_whole2 0).set_eq_univ, (arr_whole2 2).set_eq_univ]
  rfl

/-- The array read through both input windows, whole at the full share, is its two halves; the output array stays whole. -/
theorem arrays2_of_bufs (c : Dev nD) (Fn : (w : Fin cfg2.W) → Buf (Elt F) ((cfg2.win w).arr.view.loc (c.tc : Thread nD τ)))
    (G6 : Buf (Elt F) ((c : Thread nD τ).loc main_v6)) (G7 : Buf (Elt F) ((c : Thread nD τ).loc main_v7))
    (h0 : Fn 0 = G6) (h1 : Fn 1 = G6) (h2 : Fn 2 = G7) :
    ((dat2 V c).arrays Fn : sProp 𝕄) ⊣⊢ iprop((((c : Thread nD τ).loc main_v6) ↦{fullShare} G6) ∗ (((c : Thread nD τ).loc main_v7) ↦{fullShare} G7)) := by
  rw [arrays2_eq, h0, h1, h2]
  have hs : ((((c : Thread nD τ).loc main_v6) ↦{fullShare} G6 : sProp 𝕄)) ⊣⊢ iprop((((c : Thread nD τ).loc main_v6) ↦{fullShare.left} G6) ∗ (((c : Thread nD τ).loc main_v6) ↦{fullShare.right} G6)) :=
    pointsTo_share (PosShare.mem_left_op_right fullShare)
  constructor
  · iintro ⟨Ha, Hb, Hc⟩
    isplitl [Ha Hb]
    · iapply hs.2; isplitl [Ha] <;> iassumption
    iexact Hc
  · refine (sep_mono hs.1 .rfl).trans ?_
    iintro ⟨⟨Ha, Hb⟩, Hc⟩
    isplitl [Ha]; · iexact Ha
    isplitl [Hb]; · iexact Hb
    iexact Hc

end Shares

/-- The buffers behind the third region's arrays: the features and the output, each once. -/
theorem arrBufs2_eq (c : Dev nD) (Vb : (b : Ref sig .tc) → Buf (Elt F) ((c : Thread nD τ).loc b)) :
    (Pipeline.arrBufs (Ix := Unit) (Name := ℕ) (U := UR sig nD τ) (Lvl := ℕ) spec2 c Vb : sProp 𝕄)
      = iprop((((c : Thread nD τ).loc main_v6) ↦{fullShare} Vb main_v6) ∗ (((c : Thread nD τ).loc main_v7) ↦{fullShare} Vb main_v7)) := by
  unfold Pipeline.arrBufs
  rw [show Finset.univ.image (Pipeline.arrRef spec2) = {main_v6, main_v7} from by decide, bigSep_insert (by decide), bigSep_singleton]
  rfl

/-- A core's unscoped buffers: the features, the third region's output, and the rest. -/
theorem bufs2_split (c : Dev nD) (Vb : (b : Ref sig .tc) → Buf (Elt F) ((c : Thread nD τ).loc b)) :
    (unscopedBufs c Vb : sProp 𝕄) = iprop(((((c : Thread nD τ).loc main_v6) ↦{fullShare} Vb main_v6) ∗ (((c : Thread nD τ).loc main_v7) ↦{fullShare} Vb main_v7))
      ∗ Pipeline.unscopedRest spec2 c Vb) := by
  have h : (unscopedBufs c Vb : sProp 𝕄) = iprop(Pipeline.arrBufs spec2 c Vb ∗ Pipeline.unscopedRest spec2 c Vb) :=
    Pipeline.unscopedBufs_split₀ (Pipeline.pin (pcfgs (F := F)) adm) 2 winFacts₀2.arr_unscoped c Vb
  rw [h, arrBufs2_eq]

/-- No buffer other than the third region's output differs between its entry and its exit. -/
theorem rest2_eq (c : Dev nD) :
    (Pipeline.unscopedRest (Ix := Unit) (Name := ℕ) (U := UR sig nD τ) (Lvl := ℕ) spec2 c (V5 m ρ c) : sProp 𝕄)
      = Pipeline.unscopedRest spec2 c (fun b => W6 m ρ c b) := by
  unfold Pipeline.unscopedRest
  exact bigSep_congr fun b hb => by
    dsimp only
    rw [W6_of_ne m ρ c b (fun e => (Finset.mem_sdiff.mp hb).2 (e ▸ (by decide : main_v7 ∈ Finset.univ.image (Pipeline.arrRef spec2))))]

set_option backward.isDefEq.respectTransparency.types false in
/-- Region 2 over the thread state: entered from every unscoped buffer at W5, left at W6. The features' array, whole at
    entry, is dealt in halves to the two windows that read it and made whole again at exit (no point writes it); the
    output array leaves at what the write-backs made of it. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none, ← Pipeline.unscopedBufs_held c (W5 m ρ c), bufs2_split c (V5 m ρ c)]
    have ha := (arrays2_of_bufs (V5 m ρ) c ((dat2 (V5 m ρ) c).arrAt · 0) (V5 m ρ c main_v6) (V5 m ρ c main_v7) rfl rfl rfl).2
    iintro ⟨⟨⟨⟨H6, H7⟩, Hrest⟩, Hp, HO⟩, -, -⟩
    ihave Ha := ha $$ [H6 H7]
    · isplitl [H6] <;> iassumption
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    rw [← Pipeline.unscopedBufs_held c (W6 m ρ c), bufs2_split c (fun b => W6 m ρ c b), ← rest2_eq m ρ c]
    have ha := (arrays2_of_bufs (V5 m ρ) c ((dat2 (V5 m ρ) c).arrAt · cfg2.N) (W6 m ρ c main_v6) (W6 m ρ c main_v7)
      ((((dat2 (V5 m ρ) c).arrAt_in 0 rfl _).trans (A_eq2 (V5 m ρ) c 0)).trans (W6_of_ne m ρ c main_v6 (by decide)).symm)
      ((((dat2 (V5 m ρ) c).arrAt_in 1 rfl _).trans (A_eq2 (V5 m ρ) c 1)).trans (W6_of_ne m ρ c main_v6 (by decide)).symm)
      (W6_out m ρ c).symm).1
    iintro ⟨Ha, HO, HY, Hrest⟩
    ihave Hb := ha $$ [Ha]
    · iexact Ha
    imodintro
    isplitl [Hb Hrest]
    · isplitl [Hb] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ),
    .host (hseg hostOps2 hostOps2_sub hostOps2_fresh' (W4 m ρ)),
    .region (reg2 m ρ),
    .host (hseg hostOps3 hostOps3_sub hostOps3_fresh' (W6 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final state every unscoped buffer of every core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-! ## The arguments end as launched

No host operation writes an argument and no region's output is one: a region reads an argument through an input
window, which leaves the array as entered, or passes it by. -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- The frame: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c)⟩)
    (run_main m ρ)

end Cert.Kernel.Run

end
-- ==== Proof.Spec.lean ====
/-
  The mathematics both programs compute, as functions on the extended reals over literal index ranges.

  A dense layer is x·W + b followed by the leaky rectifier v ↦ v if 0 ≤ v, else c·v (c the float word of 0.01);
  three of them give the hidden activations h : 128 × 1024. The minibatch features are m[p,o,k] = Σ_j h[p,j]·T[j,o,k];
  the pairwise term is ob[p,o] = (Σ_r exp(0 − Σ_k |m[r,o,k] − m[p,o,k]|)) − 1, with |v| = max v (−v); and the
  result is out[p] = Σ_j h[p,j]·Wc[j] + Σ_o ob[p,o]·Wc[1024+o] + bc. Float words are kept as words.
-/
import Idealize.ShloMosaic.PureOps.Ideal
import Idealize.ShloMosaic.Lib.ValueIdx

noncomputable section

namespace Cert.Spec

open Idealize.ShloMosaic

/-- The float words of 0, 0.01 and 1 as extended reals. -/
abbrev zeroW : EReal := Ideal.ofBits .f32 0x00000000#32
abbrev slopeW : EReal := Ideal.ofBits .f32 0x3C23D70A#32
abbrev oneW : EReal := Ideal.ofBits .f32 0x3F800000#32

/-- The leaky rectifier: v where 0 ≤ v, the slope times v elsewhere. -/
def leaky (v : EReal) : EReal := Scalar.select (Ideal.cmp .oge v zeroW) v (slopeW * v)

/-- The absolute value as the operations spell it. -/
def absE (v : EReal) : EReal := max v (-v)

/-- One dense layer with the leaky rectifier. -/
def dense {a n b : Nat} (x : Fin a → Fin n → EReal) (W : Fin n → Fin b → EReal) (bias : Fin b → EReal)
    (i : Fin a) (j : Fin b) : EReal :=
  leaky ((∑ k : Fin n, x i k * W k j) + bias j)

/-- The hidden activations after the three layers. -/
def hid (x : Fin 128 → Fin 512 → EReal) (W1 : Fin 512 → Fin 512 → EReal) (b1 : Fin 512 → EReal)
    (W2 : Fin 512 → Fin 1024 → EReal) (b2 : Fin 1024 → EReal) (W3 : Fin 1024 → Fin 1024 → EReal) (b3 : Fin 1024 → EReal) :
    Fin 128 → Fin 1024 → EReal :=
  dense (dense (dense x W1 b1) W2 b2) W3 b3

/-- The minibatch features: the activations against the tensor T. -/
def mbd (h : Fin 128 → Fin 1024 → EReal) (T : Fin 1024 → Fin 512 → Fin 20 → EReal)
    (p : Fin 128) (o : Fin 512) (k : Fin 20) : EReal :=
  ∑ j : Fin 1024, h p j * T j o k

/-- The L1 distance between rows r and p of feature o. -/
def dist (m : Fin 128 → Fin 512 → Fin 20 → EReal) (r p : Fin 128) (o : Fin 512) : EReal :=
  ∑ k : Fin 20, absE (m r o k - m p o k)

/-- The pairwise term: over all rows r, exp of minus the distance to row p, less one. -/
def pair (m : Fin 128 → Fin 512 → Fin 20 → EReal) (p : Fin 128) (o : Fin 512) : EReal :=
  (∑ r : Fin 128, Ideal.exp (zeroW - dist m r p o)) - oneW

/-- The last projection, its 1536 weights split at 1024. -/
def head (h : Fin 128 → Fin 1024 → EReal) (ob : Fin 128 → Fin 512 → EReal) (Wc : Fin 1536 → EReal) (bc : EReal)
    (p : Fin 128) : EReal :=
  ((∑ j : Fin 1024, h p j * Wc ⟨j.val, by omega⟩) + (∑ o : Fin 512, ob p o * Wc ⟨1024 + o.val, by omega⟩)) + bc

/-- The whole result. -/
def out (x : Fin 128 → Fin 512 → EReal) (W1 : Fin 512 → Fin 512 → EReal) (b1 : Fin 512 → EReal)
    (W2 : Fin 512 → Fin 1024 → EReal) (b2 : Fin 1024 → EReal) (W3 : Fin 1024 → Fin 1024 → EReal) (b3 : Fin 1024 → EReal)
    (T : Fin 1024 → Fin 512 → Fin 20 → EReal) (Wc : Fin 1536 → EReal) (bc : EReal) (p : Fin 128) : EReal :=
  head (hid x W1 b1 W2 b2 W3 b3) (pair (mbd (hid x W1 b1 W2 b2 W3 b3) T)) Wc bc p

end Cert.Spec

end
-- ==== Proof.PayValue0.lean ====
/-
  The first kernel's stored block read at an index: three dense layers with the leaky rectifier, each the product
  of the previous activations (cut to the short float format: the identity at the ideal values) with the loaded
  weights into the zero accumulator — the plain sum over the contracted coordinate — plus the one-row bias
  repeated down the rows, then v where 0 ≤ v and the slope times v elsewhere. Entry (p, j) of the block is the
  third layer of the specification at row p and column j of the loaded weight block.
-/
import proofs.«123244_j24532853195159_2_alg».proof.Proof.PayTerms
import proofs.«123244_j24532853195159_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

theorem mm_512_512_lhs0 (i : S128x512.Idx) (q : dot_S128x512_S512x512_S128x512_1_0_0_1_n_n.contr.Idx) :
    (dot_S128x512_S512x512_S128x512_1_0_0_1_n_n.lhsIdx i q 0).val = (i 0).val := by
  unfold DotDims.lhsIdx
  rw [dif_neg (show ¬(0 : Fin S128x512.rank) ∈ dot_S128x512_S512x512_S128x512_1_0_0_1_n_n.lhsBatch by decide), dif_pos (show (0 : Fin S128x512.rank) ∈ dot_S128x512_S512x512_S128x512_1_0_0_1_n_n.lhsNonContracting by decide)]
  rfl
theorem mm_512_512_lhs1 (i : S128x512.Idx) (q : dot_S128x512_S512x512_S128x512_1_0_0_1_n_n.contr.Idx) :
    (dot_S128x512_S512x512_S128x512_1_0_0_1_n_n.lhsIdx i q 1).val = (q ⟨0, by decide⟩).val :=
  dot_S128x512_S512x512_S128x512_1_0_0_1_n_n.lhsIdx_val_of_single rfl i q
theorem mm_512_512_rhs0 (i : S128x512.Idx) (q : dot_S128x512_S512x512_S128x512_1_0_0_1_n_n.contr.Idx) :
    (dot_S128x512_S512x512_S128x512_1_0_0_1_n_n.rhsIdx i q 0).val = (q ⟨0, by decide⟩).val :=
  dot_S128x512_S512x512_S128x512_1_0_0_1_n_n.rhsIdx_val_of_single rfl i q
theorem mm_512_512_rhs1 (i : S128x512.Idx) (q : dot_S128x512_S512x512_S128x512_1_0_0_1_n_n.contr.Idx) :
    (dot_S128x512_S512x512_S128x512_1_0_0_1_n_n.rhsIdx i q 1).val = (i 1).val := by
  unfold DotDims.rhsIdx
  rw [dif_neg (show ¬(1 : Fin S512x512.rank) ∈ dot_S128x512_S512x512_S128x512_1_0_0_1_n_n.rhsBatch by decide), dif_pos (show (1 : Fin S512x512.rank) ∈ dot_S128x512_S512x512_S128x512_1_0_0_1_n_n.rhsNonContracting by decide)]
  rfl

/-- The matrix unit's product of a 128 × 512 block with a 512 × 512 block into the zero accumulator, read at (p, n):
    the sum over the contracted coordinate of the products of the entries. -/
theorem mm_512_512_apply {φ₁ φ₂ : FTy} (A : FVec Ideal S128x512 φ₁) (B : FVec Ideal S512x512 φ₂) (p : Fin 128) (n : Fin 512) :
    matmul dot_S128x512_S512x512_S128x512_1_0_0_1_n_n none A B (constant (F := Ideal) S128x512 .f32 0x00000000#32) (ix2 p n)
      = ∑ j : Fin 512, A (ix2 p j) * B (ix2 j n) := by
  show FloatOps.matmul _ none A B _ (ix2 p n) = _
  rw [Ideal.matmul_constant_zero_apply, ← Equiv.sum_comp (contrEquiv1 dot_S128x512_S512x512_S128x512_1_0_0_1_n_n 512 rfl rfl).symm]
  refine Finset.sum_congr rfl fun k _ => ?_
  have hk := contrEquiv1_symm_val dot_S128x512_S512x512_S128x512_1_0_0_1_n_n 512 rfl rfl k
  have el : dot_S128x512_S512x512_S128x512_1_0_0_1_n_n.lhsIdx (ix2 p n) ((contrEquiv1 dot_S128x512_S512x512_S128x512_1_0_0_1_n_n 512 rfl rfl).symm k) = ix2 p k :=
    funext fun a => Fin.ext (by
      match a with
      | ⟨0, _⟩ => exact mm_512_512_lhs0 _ _
      | ⟨1, _⟩ => exact (mm_512_512_lhs1 _ _).trans hk)
  have er : dot_S128x512_S512x512_S128x512_1_0_0_1_n_n.rhsIdx (ix2 p n) ((contrEquiv1 dot_S128x512_S512x512_S128x512_1_0_0_1_n_n 512 rfl rfl).symm k) = ix2 k n :=
    funext fun a => Fin.ext (by
      match a with
      | ⟨0, _⟩ => exact (mm_512_512_rhs0 _ _).trans hk
      | ⟨1, _⟩ => exact mm_512_512_rhs1 _ _)
  rw [el, er]

theorem mm_512_1024_lhs0 (i : S128x1024.Idx) (q : dot_S128x512_S512x1024_S128x1024_1_0_0_1_n_n.contr.Idx) :
    (dot_S128x512_S512x1024_S128x1024_1_0_0_1_n_n.lhsIdx i q 0).val = (i 0).val := by
  unfold DotDims.lhsIdx
  rw [dif_neg (show ¬(0 : Fin S128x512.rank) ∈ dot_S128x512_S512x1024_S128x1024_1_0_0_1_n_n.lhsBatch by decide), dif_pos (show (0 : Fin S128x512.rank) ∈ dot_S128x512_S512x1024_S128x1024_1_0_0_1_n_n.lhsNonContracting by decide)]
  rfl
theorem mm_512_1024_lhs1 (i : S128x1024.Idx) (q : dot_S128x512_S512x1024_S128x1024_1_0_0_1_n_n.contr.Idx) :
    (dot_S128x512_S512x1024_S128x1024_1_0_0_1_n_n.lhsIdx i q 1).val = (q ⟨0, by decide⟩).val :=
  dot_S128x512_S512x1024_S128x1024_1_0_0_1_n_n.lhsIdx_val_of_single rfl i q
theorem mm_512_1024_rhs0 (i : S128x1024.Idx) (q : dot_S128x512_S512x1024_S128x1024_1_0_0_1_n_n.contr.Idx) :
    (dot_S128x512_S512x1024_S128x1024_1_0_0_1_n_n.rhsIdx i q 0).val = (q ⟨0, by decide⟩).val :=
  dot_S128x512_S512x1024_S128x1024_1_0_0_1_n_n.rhsIdx_val_of_single rfl i q
theorem mm_512_1024_rhs1 (i : S128x1024.Idx) (q : dot_S128x512_S512x1024_S128x1024_1_0_0_1_n_n.contr.Idx) :
    (dot_S128x512_S512x1024_S128x1024_1_0_0_1_n_n.rhsIdx i q 1).val = (i 1).val := by
  unfold DotDims.rhsIdx
  rw [dif_neg (show ¬(1 : Fin S512x1024.rank) ∈ dot_S128x512_S512x1024_S128x1024_1_0_0_1_n_n.rhsBatch by decide), dif_pos (show (1 : Fin S512x1024.rank) ∈ dot_S128x512_S512x1024_S128x1024_1_0_0_1_n_n.rhsNonContracting by decide)]
  rfl

/-- The same for a 128 × 512 block against a 512 × 1024 block. -/
theorem mm_512_1024_apply {φ₁ φ₂ : FTy} (A : FVec Ideal S128x512 φ₁) (B : FVec Ideal S512x1024 φ₂) (p : Fin 128) (n : Fin 1024) :
    matmul dot_S128x512_S512x1024_S128x1024_1_0_0_1_n_n none A B (constant (F := Ideal) S128x1024 .f32 0x00000000#32) (ix2 p n)
      = ∑ j : Fin 512, A (ix2 p j) * B (ix2 j n) := by
  show FloatOps.matmul _ none A B _ (ix2 p n) = _
  rw [Ideal.matmul_constant_zero_apply, ← Equiv.sum_comp (contrEquiv1 dot_S128x512_S512x1024_S128x1024_1_0_0_1_n_n 512 rfl rfl).symm]
  refine Finset.sum_congr rfl fun k _ => ?_
  have hk := contrEquiv1_symm_val dot_S128x512_S512x1024_S128x1024_1_0_0_1_n_n 512 rfl rfl k
  have el : dot_S128x512_S512x1024_S128x1024_1_0_0_1_n_n.lhsIdx (ix2 p n) ((contrEquiv1 dot_S128x512_S512x1024_S128x1024_1_0_0_1_n_n 512 rfl rfl).symm k) = ix2 p k :=
    funext fun a => Fin.ext (by
      match a with
      | ⟨0, _⟩ => exact mm_512_1024_lhs0 _ _
      | ⟨1, _⟩ => exact (mm_512_1024_lhs1 _ _).trans hk)
  have er : dot_S128x512_S512x1024_S128x1024_1_0_0_1_n_n.rhsIdx (ix2 p n) ((contrEquiv1 dot_S128x512_S512x1024_S128x1024_1_0_0_1_n_n 512 rfl rfl).symm k) = ix2 k n :=
    funext fun a => Fin.ext (by
      match a with
      | ⟨0, _⟩ => exact (mm_512_1024_rhs0 _ _).trans hk
      | ⟨1, _⟩ => exact mm_512_1024_rhs1 _ _)
  rw [el, er]

theorem mm_1024_512_lhs0 (i : S128x512.Idx) (q : dot_S128x1024_S1024x512_S128x512_1_0_0_1_n_n.contr.Idx) :
    (dot_S128x1024_S1024x512_S128x512_1_0_0_1_n_n.lhsIdx i q 0).val = (i 0).val := by
  unfold DotDims.lhsIdx
  rw [dif_neg (show ¬(0 : Fin S128x1024.rank) ∈ dot_S128x1024_S1024x512_S128x512_1_0_0_1_n_n.lhsBatch by decide), dif_pos (show (0 : Fin S128x1024.rank) ∈ dot_S128x1024_S1024x512_S128x512_1_0_0_1_n_n.lhsNonContracting by decide)]
  rfl
theorem mm_1024_512_lhs1 (i : S128x512.Idx) (q : dot_S128x1024_S1024x512_S128x512_1_0_0_1_n_n.contr.Idx) :
    (dot_S128x1024_S1024x512_S128x512_1_0_0_1_n_n.lhsIdx i q 1).val = (q ⟨0, by decide⟩).val :=
  dot_S128x1024_S1024x512_S128x512_1_0_0_1_n_n.lhsIdx_val_of_single rfl i q
theorem mm_1024_512_rhs0 (i : S128x512.Idx) (q : dot_S128x1024_S1024x512_S128x512_1_0_0_1_n_n.contr.Idx) :
    (dot_S128x1024_S1024x512_S128x512_1_0_0_1_n_n.rhsIdx i q 0).val = (q ⟨0, by decide⟩).val :=
  dot_S128x1024_S1024x512_S128x512_1_0_0_1_n_n.rhsIdx_val_of_single rfl i q
theorem mm_1024_512_rhs1 (i : S128x512.Idx) (q : dot_S128x1024_S1024x512_S128x512_1_0_0_1_n_n.contr.Idx) :
    (dot_S128x1024_S1024x512_S128x512_1_0_0_1_n_n.rhsIdx i q 1).val = (i 1).val := by
  unfold DotDims.rhsIdx
  rw [dif_neg (show ¬(1 : Fin S1024x512.rank) ∈ dot_S128x1024_S1024x512_S128x512_1_0_0_1_n_n.rhsBatch by decide), dif_pos (show (1 : Fin S1024x512.rank) ∈ dot_S128x1024_S1024x512_S128x512_1_0_0_1_n_n.rhsNonContracting by decide)]
  rfl

/-- The same for a 128 × 1024 block against a 1024 × 512 block. -/
theorem mm_1024_512_apply {φ₁ φ₂ : FTy} (A : FVec Ideal S128x1024 φ₁) (B : FVec Ideal S1024x512 φ₂) (p : Fin 128) (n : Fin 512) :
    matmul dot_S128x1024_S1024x512_S128x512_1_0_0_1_n_n none A B (constant (F := Ideal) S128x512 .f32 0x00000000#32) (ix2 p n)
      = ∑ j : Fin 1024, A (ix2 p j) * B (ix2 j n) := by
  show FloatOps.matmul _ none A B _ (ix2 p n) = _
  rw [Ideal.matmul_constant_zero_apply, ← Equiv.sum_comp (contrEquiv1 dot_S128x1024_S1024x512_S128x512_1_0_0_1_n_n 1024 rfl rfl).symm]
  refine Finset.sum_congr rfl fun k _ => ?_
  have hk := contrEquiv1_symm_val dot_S128x1024_S1024x512_S128x512_1_0_0_1_n_n 1024 rfl rfl k
  have el : dot_S128x1024_S1024x512_S128x512_1_0_0_1_n_n.lhsIdx (ix2 p n) ((contrEquiv1 dot_S128x1024_S1024x512_S128x512_1_0_0_1_n_n 1024 rfl rfl).symm k) = ix2 p k :=
    funext fun a => Fin.ext (by
      match a with
      | ⟨0, _⟩ => exact mm_1024_512_lhs0 _ _
      | ⟨1, _⟩ => exact (mm_1024_512_lhs1 _ _).trans hk)
  have er : dot_S128x1024_S1024x512_S128x512_1_0_0_1_n_n.rhsIdx (ix2 p n) ((contrEquiv1 dot_S128x1024_S1024x512_S128x512_1_0_0_1_n_n 1024 rfl rfl).symm k) = ix2 k n :=
    funext fun a => Fin.ext (by
      match a with
      | ⟨0, _⟩ => exact (mm_1024_512_rhs0 _ _).trans hk
      | ⟨1, _⟩ => exact mm_1024_512_rhs1 _ _)
  rw [el, er]

/-- The rectifier as the kernel spells it — a select on the comparison with the zero word between the value and
    the slope word times the value — is, entry by entry, the specification's rectifier. -/
theorem leaky_apply {s : Shape} (L : FVec Ideal s .f32) (i : s.Idx) :
    select (cmpf .oge L (broadcast s (Scalar.ofBits (F := Ideal) .f32 0x00000000#32))) L
        (mulf (broadcast s (Scalar.ofBits (F := Ideal) .f32 0x3C23D70A#32)) L) i
      = Cert.Spec.leaky (L i) := rfl

/-- The third layer before its rectifier, at (p, j): the second layer's activations of row p against column j of
    the loaded weights, plus the bias at j. -/
theorem pre3_apply (v0 : Vec Ideal S128x512 .f32) (v2 : Vec Ideal S512x512 .f32) (v5 : Vec Ideal S1x512 .f32)
    (v15 : Vec Ideal S512x1024 .f32) (v18 : Vec Ideal S1x1024 .f32) (v28 : Vec Ideal S1024x512 .f32)
    (v31 : Vec Ideal S1x512 .f32) (p : Fin 128) (j : Fin 512) :
    k0_pay2 v0 v2 v5 v15 v18 v28 v31 (ix2 p j)
      = (∑ k : Fin 1024,
          Cert.Spec.dense (Cert.Spec.dense (fun a k => v0 (ix2 a k)) (fun k b => v2 (ix2 k b)) (fun b => v5 (ix2 0 b)))
              (fun k b => v15 (ix2 k b)) (fun b => v18 (ix2 0 b)) p k * v28 (ix2 k j))
        + v31 (ix2 0 j) := by
  unfold k0_pay2
  simp only [addf_apply, mm_1024_512_apply, mm_512_1024_apply, mm_512_512_apply, shapeCast_self, broadcastTo_1b_ab_apply,
    truncf_apply, leaky_apply]
  rfl

/-- The first kernel's stored block at (p, j): the three layers of the specification over the loaded blocks. -/
theorem pay0_apply (v0 : Vec Ideal S128x512 .f32) (v2 : Vec Ideal S512x512 .f32) (v5 : Vec Ideal S1x512 .f32)
    (v15 : Vec Ideal S512x1024 .f32) (v18 : Vec Ideal S1x1024 .f32) (v28 : Vec Ideal S1024x512 .f32)
    (v31 : Vec Ideal S1x512 .f32) (p : Fin 128) (j : Fin 512) :
    pay0 v0 v2 v5 v15 v18 v28 v31 (ix2 p j)
      = Cert.Spec.dense (Cert.Spec.dense (Cert.Spec.dense (fun a k => v0 (ix2 a k)) (fun k b => v2 (ix2 k b)) (fun b => v5 (ix2 0 b)))
          (fun k b => v15 (ix2 k b)) (fun b => v18 (ix2 0 b))) (fun k b => v28 (ix2 k b)) (fun b => v31 (ix2 0 b)) p j := by
  unfold pay0 k0_pay1 k0_pay3
  simp only [leaky_apply, pre3_apply]
  rfl

end Cert.KernelIdeal.PayValue

end
-- ==== Proof.Value0.lean ====
/-
  The first region read as a whole: its two points each write back one column block [128,512] of the third layer's
  activations, computed from the batch, the first two layers' weights and biases whole, and the matching column
  blocks of the third layer's weight and bias; the two blocks tile the output array [128,1024], so after the region
  the array is the three dense layers, entry by entry, of the arrays as the region found them.
-/
import proofs.«123244_j24532853195159_2_alg».proof.Proof.Body0
import proofs.«123244_j24532853195159_2_alg».proof.Proof.PayValue0
import proofs.«123244_j24532853195159_2_alg».proof.Proof.Spec
import Idealize.ShloMosaic.Lib.Pipeline.Value
import Idealize.ShloMosaic.Lib.ValueIdx
import Idealize.ShloMosaic.Lib.Tactic

noncomputable section

open scoped BigOperators

namespace Cert.KernelIdeal.RegionValue

open Cert.KernelIdeal Cert.KernelIdeal.Gen Cert.KernelIdeal.PayValue Idealize.ShloMosaic Idealize.ShloMosaic.TcCoe Idealize.SL.Sem
open Idealize.ShloMosaic.Pipeline (Dat)
open Idealize.ShloMosaic.ValueIdx

-- the core's buffer contents when the region is entered
variable (V : (c : Dev nD) → (b : Ref sig .tc) → Buf (Elt Ideal) ((c : Thread nD τ).loc b))

/-! # The first region's output array as one function of the contents the region is entered with -/

theorem zero_off0 : (![0, 0] : Fin 2 → Nat) = fun _ => 0 := funext fun a => by fin_cases a <;> rfl

/-- The three dense layers of the arrays the region is entered with, entry by entry. -/
def layers0 (c : Dev nD) : S128x1024.Idx → EReal :=
  fun i => Cert.Spec.dense (Cert.Spec.dense (Cert.Spec.dense (fun a k => (V c main_arg0 : S128x512.Idx → EReal) (ix2 a k)) (fun k b => (V c main_arg1 : S512x512.Idx → EReal) (ix2 k b)) (fun b => (V c main_v0 : S1x512.Idx → EReal) (ix2 0 b))) (fun k b => (V c main_arg3 : S512x1024.Idx → EReal) (ix2 k b)) (fun b => (V c main_v1 : S1x1024.Idx → EReal) (ix2 0 b))) (fun k b => (V c main_arg5 : S1024x1024.Idx → EReal) (ix2 k b)) (fun b => (V c main_v2 : S1x1024.Idx → EReal) (ix2 0 b)) (i 0) (i 1)

/-! ## The printed index maps over the grid's two points

The five whole windows stay on their one block; the third layer's weight, its bias and the output sit on column
block `t`. -/

theorem idx_facts0_0 : ∀ t : Fin cfg0.N, win0_0.index t (0 : Fin 2) = 0 ∧ win0_0.index t (1 : Fin 2) = 0 :=
  (by decide +kernel : ∀ t : Fin grid0.N, _)
theorem idx_facts0_1 : ∀ t : Fin cfg0.N, win0_1.index t (0 : Fin 2) = 0 ∧ win0_1.index t (1 : Fin 2) = 0 :=
  (by decide +kernel : ∀ t : Fin grid0.N, _)
theorem idx_facts0_2 : ∀ t : Fin cfg0.N, win0_2.index t (0 : Fin 2) = 0 ∧ win0_2.index t (1 : Fin 2) = 0 :=
  (by decide +kernel : ∀ t : Fin grid0.N, _)
theorem idx_facts0_3 : ∀ t : Fin cfg0.N, win0_3.index t (0 : Fin 2) = 0 ∧ win0_3.index t (1 : Fin 2) = 0 :=
  (by decide +kernel : ∀ t : Fin grid0.N, _)
theorem idx_facts0_4 : ∀ t : Fin cfg0.N, win0_4.index t (0 : Fin 2) = 0 ∧ win0_4.index t (1 : Fin 2) = 0 :=
  (by decide +kernel : ∀ t : Fin grid0.N, _)
theorem idx_facts0_5 : ∀ t : Fin cfg0.N, win0_5.index t (0 : Fin 2) = 0 ∧ win0_5.index t (1 : Fin 2) = t.val :=
  (by decide +kernel : ∀ t : Fin grid0.N, _)
theorem idx_facts0_6 : ∀ t : Fin cfg0.N, win0_6.index t (0 : Fin 2) = 0 ∧ win0_6.index t (1 : Fin 2) = t.val :=
  (by decide +kernel : ∀ t : Fin grid0.N, _)
theorem idx_facts0_7 : ∀ t : Fin cfg0.N, win0_7.index t (0 : Fin 2) = 0 ∧ win0_7.index t (1 : Fin 2) = t.val :=
  (by decide +kernel : ∀ t : Fin grid0.N, _)

/-- An entry of a dense layer reads its weights and bias in that entry's column only. -/
theorem dense_col {a n b b' : Nat} (x : Fin a → Fin n → EReal) (W : Fin n → Fin b → EReal) (bias : Fin b → EReal)
    (W' : Fin n → Fin b' → EReal) (bias' : Fin b' → EReal) (i : Fin a) (j : Fin b) (j' : Fin b')
    (hW : ∀ k, W k j = W' k j') (hb : bias j = bias' j') :
    Cert.Spec.dense x W bias i j = Cert.Spec.dense x W' bias' i j' := by
  unfold Cert.Spec.dense
  rw [hb, Finset.sum_congr rfl fun k _ => by rw [hW k]]

/-- One element of the stored block, once each load is known: the five whole loads are their arrays, and column
    `j` of the third layer's weight and bias blocks is column `q` of their arrays. -/
theorem point0 (X : S128x512.Idx → EReal) (W1 : S512x512.Idx → EReal) (B1 : S1x512.Idx → EReal)
    (W2 : S512x1024.Idx → EReal) (B2 : S1x1024.Idx → EReal) (W3 : S1024x1024.Idx → EReal) (B3 : S1x1024.Idx → EReal)
    (x0 : Vec Ideal S128x512 .f32) (x1 : Vec Ideal S512x512 .f32) (x2 : Vec Ideal S1x512 .f32) (x3 : Vec Ideal S512x1024 .f32)
    (x4 : Vec Ideal S1x1024 .f32) (x5 : Vec Ideal S1024x512 .f32) (x6 : Vec Ideal S1x512 .f32)
    (p : Fin 128) (j : Fin 512) (q : Fin 1024)
    (h0 : x0 = X) (h1 : x1 = W1) (h2 : x2 = B1) (h3 : x3 = W2) (h4 : x4 = B2)
    (h5 : ∀ k : Fin 1024, x5 (ix2 k j) = W3 (ix2 k q)) (h6 : x6 (ix2 0 j) = B3 (ix2 0 q)) :
    pay0 x0 x1 x2 x3 x4 x5 x6 (ix2 p j) = Cert.Spec.dense (Cert.Spec.dense (Cert.Spec.dense (fun a k => X (ix2 a k)) (fun k b => W1 (ix2 k b)) (fun b => B1 (ix2 0 b))) (fun k b => W2 (ix2 k b)) (fun b => B2 (ix2 0 b))) (fun k b => W3 (ix2 k b)) (fun b => B3 (ix2 0 b)) p q := by
  subst h0 h1 h2 h3 h4
  exact (pay0_apply x0 x1 x2 x3 x4 x5 x6 p j).trans (dense_col _ _ _ _ _ p j q h5 h6)

/-! ## The input blocks read off their arrays -/

theorem iblk0_0_eq (c : Dev nD) (t : Fin cfg0.N) :
    (iblk0 V c 0 t : Vec Ideal S128x512 .f32) = (V c main_arg0 : S128x512.Idx → EReal) := by
  obtain ⟨e0, e1⟩ := idx_facts0_0 t
  funext y
  unfold iblk0
  rw [View.read_apply]
  show V c main_arg0 _ = V c main_arg0 y
  congr 1
  funext a
  apply Fin.ext
  match a with
  | ⟨0, _⟩ => show win0_0.index t (0 : Fin 2) * 128 + 1 * (y 0).val = (y 0).val; rw [e0]; omega
  | ⟨1, _⟩ => show win0_0.index t (1 : Fin 2) * 512 + 1 * (y 1).val = (y 1).val; rw [e1]; omega
theorem iblk0_1_eq (c : Dev nD) (t : Fin cfg0.N) :
    (iblk0 V c 1 t : Vec Ideal S512x512 .f32) = (V c main_arg1 : S512x512.Idx → EReal) := by
  obtain ⟨e0, e1⟩ := idx_facts0_1 t
  funext y
  unfold iblk0
  rw [View.read_apply]
  show V c main_arg1 _ = V c main_arg1 y
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 512 + 1 * (y 1).val = (y 1).val; rw [e1]; omega
theorem iblk0_2_eq (c : Dev nD) (t : Fin cfg0.N) :
    (iblk0 V c 2 t : Vec Ideal S1x512 .f32) = (V c main_v0 : S1x512.Idx → EReal) := by
  obtain ⟨e0, e1⟩ := idx_facts0_2 t
  funext y
  unfold iblk0
  rw [View.read_apply]
  show V c main_v0 _ = V c main_v0 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 512 + 1 * (y 1).val = (y 1).val; rw [e1]; omega
theorem iblk0_3_eq (c : Dev nD) (t : Fin cfg0.N) :
    (iblk0 V c 3 t : Vec Ideal S512x1024 .f32) = (V c main_arg3 : S512x1024.Idx → EReal) := by
  obtain ⟨e0, e1⟩ := idx_facts0_3 t
  funext y
  unfold iblk0
  rw [View.read_apply]
  show V c main_arg3 _ = V c main_arg3 y
  congr 1
  funext a
  apply Fin.ext
  match a with
  | ⟨0, _⟩ => show win0_3.index t (0 : Fin 2) * 512 + 1 * (y 0).val = (y 0).val; rw [e0]; omega
  | ⟨1, _⟩ => show win0_3.index t (1 : Fin 2) * 1024 + 1 * (y 1).val = (y 1).val; rw [e1]; omega
theorem iblk0_4_eq (c : Dev nD) (t : Fin cfg0.N) :
    (iblk0 V c 4 t : Vec Ideal S1x1024 .f32) = (V c main_v1 : S1x1024.Idx → EReal) := by
  obtain ⟨e0, e1⟩ := idx_facts0_4 t
  funext y
  unfold iblk0
  rw [View.read_apply]
  show V c main_v1 _ = V c main_v1 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 1024 + 1 * (y 1).val = (y 1).val; rw [e1]; omega

/-- The third layer's weight block at point `t` is its columns `512 t … 512 t + 511`. -/
theorem iblk0_5_apply (c : Dev nD) (t : Fin cfg0.N) (k : Fin 1024) (j : Fin 512) (q : Fin 1024)
    (hq : q.val = t.val * 512 + j.val) :
    (iblk0 V c 5 t : Vec Ideal S1024x512 .f32) (ix2 k j) = (V c main_arg5 : S1024x1024.Idx → EReal) (ix2 k q) := by
  obtain ⟨e0, e1⟩ := idx_facts0_5 t
  unfold iblk0
  rw [View.read_apply]
  show V c main_arg5 _ = V c main_arg5 _
  congr 1
  funext a
  apply Fin.ext
  match a with
  | ⟨0, _⟩ => show win0_5.index t (0 : Fin 2) * 1024 + 1 * k.val = k.val; rw [e0]; omega
  | ⟨1, _⟩ => show win0_5.index t (1 : Fin 2) * 512 + 1 * j.val = q.val; rw [e1, hq]; omega

/-- The third layer's bias block at point `t` is its columns `512 t … 512 t + 511`. -/
theorem iblk0_6_apply (c : Dev nD) (t : Fin cfg0.N) (z : Fin 1) (j : Fin 512) (q : Fin 1024)
    (hq : q.val = t.val * 512 + j.val) :
    (iblk0 V c 6 t : Vec Ideal S1x512 .f32) (ix2 z j) = (V c main_v2 : S1x1024.Idx → EReal) (ix2 z q) := by
  obtain ⟨e0, e1⟩ := idx_facts0_6 t
  unfold iblk0
  rw [View.read_apply]
  show V c main_v2 _ = V c main_v2 _
  congr 1
  funext a
  apply Fin.ext
  match a with
  | ⟨0, _⟩ => show win0_6.index t (0 : Fin 2) * 1 + 1 * z.val = z.val; rw [e0]; omega
  | ⟨1, _⟩ => show win0_6.index t (1 : Fin 2) * 512 + 1 * j.val = q.val; rw [e1, hq]; omega

/-! ## Blocks to the array -/

/-- What point `t` writes back is block `t` of the three layers' array. -/
theorem flushed0_eq (c : Dev nD) (t : Fin cfg0.N) :
    (dat0 V c).flushed 7 t = ((cfg0.win 7).blk t).view.read (Elt Ideal) (layers0 V c) := by
  show (cfg0.win 7).cut (grid0.coords t) ((dat0 V c).after 7 t) = _
  rw [after0_7]
  unfold out0_7
  rw [View.canon_unit_zero zero_off0]
  simp only [View.ld_unit_zero (S := S128x512) zero_off0, View.ld_unit_zero (S := S512x512) zero_off0,
    View.ld_unit_zero (S := S1x512) zero_off0, View.ld_unit_zero (S := S512x1024) zero_off0,
    View.ld_unit_zero (S := S1x1024) zero_off0, View.ld_unit_zero (S := S1024x512) zero_off0]
  obtain ⟨e0, e1⟩ := idx_facts0_7 t
  have hN : cfg0.N = 2 := N_0
  have ht : t.val < 2 := hN ▸ t.isLt
  funext y
  obtain ⟨p, j, rfl⟩ : ∃ (p : Fin 128) (j : Fin 512), y = ix2 p j := ⟨y 0, y 1, eq_ix2 y⟩
  have hq : t.val * 512 + j.val < 1024 := by have := j.isLt; omega
  show pay0 (iblk0 V c 0 t) (iblk0 V c 1 t) (iblk0 V c 2 t) (iblk0 V c 3 t) (iblk0 V c 4 t) (iblk0 V c 5 t) (iblk0 V c 6 t) (ix2 p j)
    = layers0 V c (((cfg0.win 7).blk t).view.emb (ix2 p j))
  have hemb : ((cfg0.win 7).blk t).view.emb (ix2 p j) = (ix2 p (⟨t.val * 512 + j.val, hq⟩ : Fin 1024) : S128x1024.Idx) := by
    funext a
    apply Fin.ext
    match a with
    | ⟨0, _⟩ => show win0_7.index t (0 : Fin 2) * 128 + 1 * p.val = p.val; rw [e0]; omega
    | ⟨1, _⟩ => show win0_7.index t (1 : Fin 2) * 512 + 1 * j.val = t.val * 512 + j.val; rw [e1]; omega
  rw [hemb]
  exact point0 (V c main_arg0) (V c main_arg1) (V c main_v0) (V c main_arg3) (V c main_v1) (V c main_arg5) (V c main_v2)
    (iblk0 V c 0 t) (iblk0 V c 1 t) (iblk0 V c 2 t) (iblk0 V c 3 t) (iblk0 V c 4 t) (iblk0 V c 5 t) (iblk0 V c 6 t)
    p j ⟨t.val * 512 + j.val, hq⟩
    (iblk0_0_eq V c t) (iblk0_1_eq V c t) (iblk0_2_eq V c t) (iblk0_3_eq V c t) (iblk0_4_eq V c t)
    (fun k => iblk0_5_apply V c t k j _ rfl) (iblk0_6_apply V c t 0 j _ rfl)

/-- An index of the array is in point `t`'s block iff each coordinate is in the block's range on its axis. -/
theorem mem_blk0 (t : Fin cfg0.N) (i : S128x1024.Idx) :
    i ∈ ((cfg0.win 7).blk t).view.set ↔ ∀ a : Fin 2, win0_7.index t a * S128x512.size a ≤ (i a).val ∧ (i a).val < win0_7.index t a * S128x512.size a + S128x512.size a := by
  show i ∈ ((View.whole main_v3).slice (win0_7.rect t)).set ↔ _
  rw [View.set_slice_whole, Rect.mem_set_unit]
  exact Iff.rfl

/-- Every index of the array is in some point's block: column `r` is in block `r / 512`. -/
theorem cover0 (i : S128x1024.Idx) :
    ∃ t : Fin cfg0.N, (cfg0.win 7).flush t = true ∧ i ∈ ((cfg0.win 7).blk t).view.set := by
  have hi0 : (i 0).val < 128 := (i 0).isLt
  have hi1 : (i 1).val < 1024 := (i 1).isLt
  have hN : cfg0.N = 2 := N_0
  have hlt : (i 1).val / 512 < cfg0.N := by rw [hN]; omega
  obtain ⟨e0, e1⟩ := idx_facts0_7 ⟨(i 1).val / 512, hlt⟩
  have e1' : win0_7.index ⟨(i 1).val / 512, hlt⟩ (1 : Fin 2) = (i 1).val / 512 := e1
  refine ⟨⟨(i 1).val / 512, hlt⟩, flush0_7 _, ?_⟩
  rw [mem_blk0]
  intro a
  match a with
  | ⟨0, _⟩ => show win0_7.index ⟨(i 1).val / 512, hlt⟩ (0 : Fin 2) * 128 ≤ (i 0).val ∧ (i 0).val < win0_7.index ⟨(i 1).val / 512, hlt⟩ (0 : Fin 2) * 128 + 128; rw [e0]; omega
  | ⟨1, _⟩ => show win0_7.index ⟨(i 1).val / 512, hlt⟩ (1 : Fin 2) * 512 ≤ (i 1).val ∧ (i 1).val < win0_7.index ⟨(i 1).val / 512, hlt⟩ (1 : Fin 2) * 512 + 512; rw [e1']; omega

/-- The output array after the region: the three dense layers of the arrays as the region found them. -/
theorem final0 (c : Dev nD) :
    (dat0 V c).arrAt 7 cfg0.N = (fun i => Cert.Spec.dense (Cert.Spec.dense (Cert.Spec.dense (fun a k => (V c main_arg0 : S128x512.Idx → EReal) (ix2 a k)) (fun k b => (V c main_arg1 : S512x512.Idx → EReal) (ix2 k b)) (fun b => (V c main_v0 : S1x512.Idx → EReal) (ix2 0 b))) (fun k b => (V c main_arg3 : S512x1024.Idx → EReal) (ix2 k b)) (fun b => (V c main_v1 : S1x1024.Idx → EReal) (ix2 0 b))) (fun k b => (V c main_arg5 : S1024x1024.Idx → EReal) (ix2 k b)) (fun b => (V c main_v2 : S1x1024.Idx → EReal) (ix2 0 b)) (i 0) (i 1) : S128x1024.Idx → EReal) :=
  (dat0 V c).arrAt_eq_of_cover 7 (layers0 V c) (fun t _ => flushed0_eq V c t) cover0

/-- The same with the seven arrays named: for arrays that the region finds in the seven input buffers, the output
    array ends as their three dense layers, entry by entry. -/
theorem final0_of (c : Dev nD) (X : S128x512.Idx → EReal) (W1 : S512x512.Idx → EReal) (B1 : S1x512.Idx → EReal)
    (W2 : S512x1024.Idx → EReal) (B2 : S1x1024.Idx → EReal) (W3 : S1024x1024.Idx → EReal) (B3 : S1x1024.Idx → EReal)
    (h0 : V c main_arg0 = X) (h1 : V c main_arg1 = W1) (h2 : V c main_v0 = B1) (h3 : V c main_arg3 = W2)
    (h4 : V c main_v1 = B2) (h5 : V c main_arg5 = W3) (h6 : V c main_v2 = B3) :
    (dat0 V c).arrAt 7 cfg0.N = (fun i => Cert.Spec.dense (Cert.Spec.dense (Cert.Spec.dense (fun a k => X (ix2 a k)) (fun k b => W1 (ix2 k b)) (fun b => B1 (ix2 0 b))) (fun k b => W2 (ix2 k b)) (fun b => B2 (ix2 0 b))) (fun k b => W3 (ix2 k b)) (fun b => B3 (ix2 0 b)) (i 0) (i 1) : S128x1024.Idx → EReal) := by
  subst h0 h1 h2 h3 h4 h5 h6
  exact final0 V c

end Cert.KernelIdeal.RegionValue

end
-- ==== Proof.PayValue1.lean ====
/-
  The second kernel's stored block read at an index: the product of the loaded activations' block with the
  loaded block of the reshaped tensor, entry (p, n) being the sum over the contracted coordinate j of the
  products. At the ideal values the cut to the short float format is the identity, a cast to the same shape is
  the identity, and a product on the matrix unit into the zero accumulator is the plain sum.
-/
import proofs.«123244_j24532853195159_2_alg».proof.Proof.PayTerms
import proofs.«123244_j24532853195159_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

theorem mm_1024_1280_lhs0 (i : S128x1280.Idx) (q : dot_S128x1024_S1024x1280_S128x1280_1_0_0_1_n_n.contr.Idx) :
    (dot_S128x1024_S1024x1280_S128x1280_1_0_0_1_n_n.lhsIdx i q 0).val = (i 0).val := by
  unfold DotDims.lhsIdx
  rw [dif_neg (show ¬(0 : Fin S128x1024.rank) ∈ dot_S128x1024_S1024x1280_S128x1280_1_0_0_1_n_n.lhsBatch by decide), dif_pos (show (0 : Fin S128x1024.rank) ∈ dot_S128x1024_S1024x1280_S128x1280_1_0_0_1_n_n.lhsNonContracting by decide)]
  rfl
theorem mm_1024_1280_lhs1 (i : S128x1280.Idx) (q : dot_S128x1024_S1024x1280_S128x1280_1_0_0_1_n_n.contr.Idx) :
    (dot_S128x1024_S1024x1280_S128x1280_1_0_0_1_n_n.lhsIdx i q 1).val = (q ⟨0, by decide⟩).val :=
  dot_S128x1024_S1024x1280_S128x1280_1_0_0_1_n_n.lhsIdx_val_of_single rfl i q
theorem mm_1024_1280_rhs0 (i : S128x1280.Idx) (q : dot_S128x1024_S1024x1280_S128x1280_1_0_0_1_n_n.contr.Idx) :
    (dot_S128x1024_S1024x1280_S128x1280_1_0_0_1_n_n.rhsIdx i q 0).val = (q ⟨0, by decide⟩).val :=
  dot_S128x1024_S1024x1280_S128x1280_1_0_0_1_n_n.rhsIdx_val_of_single rfl i q
theorem mm_1024_1280_rhs1 (i : S128x1280.Idx) (q : dot_S128x1024_S1024x1280_S128x1280_1_0_0_1_n_n.contr.Idx) :
    (dot_S128x1024_S1024x1280_S128x1280_1_0_0_1_n_n.rhsIdx i q 1).val = (i 1).val := by
  unfold DotDims.rhsIdx
  rw [dif_neg (show ¬(1 : Fin S1024x1280.rank) ∈ dot_S128x1024_S1024x1280_S128x1280_1_0_0_1_n_n.rhsBatch by decide), dif_pos (show (1 : Fin S1024x1280.rank) ∈ dot_S128x1024_S1024x1280_S128x1280_1_0_0_1_n_n.rhsNonContracting by decide)]
  rfl

/-- The matrix unit's product of a 128 × 1024 block with a 1024 × 1280 block into the zero accumulator, read at
    (p, n): the sum over the contracted coordinate of the products of the entries. -/
theorem mm_1024_1280_apply {φ₁ φ₂ : FTy} (A : FVec Ideal S128x1024 φ₁) (B : FVec Ideal S1024x1280 φ₂) (p : Fin 128) (n : Fin 1280) :
    matmul dot_S128x1024_S1024x1280_S128x1280_1_0_0_1_n_n none A B (constant (F := Ideal) S128x1280 .f32 0x00000000#32) (ix2 p n)
      = ∑ j : Fin 1024, A (ix2 p j) * B (ix2 j n) := by
  show FloatOps.matmul _ none A B _ (ix2 p n) = _
  rw [Ideal.matmul_constant_zero_apply, ← Equiv.sum_comp (contrEquiv1 dot_S128x1024_S1024x1280_S128x1280_1_0_0_1_n_n 1024 rfl rfl).symm]
  refine Finset.sum_congr rfl fun k _ => ?_
  have hk := contrEquiv1_symm_val dot_S128x1024_S1024x1280_S128x1280_1_0_0_1_n_n 1024 rfl rfl k
  have el : dot_S128x1024_S1024x1280_S128x1280_1_0_0_1_n_n.lhsIdx (ix2 p n) ((contrEquiv1 dot_S128x1024_S1024x1280_S128x1280_1_0_0_1_n_n 1024 rfl rfl).symm k) = ix2 p k :=
    funext fun a => Fin.ext (by
      match a with
      | ⟨0, _⟩ => exact mm_1024_1280_lhs0 _ _
      | ⟨1, _⟩ => exact (mm_1024_1280_lhs1 _ _).trans hk)
  have er : dot_S128x1024_S1024x1280_S128x1280_1_0_0_1_n_n.rhsIdx (ix2 p n) ((contrEquiv1 dot_S128x1024_S1024x1280_S128x1280_1_0_0_1_n_n 1024 rfl rfl).symm k) = ix2 k n :=
    funext fun a => Fin.ext (by
      match a with
      | ⟨0, _⟩ => exact (mm_1024_1280_rhs0 _ _).trans hk
      | ⟨1, _⟩ => exact mm_1024_1280_rhs1 _ _)
  rw [el, er]

/-- The second kernel's stored block at (p, n): the sum over j of the activations' entry (p, j) times the
    tensor block's entry (j, n). -/
theorem pay1_apply (v0 : Vec Ideal S128x1024 .f32) (v3 : Vec Ideal S1024x1280 .f32) (p : Fin 128) (n : Fin 1280) :
    k1_pay1 v0 v3 (ix2 p n) = ∑ j : Fin 1024, v0 (ix2 p j) * v3 (ix2 j n) := by
  unfold k1_pay1
  simp only [shapeCast_self]
  exact mm_1024_1280_apply _ _ p n

end Cert.KernelIdeal.PayValue

end
-- ==== Proof.Value1.lean ====
/-
  The second region read as a whole: its eight points each write back one column block of the product of the
  activations [128,1024] and the reshaped tensor [1024,10240]; the blocks tile the output array [128,10240], so after
  the region the array is that product, entry by entry, of the two arrays as the region found them.
-/
import proofs.«123244_j24532853195159_2_alg».proof.Proof.Body1
import proofs.«123244_j24532853195159_2_alg».proof.Proof.PayValue1
import proofs.«123244_j24532853195159_2_alg».proof.Proof.Spec
import Idealize.ShloMosaic.Lib.Pipeline.Value
import Idealize.ShloMosaic.Lib.ValueIdx
import Idealize.ShloMosaic.Lib.Tactic

noncomputable section

open scoped BigOperators

namespace Cert.KernelIdeal.RegionValue

open Cert.KernelIdeal Cert.KernelIdeal.Gen Cert.KernelIdeal.PayValue Idealize.ShloMosaic Idealize.ShloMosaic.TcCoe Idealize.SL.Sem
open Idealize.ShloMosaic.Pipeline (Dat)
open Idealize.ShloMosaic.ValueIdx

-- the core's buffer contents when the region is entered
variable (V : (c : Dev nD) → (b : Ref sig .tc) → Buf (Elt Ideal) ((c : Thread nD τ).loc b))

/-! # The second region's output array as one function of the contents the region is entered with -/

theorem zero_off1 : (![0, 0] : Fin 2 → Nat) = fun _ => 0 := funext fun a => by fin_cases a <;> rfl

/-- The product of an activations array and a reshaped tensor array, entry by entry. -/
def prodOf (A : S128x1024.Idx → EReal) (B : S1024x10240.Idx → EReal) : S128x10240.Idx → EReal :=
  fun i => ∑ j : Fin 1024, A (ix2 (i 0) j) * B (ix2 j (i 1))

theorem prodOf_apply (A : S128x1024.Idx → EReal) (B : S1024x10240.Idx → EReal) (p : Fin 128) (q : Fin 10240) :
    prodOf A B (ix2 p q) = ∑ j : Fin 1024, A (ix2 p j) * B (ix2 j q) := rfl

/-- The printed index maps over the grid's eight points: the activations' window stays on its one block, the
    tensor's and the output's windows sit on column block `t`. -/
theorem idx_facts1 : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

/-- One element of the stored block, once each load is known entry by entry: row `p` of the activations against
    column `q` of the tensor. -/
theorem point1 (A : S128x1024.Idx → EReal) (B : S1024x10240.Idx → EReal)
    (x0 : Vec Ideal S128x1024 .f32) (x1 : Vec Ideal S1024x1280 .f32) (p : Fin 128) (n : Fin 1280) (q : Fin 10240)
    (h0 : ∀ j : Fin 1024, x0 (ix2 p j) = A (ix2 p j))
    (h1 : ∀ j : Fin 1024, x1 (ix2 j n) = B (ix2 j q)) :
    k1_pay1 x0 x1 (ix2 p n) = ∑ j : Fin 1024, A (ix2 p j) * B (ix2 j q) :=
  (pay1_apply x0 x1 p n).trans (Finset.sum_congr rfl fun j _ => by rw [h0 j, h1 j])

/-- The activations' block at any point is the whole array. -/
theorem iblk1_0_apply (c : Dev nD) (t : Fin cfg1.N) (p : Fin 128) (j : Fin 1024) :
    (iblk1 V c 0 t : Vec Ideal S128x1024 .f32) (ix2 p j) = (V c main_v3 : S128x1024.Idx → EReal) (ix2 p j) := by
  obtain ⟨e0, e1, e2, e3, e4, e5⟩ := idx_facts1 t
  unfold iblk1
  rw [View.read_apply]
  show V c main_v3 _ = V c main_v3 _
  congr 1
  funext a
  apply Fin.ext
  match a with
  | ⟨0, _⟩ => show win1_0.index t (0 : Fin 2) * 128 + 1 * p.val = p.val; rw [e0]; omega
  | ⟨1, _⟩ => show win1_0.index t (1 : Fin 2) * 1024 + 1 * j.val = j.val; rw [e1]; omega

/-- The tensor's block at point `t` is its columns `1280 t … 1280 t + 1279`. -/
theorem iblk1_1_apply (c : Dev nD) (t : Fin cfg1.N) (j : Fin 1024) (n : Fin 1280) (q : Fin 10240)
    (hq : q.val = t.val * 1280 + n.val) :
    (iblk1 V c 1 t : Vec Ideal S1024x1280 .f32) (ix2 j n) = (V c main_v4 : S1024x10240.Idx → EReal) (ix2 j q) := by
  obtain ⟨e0, e1, e2, e3, e4, e5⟩ := idx_facts1 t
  unfold iblk1
  rw [View.read_apply]
  show V c main_v4 _ = V c main_v4 _
  congr 1
  funext a
  apply Fin.ext
  match a with
  | ⟨0, _⟩ => show win1_1.index t (0 : Fin 2) * 1024 + 1 * j.val = j.val; rw [e2]; omega
  | ⟨1, _⟩ => show win1_1.index t (1 : Fin 2) * 1280 + 1 * n.val = q.val; rw [e3, hq]; omega

/-- What point `t` writes back is block `t` of the product array. -/
theorem flushed1_eq (c : Dev nD) (t : Fin cfg1.N) :
    (dat1 V c).flushed 2 t = ((cfg1.win 2).blk t).view.read (Elt Ideal) (prodOf (V c main_v3) (V c main_v4)) := by
  show (cfg1.win 2).cut (grid1.coords t) ((dat1 V c).after 2 t) = _
  rw [after1_2]
  unfold out1_2
  rw [View.canon_unit_zero zero_off1]
  simp only [View.ld_unit_zero (S := S128x1024) zero_off1, View.ld_unit_zero (S := S1024x1280) zero_off1]
  obtain ⟨e0, e1, e2, e3, e4, e5⟩ := idx_facts1 t
  have hN : cfg1.N = 8 := N_1
  have ht : t.val < 8 := hN ▸ t.isLt
  funext y
  obtain ⟨p, n, rfl⟩ : ∃ (p : Fin 128) (n : Fin 1280), y = ix2 p n := ⟨y 0, y 1, eq_ix2 y⟩
  have hq : t.val * 1280 + n.val < 10240 := by have := n.isLt; omega
  show k1_pay1 (iblk1 V c 0 t) (iblk1 V c 1 t) (ix2 p n) = prodOf (V c main_v3) (V c main_v4) (((cfg1.win 2).blk t).view.emb (ix2 p n))
  have hemb : ((cfg1.win 2).blk t).view.emb (ix2 p n) = (ix2 p (⟨t.val * 1280 + n.val, hq⟩ : Fin 10240) : S128x10240.Idx) := by
    funext a
    apply Fin.ext
    match a with
    | ⟨0, _⟩ => show win1_2.index t (0 : Fin 2) * 128 + 1 * p.val = p.val; rw [e4]; omega
    | ⟨1, _⟩ => show win1_2.index t (1 : Fin 2) * 1280 + 1 * n.val = t.val * 1280 + n.val; rw [e5]; omega
  rw [hemb, prodOf_apply]
  exact point1 (V c main_v3) (V c main_v4) (iblk1 V c 0 t) (iblk1 V c 1 t) p n ⟨t.val * 1280 + n.val, hq⟩
    (fun j => iblk1_0_apply V c t p j) (fun j => iblk1_1_apply V c t j n _ rfl)

/-- An index of the array is in point `t`'s block iff each coordinate is in the block's range on its axis. -/
theorem mem_blk1 (t : Fin cfg1.N) (i : S128x10240.Idx) :
    i ∈ ((cfg1.win 2).blk t).view.set ↔ ∀ a : Fin 2, win1_2.index t a * S128x1280.size a ≤ (i a).val ∧ (i a).val < win1_2.index t a * S128x1280.size a + S128x1280.size a := by
  show i ∈ ((View.whole main_v5).slice (win1_2.rect t)).set ↔ _
  rw [View.set_slice_whole, Rect.mem_set_unit]
  exact Iff.rfl

/-- Every index of the array is in some point's block: column `r` is in block `r / 1280`. -/
theorem cover1 (i : S128x10240.Idx) :
    ∃ t : Fin cfg1.N, (cfg1.win 2).flush t = true ∧ i ∈ ((cfg1.win 2).blk t).view.set := by
  have hi0 : (i 0).val < 128 := (i 0).isLt
  have hi1 : (i 1).val < 10240 := (i 1).isLt
  have hN : cfg1.N = 8 := N_1
  have hlt : (i 1).val / 1280 < cfg1.N := by rw [hN]; omega
  obtain ⟨e0, e1, e2, e3, e4, e5⟩ := idx_facts1 ⟨(i 1).val / 1280, hlt⟩
  have e5' : win1_2.index ⟨(i 1).val / 1280, hlt⟩ (1 : Fin 2) = (i 1).val / 1280 := e5
  refine ⟨⟨(i 1).val / 1280, hlt⟩, flush1_2 _, ?_⟩
  rw [mem_blk1]
  intro a
  match a with
  | ⟨0, _⟩ => show win1_2.index ⟨(i 1).val / 1280, hlt⟩ (0 : Fin 2) * 128 ≤ (i 0).val ∧ (i 0).val < win1_2.index ⟨(i 1).val / 1280, hlt⟩ (0 : Fin 2) * 128 + 128; rw [e4]; omega
  | ⟨1, _⟩ => show win1_2.index ⟨(i 1).val / 1280, hlt⟩ (1 : Fin 2) * 1280 ≤ (i 1).val ∧ (i 1).val < win1_2.index ⟨(i 1).val / 1280, hlt⟩ (1 : Fin 2) * 1280 + 1280; rw [e5']; omega

/-- The output array after the region: the product of the activations and the reshaped tensor as the region found
    them. -/
theorem final1 (c : Dev nD) : (dat1 V c).arrAt 2 cfg1.N = prodOf (V c main_v3) (V c main_v4) :=
  (dat1 V c).arrAt_eq_of_cover 2 (prodOf (V c main_v3) (V c main_v4)) (fun t _ => flushed1_eq V c t) cover1

/-- The same with the two arrays named: for arrays `A`, `B` that the region finds in the activations' and the
    tensor's buffers, the output array ends as their product, entry by entry. -/
theorem final1_of (c : Dev nD) (A : S128x1024.Idx → EReal) (B : S1024x10240.Idx → EReal)
    (hA : V c main_v3 = A) (hB : V c main_v4 = B) :
    (dat1 V c).arrAt 2 cfg1.N = (fun i => ∑ j : Fin 1024, A (ix2 (i 0) j) * B (ix2 j (i 1)) : S128x10240.Idx → EReal) := by
  subst hA hB
  exact final1 V c

end Cert.KernelIdeal.RegionValue

end
-- ==== Proof.PayValue2.lean ====
/-
  The third kernel's stored block read at an index. The body takes, for each of the twenty coordinates k of the
  last axis, the unit slice at k of both loaded blocks, moves the first to [128, 1, 128] and the second to
  [1, 32, 128], repeats both to [128, 32, 128], and adds the absolute difference to an accumulator that starts at
  the zero word; entry (r, q, o) of the k-th summand is |mr[r, o, k] − mp[q, o, k]|. The exponential of zero minus
  the accumulated distance is summed over the rows r, and the word of one is taken off. Entry (q, o) of the
  stored block is therefore (Σ_r exp(0 − Σ_k |mr[r, o, k] − mp[q, o, k]|)) − 1.
-/
import proofs.«123244_j24532853195159_2_alg».proof.Proof.PayTerms
import proofs.«123244_j24532853195159_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

/-! ## Layout operations read at an index given by coordinates -/

section Layout
variable {α : Type}

/-- A unit slice of the last axis at offset k reads, at (a, b, ·), the source at (a, b, k). -/
theorem slice3_last_unit {n0 n1 n2 : ℕ} (k : ℕ) (X : (⟨3, ![n0, n1, n2]⟩ : Shape).Idx → α)
    (h : (⟨3, ![n0, n1, n2]⟩ : Shape).Slices ![0, 0, k] ⟨3, ![n0, n1, 1]⟩) (a : Fin n0) (b : Fin n1) (u : Fin 1) :
    extractStridedSlice ⟨3, ![n0, n1, 1]⟩ ![0, 0, k] X h (ix3 a b u)
      = X (ix3 a b ⟨k, Nat.lt_of_lt_of_le (Nat.lt_succ_self k) (h.2 2)⟩) :=
  extractStridedSlice_apply _ _ _ _ _ (fun ax => by
    match ax with
    | ⟨0, _⟩ => exact (Nat.zero_add _).symm
    | ⟨1, _⟩ => exact (Nat.zero_add _).symm
    | ⟨2, _⟩ =>
      show k = k + u.val
      have := u.isLt
      omega)

/-- An [a, b, 1] array cast to [a, b] reads, at (i, j), the operand at (i, j, 0). -/
theorem cast_ab1_ab {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An [a, b] array cast to [a, 1, b] reads, at (i, ·, j), the operand at (i, j). -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, 1, b] array repeated to [a, c, b] reads, at (i, q, j), the operand at (i, 0, j). -/
theorem bcast_a1b_acb {a c b : ℕ} (x : (⟨3, ![a, 1, b]⟩ : Shape).Idx → α)
    (h : (⟨3, ![a, 1, b]⟩ : Shape).Broadcasts ⟨3, ![a, c, b]⟩) (i : Fin a) (q : Fin c) (j : Fin b) :
    broadcastTo ⟨3, ![a, c, b]⟩ x h (ix3 i q j) = x (ix3 i (0 : Fin 1) j) := by
  refine broadcastTo_apply x h (ix3 i q j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A [1, c, b] array repeated to [a, c, b] reads, at (i, q, j), the operand at (0, q, j). -/
theorem bcast_1cb_acb {a c b : ℕ} (x : (⟨3, ![1, c, b]⟩ : Shape).Idx → α)
    (h : (⟨3, ![1, c, b]⟩ : Shape).Broadcasts ⟨3, ![a, c, b]⟩) (i : Fin a) (q : Fin c) (j : Fin b) :
    broadcastTo ⟨3, ![a, c, b]⟩ x h (ix3 i q j) = x (ix3 (0 : Fin 1) q j) := by
  refine broadcastTo_apply x h (ix3 i q j) (ix3 (0 : Fin 1) q j) fun ax => ?_
  match ax with
  | ⟨0, _⟩ => rfl
  | ⟨1, _⟩ =>
    show q.val = if c = 1 then 0 else q.val
    split
    · have := q.isLt; omega
    · rfl
  | ⟨2, _⟩ =>
    show j.val = if b = 1 then 0 else j.val
    split
    · have := j.isLt; omega
    · rfl

end Layout

/-! ## The pointwise operations the body uses, at the ideal values -/

/-- The absolute value at an index is the larger of the element and its negation. -/
theorem absf_apply {s : Shape} {φ : FTy} (a : FVec Ideal s φ) (i : s.Idx) : absf a i = Cert.Spec.absE (a i) := rfl

/-- The exponential at an index is the exponential of the element. -/
theorem exp_apply {s : Shape} {φ : FTy} (a : FVec Ideal s φ) (i : s.Idx) : exp a i = Ideal.exp (a i) := rfl

/-- The sum over the rows of a [128, 32, 128] array from the zero word, read at (q, o): the sum over r of the
    entries (r, q, o). -/
theorem rowsum_apply (src : FVec Ideal S128x32x128 .f32) (h : S128x32x128.Reduces [0] S32x128) (hφ : FKind.Formats .f32)
    (hacc : (0x00000000#32 : BitVec 32) = 0x00000000#32) (q : Fin 32) (o : Fin 128) :
    multiReduction (F := Ideal) .add [0] S32x128 src 0x00000000#32 h hφ hacc (ix2 q o) = ∑ r : Fin 128, src (ix3 r q o) := by
  refine (Ideal.multiReduction_add_single src 0x00000000#32 h hφ hacc (ix2 q o)).trans ?_
  refine Finset.sum_congr rfl fun r _ => congrArg src ?_
  funext c
  apply Fin.ext
  match c with
  | ⟨0, _⟩ => rfl
  | ⟨1, _⟩ => rfl
  | ⟨2, _⟩ => rfl

/-! ## The distance summands and their accumulation -/

/-- The k-th summand of the distance between row r of the first block and row q of the second at feature o. -/
def dterm (v1 : FVec Ideal S128x128x20 .f32) (v3 : FVec Ideal S32x128x20 .f32) (r : Fin 128) (q : Fin 32) (o : Fin 128)
    (k : Fin 20) : EReal :=
  Cert.Spec.absE (v1 (ix3 r o k) - v3 (ix3 q o k))

/-- ONE SUMMAND, at any offset k of the last axis: the two unit slices at k, moved and repeated to [128, 32, 128],
    subtracted and taken in absolute value, read at (r, q, o). -/
theorem summand_apply (v1 : FVec Ideal S128x128x20 .f32) (v3 : FVec Ideal S32x128x20 .f32) (k : ℕ)
    (h1 : S128x128x20.Slices ![0, 0, k] S128x128x1) (h3 : S32x128x20.Slices ![0, 0, k] S32x128x1)
    (r : Fin 128) (q : Fin 32) (o : Fin 128) :
    absf (subf
        (broadcastTo S128x32x128 (shapeCast S128x1x128 (shapeCast S128x128 (extractStridedSlice S128x128x1 ![0, 0, k] v1 h1)
          shapeCasts_S128x128x1_S128x128) shapeCasts_S128x128_S128x1x128) broadcasts_S128x1x128_S128x32x128)
        (broadcastTo S128x32x128 (shapeCast S1x32x128 (shapeCast S32x128 (extractStridedSlice S32x128x1 ![0, 0, k] v3 h3)
          shapeCasts_S32x128x1_S32x128) shapeCasts_S32x128_S1x32x128) broadcasts_S1x32x128_S128x32x128)) (ix3 r q o)
      = dterm v1 v3 r q o ⟨k, Nat.lt_of_lt_of_le (Nat.lt_succ_self k) (h1.2 2)⟩ := by
  simp only [absf_apply, subf_apply, bcast_a1b_acb, bcast_1cb_acb, cast_ab_a1b, shapeCast_ab_1ab_apply, cast_ab1_ab,
    slice3_last_unit]
  rfl

/-- Twenty summands added one after another to the zero word are their sum. -/
theorem acc20 (d : Fin 20 → EReal) :
    Cert.Spec.zeroW + d ⟨0, by decide⟩ + d ⟨1, by decide⟩ + d ⟨2, by decide⟩ + d ⟨3, by decide⟩ + d ⟨4, by decide⟩
        + d ⟨5, by decide⟩ + d ⟨6, by decide⟩ + d ⟨7, by decide⟩ + d ⟨8, by decide⟩ + d ⟨9, by decide⟩
        + d ⟨10, by decide⟩ + d ⟨11, by decide⟩ + d ⟨12, by decide⟩ + d ⟨13, by decide⟩ + d ⟨14, by decide⟩
        + d ⟨15, by decide⟩ + d ⟨16, by decide⟩ + d ⟨17, by decide⟩ + d ⟨18, by decide⟩ + d ⟨19, by decide⟩
      = ∑ k : Fin 20, d k := by
  rw [show Cert.Spec.zeroW = 0 from Ideal.ofBits_zero_f32, zero_add]
  simp only [Fin.sum_univ_castSucc, Fin.sum_univ_zero, zero_add]
  rfl

/-! ## The body's stretches, each read at an index -/

theorem pay2_id (v0 : Vec Ideal S128x128x20 .f32) : k2_pay2 v0 = v0 := shapeCast_self _ _
theorem pay3_id (v2 : Vec Ideal S32x128x20 .f32) : k2_pay3 v2 = v2 := shapeCast_self _ _

/-- The first stretch: the zero word and the summands 0 to 3. -/
theorem pay4_apply (v1 : Vec Ideal S128x128x20 .f32) (v3 : Vec Ideal S32x128x20 .f32) (r : Fin 128) (q : Fin 32) (o : Fin 128) :
    k2_pay4 v1 v3 (ix3 r q o)
      = Cert.Spec.zeroW + dterm v1 v3 r q o ⟨0, by decide⟩ + dterm v1 v3 r q o ⟨1, by decide⟩ + dterm v1 v3 r q o ⟨2, by decide⟩ + dterm v1 v3 r q o ⟨3, by decide⟩ := by
  unfold k2_pay4
  simp only [pay2_id, pay3_id, addf_apply, broadcast_apply, absf_apply, subf_apply, bcast_a1b_acb, bcast_1cb_acb, cast_ab_a1b, shapeCast_ab_1ab_apply,
    cast_ab1_ab, slice3_last_unit]
  rfl

/-- The first block's slice at 4, as a matrix. -/
theorem pay5_apply (v1 : Vec Ideal S128x128x20 .f32) (r : Fin 128) (o : Fin 128) :
    k2_pay5 v1 (ix2 r o) = v1 (ix3 r o ⟨4, by decide⟩) := by
  unfold k2_pay5
  simp only [pay2_id, cast_ab1_ab, slice3_last_unit]

/-- The second stretch: the summand 4, whose first operand comes in as a matrix, and the summands 5 to 8. -/
theorem pay6_apply (v1 : FVec Ideal S128x128x20 .f32) (v3 : FVec Ideal S32x128x20 .f32) (v48 : FVec Ideal S128x32x128 .f32)
    (v50 : FVec Ideal S128x128 .f32) (r : Fin 128) (q : Fin 32) (o : Fin 128) :
    k2_pay6 v1 v3 v48 v50 (ix3 r q o)
      = v48 (ix3 r q o) + Cert.Spec.absE (v50 (ix2 r o) - v3 (ix3 q o ⟨4, by decide⟩))
          + dterm v1 v3 r q o ⟨5, by decide⟩ + dterm v1 v3 r q o ⟨6, by decide⟩ + dterm v1 v3 r q o ⟨7, by decide⟩ + dterm v1 v3 r q o ⟨8, by decide⟩ := by
  unfold k2_pay6
  simp only [addf_apply, broadcast_apply, absf_apply, subf_apply, bcast_a1b_acb, bcast_1cb_acb, cast_ab_a1b, shapeCast_ab_1ab_apply,
    cast_ab1_ab, slice3_last_unit]
  rfl

/-- The second block's slice at 9, moved to [1, 32, 128]. -/
theorem pay7_apply (v3 : FVec Ideal S32x128x20 .f32) (u : Fin 1) (q : Fin 32) (o : Fin 128) :
    k2_pay7 v3 (ix3 u q o) = v3 (ix3 q o ⟨9, by decide⟩) := by
  unfold k2_pay7
  simp only [shapeCast_ab_1ab_apply, cast_ab1_ab, slice3_last_unit]

/-- The first block's slice at 9, moved and repeated to [128, 32, 128]. -/
theorem pay8_apply (v1 : FVec Ideal S128x128x20 .f32) (r : Fin 128) (q : Fin 32) (o : Fin 128) :
    k2_pay8 v1 (ix3 r q o) = v1 (ix3 r o ⟨9, by decide⟩) := by
  unfold k2_pay8
  simp only [bcast_a1b_acb, cast_ab_a1b, cast_ab1_ab, slice3_last_unit]

/-- The third stretch: the summand 9, whose operands come in already moved, and the summands 10 to 14. -/
theorem pay9_apply (v1 : FVec Ideal S128x128x20 .f32) (v3 : FVec Ideal S32x128x20 .f32) (v103 : FVec Ideal S128x32x128 .f32)
    (v109 : FVec Ideal S1x32x128 .f32) (v110 : FVec Ideal S128x32x128 .f32) (r : Fin 128) (q : Fin 32) (o : Fin 128) :
    k2_pay9 v1 v3 v103 v109 v110 (ix3 r q o)
      = v103 (ix3 r q o) + Cert.Spec.absE (v110 (ix3 r q o) - v109 (ix3 (0 : Fin 1) q o))
          + dterm v1 v3 r q o ⟨10, by decide⟩ + dterm v1 v3 r q o ⟨11, by decide⟩ + dterm v1 v3 r q o ⟨12, by decide⟩ + dterm v1 v3 r q o ⟨13, by decide⟩ + dterm v1 v3 r q o ⟨14, by decide⟩ := by
  unfold k2_pay9
  simp only [addf_apply, broadcast_apply, absf_apply, subf_apply, bcast_a1b_acb, bcast_1cb_acb, cast_ab_a1b, shapeCast_ab_1ab_apply,
    cast_ab1_ab, slice3_last_unit]
  rfl

/-- The first block's slice at 15. -/
theorem pay10_apply (v1 : FVec Ideal S128x128x20 .f32) (r : Fin 128) (o : Fin 128) (u : Fin 1) :
    k2_pay10 v1 (ix3 r o u) = v1 (ix3 r o ⟨15, by decide⟩) := by
  unfold k2_pay10
  simp only [slice3_last_unit]

/-- The last stretch: the summand 15, whose first operand comes in as a slice, the summands 16 to 19, then the
    exponential of zero minus the accumulated distance, summed over the rows. -/
theorem pay11_apply (v1 : FVec Ideal S128x128x20 .f32) (v3 : FVec Ideal S32x128x20 .f32) (v169 : FVec Ideal S128x32x128 .f32)
    (v170 : FVec Ideal S128x128x1 .f32) (q : Fin 32) (o : Fin 128) :
    k2_pay11 v1 v3 v169 v170 (ix2 q o)
      = ∑ r : Fin 128, Ideal.exp (Cert.Spec.zeroW
          - (v169 (ix3 r q o) + Cert.Spec.absE (v170 (ix3 r o (0 : Fin 1)) - v3 (ix3 q o ⟨15, by decide⟩))
              + dterm v1 v3 r q o ⟨16, by decide⟩ + dterm v1 v3 r q o ⟨17, by decide⟩ + dterm v1 v3 r q o ⟨18, by decide⟩ + dterm v1 v3 r q o ⟨19, by decide⟩)) := by
  unfold k2_pay11
  dsimp only
  refine (rowsum_apply _ _ _ _ q o).trans ?_
  refine Finset.sum_congr rfl fun r _ => ?_
  simp only [exp_apply, addf_apply, broadcast_apply, absf_apply, subf_apply, bcast_a1b_acb, bcast_1cb_acb, cast_ab_a1b, shapeCast_ab_1ab_apply,
    cast_ab1_ab, slice3_last_unit]
  rfl

/-! ## The stored block -/

/-- The accumulated distances' exponentials summed over the rows, at (q, o). -/
theorem pay2sum_apply (v0 : Vec Ideal S128x128x20 .f32) (v2 : Vec Ideal S32x128x20 .f32) (q : Fin 32) (o : Fin 128) :
    pay2sum v0 v2 (ix2 q o) = ∑ r : Fin 128, Ideal.exp (Cert.Spec.zeroW - ∑ k : Fin 20, dterm v0 v2 r q o k) := by
  unfold pay2sum
  rw [pay2_id, pay3_id, pay11_apply]
  refine Finset.sum_congr rfl fun r _ => ?_
  rw [pay9_apply, pay6_apply, pay4_apply, pay5_apply, pay7_apply, pay8_apply, pay10_apply]
  exact congrArg (fun t => Ideal.exp (Cert.Spec.zeroW - t)) (acc20 (dterm v0 v2 r q o))

/-- The third kernel's stored block at (q, o): over all rows r, the exponential of zero minus the distance between
    row r of the first block and row q of the second at feature o, summed, less the word of one. -/
theorem pay2_apply (v0 : Vec Ideal S128x128x20 .f32) (v2 : Vec Ideal S32x128x20 .f32) (q : Fin 32) (o : Fin 128) :
    pay2 v0 v2 (ix2 q o)
      = (∑ r : Fin 128, Ideal.exp (Cert.Spec.zeroW - ∑ k : Fin 20, Cert.Spec.absE (v0 (ix3 r o k) - v2 (ix3 q o k))))
        - Cert.Spec.oneW := by
  unfold pay2 k2_pay1
  simp only [subf_apply, broadcast_apply, pay2sum_apply]
  rfl

end Cert.KernelIdeal.PayValue

end
-- ==== Proof.Value2.lean ====
/-
  The third region read as a whole: its sixteen points each write back one [32, 128] block of the pairwise term of
  the features array [128, 512, 20] — at the point (feature block oc, row block pc) the rows 32·pc … 32·pc + 31 and
  the features 128·oc … 128·oc + 127, from all 128 rows of those features (the first window) and the 32 rows of
  the block (the second window, over the same array). The blocks tile the output array [128, 512], so after the
  region the array is the pairwise term, entry by entry, of the features array as the region found it.
-/
import proofs.«123244_j24532853195159_2_alg».proof.Proof.Body2
import proofs.«123244_j24532853195159_2_alg».proof.Proof.PayValue2
import proofs.«123244_j24532853195159_2_alg».proof.Proof.Spec
import Idealize.ShloMosaic.Lib.Pipeline.Value
import Idealize.ShloMosaic.Lib.ValueIdx
import Idealize.ShloMosaic.Lib.Tactic

noncomputable section

open scoped BigOperators

namespace Cert.KernelIdeal.RegionValue

open Cert.KernelIdeal Cert.KernelIdeal.Gen Cert.KernelIdeal.PayValue Idealize.ShloMosaic Idealize.ShloMosaic.TcCoe Idealize.SL.Sem
open Idealize.ShloMosaic.Pipeline (Dat)
open Idealize.ShloMosaic.ValueIdx

-- the core's buffer contents when the region is entered
variable (V : (c : Dev nD) → (b : Ref sig .tc) → Buf (Elt Ideal) ((c : Thread nD τ).loc b))

/-! # The third region's output array as one function of the contents the region is entered with -/

theorem zero_off2 : (![0, 0] : Fin 2 → Nat) = fun _ => 0 := funext fun a => by fin_cases a <;> rfl
theorem zero_off2_3 : (![0, 0, 0] : Fin 3 → Nat) = fun _ => 0 := funext fun a => by fin_cases a <;> rfl

/-- The pairwise term of a features array, entry by entry. -/
def pairOf (M : S128x512x20.Idx → EReal) : S128x512.Idx → EReal :=
  fun i => Cert.Spec.pair (fun p o k => M (ix3 p o k)) (i 0) (i 1)

theorem pairOf_apply (M : S128x512x20.Idx → EReal) (p : Fin 128) (o : Fin 512) :
    pairOf M (ix2 p o)
      = (∑ r : Fin 128, Ideal.exp (Cert.Spec.zeroW - ∑ k : Fin 20, Cert.Spec.absE (M (ix3 r o k) - M (ix3 p o k))))
        - Cert.Spec.oneW := rfl

/-- The printed index maps over the grid's sixteen points, point t being (feature block t / 4, row block t % 4):
    the first window sits on all rows of feature block t / 4, the second on row block t % 4 of the same features,
    the output's on row block t % 4 and feature block t / 4. -/
theorem idx_facts2 : ∀ t : Fin cfg2.N, win2_0.index t (0 : Fin 3) = 0 ∧ win2_0.index t (1 : Fin 3) = t.val / 4
    ∧ win2_0.index t (2 : Fin 3) = 0
    ∧ win2_1.index t (0 : Fin 3) = t.val % 4 ∧ win2_1.index t (1 : Fin 3) = t.val / 4 ∧ win2_1.index t (2 : Fin 3) = 0
    ∧ win2_2.index t (0 : Fin 2) = t.val % 4 ∧ win2_2.index t (1 : Fin 2) = t.val / 4 :=
  (by decide +kernel : ∀ t : Fin grid2.N, _)

/-- One element of the stored block, once each load is known entry by entry: all rows against row p at feature f. -/
theorem point2 (M : S128x512x20.Idx → EReal) (x0 : Vec Ideal S128x128x20 .f32) (x1 : Vec Ideal S32x128x20 .f32)
    (q : Fin 32) (o : Fin 128) (p : Fin 128) (f : Fin 512)
    (h0 : ∀ (r : Fin 128) (k : Fin 20), x0 (ix3 r o k) = M (ix3 r f k))
    (h1 : ∀ k : Fin 20, x1 (ix3 q o k) = M (ix3 p f k)) :
    pay2 x0 x1 (ix2 q o)
      = (∑ r : Fin 128, Ideal.exp (Cert.Spec.zeroW - ∑ k : Fin 20, Cert.Spec.absE (M (ix3 r f k) - M (ix3 p f k))))
        - Cert.Spec.oneW :=
  (pay2_apply x0 x1 q o).trans (congrArg (· - Cert.Spec.oneW) (Finset.sum_congr rfl fun r _ =>
    congrArg (fun s => Ideal.exp (Cert.Spec.zeroW - s)) (Finset.sum_congr rfl fun k _ => by rw [h0 r k, h1 k])))

/-- The first window's block at point t is all rows of the features 128 (t / 4) … 128 (t / 4) + 127. -/
theorem iblk2_0_apply (c : Dev nD) (t : Fin cfg2.N) (r : Fin 128) (o : Fin 128) (k : Fin 20) (f : Fin 512)
    (hf : f.val = t.val / 4 * 128 + o.val) :
    (iblk2 V c 0 t : Vec Ideal S128x128x20 .f32) (ix3 r o k) = (V c main_v6 : S128x512x20.Idx → EReal) (ix3 r f k) := by
  obtain ⟨e0, e1, e2, e3, e4, e5, e6, e7⟩ := idx_facts2 t
  unfold iblk2
  rw [View.read_apply]
  show V c main_v6 _ = V c main_v6 _
  congr 1
  funext a
  apply Fin.ext
  match a with
  | ⟨0, _⟩ => show win2_0.index t (0 : Fin 3) * 128 + 1 * r.val = r.val; rw [e0]; omega
  | ⟨1, _⟩ => show win2_0.index t (1 : Fin 3) * 128 + 1 * o.val = f.val; rw [e1, hf]; omega
  | ⟨2, _⟩ => show win2_0.index t (2 : Fin 3) * 20 + 1 * k.val = k.val; rw [e2]; omega

/-- The second window's block at point t is the rows 32 (t % 4) … 32 (t % 4) + 31 of the same features. -/
theorem iblk2_1_apply (c : Dev nD) (t : Fin cfg2.N) (q : Fin 32) (o : Fin 128) (k : Fin 20) (p : Fin 128) (f : Fin 512)
    (hp : p.val = t.val % 4 * 32 + q.val) (hf : f.val = t.val / 4 * 128 + o.val) :
    (iblk2 V c 1 t : Vec Ideal S32x128x20 .f32) (ix3 q o k) = (V c main_v6 : S128x512x20.Idx → EReal) (ix3 p f k) := by
  obtain ⟨e0, e1, e2, e3, e4, e5, e6, e7⟩ := idx_facts2 t
  unfold iblk2
  rw [View.read_apply]
  show V c main_v6 _ = V c main_v6 _
  congr 1
  funext a
  apply Fin.ext
  match a with
  | ⟨0, _⟩ => show win2_1.index t (0 : Fin 3) * 32 + 1 * q.val = p.val; rw [e3, hp]; omega
  | ⟨1, _⟩ => show win2_1.index t (1 : Fin 3) * 128 + 1 * o.val = f.val; rw [e4, hf]; omega
  | ⟨2, _⟩ => show win2_1.index t (2 : Fin 3) * 20 + 1 * k.val = k.val; rw [e5]; omega

/-- What point t writes back is block t of the pairwise term's array. -/
theorem flushed2_eq (c : Dev nD) (t : Fin cfg2.N) :
    (dat2 V c).flushed 2 t = ((cfg2.win 2).blk t).view.read (Elt Ideal) (pairOf (V c main_v6)) := by
  show (cfg2.win 2).cut (grid2.coords t) ((dat2 V c).after 2 t) = _
  rw [after2_2]
  unfold out2_2
  rw [View.canon_unit_zero zero_off2]
  simp only [View.ld_unit_zero (S := S128x128x20) zero_off2_3, View.ld_unit_zero (S := S32x128x20) zero_off2_3]
  obtain ⟨e0, e1, e2, e3, e4, e5, e6, e7⟩ := idx_facts2 t
  have hN : cfg2.N = 16 := N_2
  have ht : t.val < 16 := hN ▸ t.isLt
  funext y
  obtain ⟨q, o, rfl⟩ : ∃ (q : Fin 32) (o : Fin 128), y = ix2 q o := ⟨y 0, y 1, eq_ix2 y⟩
  have hp : t.val % 4 * 32 + q.val < 128 := by have := q.isLt; omega
  have hf : t.val / 4 * 128 + o.val < 512 := by have := o.isLt; omega
  show pay2 (iblk2 V c 0 t) (iblk2 V c 1 t) (ix2 q o) = pairOf (V c main_v6) (((cfg2.win 2).blk t).view.emb (ix2 q o))
  have hemb : ((cfg2.win 2).blk t).view.emb (ix2 q o)
      = (ix2 (⟨t.val % 4 * 32 + q.val, hp⟩ : Fin 128) (⟨t.val / 4 * 128 + o.val, hf⟩ : Fin 512) : S128x512.Idx) := by
    funext a
    apply Fin.ext
    match a with
    | ⟨0, _⟩ => show win2_2.index t (0 : Fin 2) * 32 + 1 * q.val = t.val % 4 * 32 + q.val; rw [e6]; omega
    | ⟨1, _⟩ => show win2_2.index t (1 : Fin 2) * 128 + 1 * o.val = t.val / 4 * 128 + o.val; rw [e7]; omega
  rw [hemb, pairOf_apply]
  exact point2 (V c main_v6) (iblk2 V c 0 t) (iblk2 V c 1 t) q o ⟨t.val % 4 * 32 + q.val, hp⟩ ⟨t.val / 4 * 128 + o.val, hf⟩
    (fun r k => iblk2_0_apply V c t r o k _ rfl) (fun k => iblk2_1_apply V c t q o k _ _ rfl rfl)

/-- An index of the array is in point t's block iff each coordinate is in the block's range on its axis. -/
theorem mem_blk2 (t : Fin cfg2.N) (i : S128x512.Idx) :
    i ∈ ((cfg2.win 2).blk t).view.set ↔ ∀ a : Fin 2, win2_2.index t a * S32x128.size a ≤ (i a).val ∧ (i a).val < win2_2.index t a * S32x128.size a + S32x128.size a := by
  show i ∈ ((View.whole main_v7).slice (win2_2.rect t)).set ↔ _
  rw [View.set_slice_whole, Rect.mem_set_unit]
  exact Iff.rfl

/-- Every index of the array is in some point's block: row p and feature f are in the block of the point
    4 (f / 128) + p / 32. -/
theorem cover2 (i : S128x512.Idx) :
    ∃ t : Fin cfg2.N, (cfg2.win 2).flush t = true ∧ i ∈ ((cfg2.win 2).blk t).view.set := by
  have hi0 : (i 0).val < 128 := (i 0).isLt
  have hi1 : (i 1).val < 512 := (i 1).isLt
  have hN : cfg2.N = 16 := N_2
  have hlt : (i 1).val / 128 * 4 + (i 0).val / 32 < cfg2.N := by rw [hN]; omega
  obtain ⟨e0, e1, e2, e3, e4, e5, e6, e7⟩ := idx_facts2 ⟨(i 1).val / 128 * 4 + (i 0).val / 32, hlt⟩
  have e6' : win2_2.index ⟨(i 1).val / 128 * 4 + (i 0).val / 32, hlt⟩ (0 : Fin 2) = ((i 1).val / 128 * 4 + (i 0).val / 32) % 4 := e6
  have e7' : win2_2.index ⟨(i 1).val / 128 * 4 + (i 0).val / 32, hlt⟩ (1 : Fin 2) = ((i 1).val / 128 * 4 + (i 0).val / 32) / 4 := e7
  refine ⟨⟨(i 1).val / 128 * 4 + (i 0).val / 32, hlt⟩, flush2_2 _, ?_⟩
  rw [mem_blk2]
  intro a
  match a with
  | ⟨0, _⟩ => show win2_2.index ⟨(i 1).val / 128 * 4 + (i 0).val / 32, hlt⟩ (0 : Fin 2) * 32 ≤ (i 0).val ∧ (i 0).val < win2_2.index ⟨(i 1).val / 128 * 4 + (i 0).val / 32, hlt⟩ (0 : Fin 2) * 32 + 32; rw [e6']; omega
  | ⟨1, _⟩ => show win2_2.index ⟨(i 1).val / 128 * 4 + (i 0).val / 32, hlt⟩ (1 : Fin 2) * 128 ≤ (i 1).val ∧ (i 1).val < win2_2.index ⟨(i 1).val / 128 * 4 + (i 0).val / 32, hlt⟩ (1 : Fin 2) * 128 + 128; rw [e7']; omega

/-- The output array after the region: the pairwise term of the features array as the region found it. -/
theorem final2 (c : Dev nD) :
    (dat2 V c).arrAt 2 cfg2.N = fun i => Cert.Spec.pair (fun p o k => V c main_v6 (ix3 p o k)) (i 0) (i 1) :=
  (dat2 V c).arrAt_eq_of_cover 2 (pairOf (V c main_v6)) (fun t _ => flushed2_eq V c t) cover2

/-- The same with the features array named: for an array M that the region finds in the features' buffer, the
    output array ends as the pairwise term of M, entry by entry. -/
theorem final2_of (c : Dev nD) (M : S128x512x20.Idx → EReal) (hM : V c main_v6 = M) :
    (dat2 V c).arrAt 2 cfg2.N = (fun i => Cert.Spec.pair (fun p o k => M (ix3 p o k)) (i 0) (i 1) : S128x512.Idx → EReal) := by
  subst hM
  exact final2 V c

end Cert.KernelIdeal.RegionValue

end
-- ==== Proof.HostValue.lean ====
/-
  What the host stretches of the kernel program compute, for any contents W of a core's buffers on entry.

  The first stretch recasts the three bias rows [n] as one-row matrices [1, n]: entry (0, b) is the row at b. The second
  flattens the tensor [1024, 512, 20] to [1024, 10240] and the third folds the product [128, 10240] back to
  [128, 512, 20]: row-major, entry (o, k) sits at column o·20 + k. The last stretch cuts the 1536 weights into their
  first 1024 and last 512 rows, multiplies the activations with the first and the pairwise term with the second, adds
  the two products and the one bias number; at row p that is
  Σ_j h[p,j]·Wc[j] + Σ_o ob[p,o]·Wc[1024+o] + bc. A stretch leaves every buffer it does not write as it found it.
-/
import proofs.«123244_j24532853195159_2_alg».proof.Proof.Gen.KernelIdeal.Launch
import proofs.«123244_j24532853195159_2_alg».proof.Proof.Spec
import Idealize.ShloMosaic.Lib.StableHlo.Run
import Idealize.ShloMosaic.Lib.Pipeline.Value
import Idealize.ShloMosaic.Lib.ValueIdx
import Idealize.ShloMosaic.PureOps.Ideal.Laws
import Idealize.ShloMosaic.Lib.StackMember

noncomputable section

open scoped BigOperators

namespace Cert.KernelIdeal.HostValue

open Cert.KernelIdeal Cert.KernelIdeal.Gen Idealize.ShloMosaic Idealize.ShloMosaic.TcCoe Idealize.SL.Sem
open Idealize.ShloMosaic.ValueIdx

variable (W : Valuation τ sig (Elt Ideal))

/-! ## The layout operations of the host stretches, read at an index -/

/-- A row of 512 numbers recast as a 1 × 512 matrix reads, at (0, b), the row at b. -/
theorem row512_apply {α : Type} (x : S512.Idx → α) (u : Fin 1) (b : Fin 512) :
    shapeCast S1x512 x shapeCasts_S512_S1x512 (ix2 u b) = x (ix1 b) := by
  refine shapeCast_apply x shapeCasts_S512_S1x512 (ix2 u b) (ix1 b) ?_
  rw [Shape.rowMajor_val_one, Shape.rowMajor_val_two]
  have hu : u.val = 0 := by have := u.isLt; omega
  show b.val = u.val * 512 + b.val
  omega

/-- A row of 1024 numbers recast as a 1 × 1024 matrix reads, at (0, b), the row at b. -/
theorem row1024_apply {α : Type} (x : S1024.Idx → α) (u : Fin 1) (b : Fin 1024) :
    shapeCast S1x1024 x shapeCasts_S1024_S1x1024 (ix2 u b) = x (ix1 b) := by
  refine shapeCast_apply x shapeCasts_S1024_S1x1024 (ix2 u b) (ix1 b) ?_
  rw [Shape.rowMajor_val_one, Shape.rowMajor_val_two]
  have hu : u.val = 0 := by have := u.isLt; omega
  show b.val = u.val * 1024 + b.val
  omega

/-- The tensor flattened to 1024 × 10240 reads, at column o·20 + k, its entry (o, k). -/
theorem flatT_apply {α : Type} (x : S1024x512x20.Idx → α) (j : Fin 1024) (o : Fin 512) (k : Fin 20) :
    shapeCast S1024x10240 x shapeCasts_S1024x512x20_S1024x10240 (ix2 j (⟨o.val * 20 + k.val, by omega⟩ : Fin 10240)) = x (ix3 j o k) := by
  refine shapeCast_apply x shapeCasts_S1024x512x20_S1024x10240 _ (ix3 j o k) ?_
  rw [Shape.rowMajor_val_three, Shape.rowMajor_val_two]
  show (j.val * 512 + o.val) * 20 + k.val = j.val * 10240 + (o.val * 20 + k.val)
  omega

/-- The 128 × 10240 product folded to three axes reads, at (p, o, k), its column o·20 + k of row p. -/
theorem fold_apply {α : Type} (x : S128x10240.Idx → α) (p : Fin 128) (o : Fin 512) (k : Fin 20) :
    shapeCast S128x512x20 x shapeCasts_S128x10240_S128x512x20 (ix3 p o k) = x (ix2 p (⟨o.val * 20 + k.val, by omega⟩ : Fin 10240)) := by
  refine shapeCast_apply x shapeCasts_S128x10240_S128x512x20 (ix3 p o k) _ ?_
  rw [Shape.rowMajor_val_three, Shape.rowMajor_val_two]
  show p.val * 10240 + (o.val * 20 + k.val) = (p.val * 512 + o.val) * 20 + k.val
  omega

/-- The first 1024 rows of the 1536 × 1 weights. -/
theorem sliceLo_apply {α : Type} (x : S1536x1.Idx → α) (j : Fin 1024) (u : Fin 1) :
    extractStridedSlice S1024x1 ![0, 0] x slices_S1536x1_S1024x1_0_0 (ix2 j u) = x (ix2 (⟨j.val, by omega⟩ : Fin 1536) u) := by
  refine extractStridedSlice_apply _ x slices_S1536x1_S1024x1_0_0 (ix2 j u) _ (fun a => ?_)
  match a with
  | ⟨0, _⟩ => show j.val = 0 + j.val; omega
  | ⟨1, _⟩ => show u.val = 0 + u.val; omega

/-- The last 512 rows of the 1536 × 1 weights. -/
theorem sliceHi_apply {α : Type} (x : S1536x1.Idx → α) (o : Fin 512) (u : Fin 1) :
    extractStridedSlice S512x1 ![1024, 0] x slices_S1536x1_S512x1_1024_0 (ix2 o u) = x (ix2 (⟨1024 + o.val, by omega⟩ : Fin 1536) u) := by
  refine extractStridedSlice_apply _ x slices_S1536x1_S512x1_1024_0 (ix2 o u) _ (fun a => ?_)
  match a with
  | ⟨0, _⟩ => show 1024 + o.val = 1024 + o.val; rfl
  | ⟨1, _⟩ => show u.val = 0 + u.val; omega

/-- The one number broadcast to a 128 × 1 column reads that number everywhere. -/
theorem bias_apply {α : Type} (x : S1.Idx → α) (p : Fin 128) (u : Fin 1) :
    broadcastInDim S128x1 ![0, 1] bcast_S1x1_S128x1_0_1 (broadcastInDim S1x1 ![1] bcast_S1_S1x1_1 x) (ix2 p u) = x (ix1 (0 : Fin 1)) := by
  refine (broadcastInDim_apply _ bcast_S1x1_S128x1_0_1 _ (ix2 p u) (ix2 (0 : Fin 1) (0 : Fin 1)) (fun a => ?_)).trans ?_
  · match a with
    | ⟨0, _⟩ => show 0 = if (1 : Nat) = 1 then 0 else p.val; rw [if_pos rfl]
    | ⟨1, _⟩ => show 0 = if (1 : Nat) = 1 then 0 else u.val; rw [if_pos rfl]
  · refine broadcastInDim_apply _ bcast_S1_S1x1_1 x _ (ix1 (0 : Fin 1)) (fun a => ?_)
    match a with
    | ⟨0, _⟩ => show 0 = if (1 : Nat) = 1 then 0 else 0; rw [if_pos rfl]

/-! ## The two last products as sums -/

theorem dotA_eq : dot_S128x1024_S1024x1_S128x1_1_0_0_1_n_n = DotDims.plain 128 1024 1 := rfl
theorem dotB_eq : dot_S128x512_S512x1_S128x1_1_0_0_1_n_n = DotDims.plain 128 512 1 := rfl

theorem dotA_apply (l : FVec Ideal S128x1024 .f32) (r : FVec Ideal S1024x1 .f32) (p : Fin 128) (u : Fin 1) :
    Host.dotGeneral dot_S128x1024_S1024x1_S128x1_1_0_0_1_n_n none l r (ix2 p u) = ∑ j : Fin 1024, l (ix2 p j) * r (ix2 j u) := by
  rw [dotA_eq]; exact StackMember.dotGeneral_plain_apply none l r p u
theorem dotB_apply (l : FVec Ideal S128x512 .f32) (r : FVec Ideal S512x1 .f32) (p : Fin 128) (u : Fin 1) :
    Host.dotGeneral dot_S128x512_S512x1_S128x1_1_0_0_1_n_n none l r (ix2 p u) = ∑ o : Fin 512, l (ix2 p o) * r (ix2 o u) := by
  rw [dotB_eq]; exact StackMember.dotGeneral_plain_apply none l r p u

/-! ## What each host stretch writes, and what it leaves -/

theorem hostOps0_writes : (hostOps0 : List (HloOp τ sig (Elt Ideal))).Forall fun op =>
    op.writes ⊆ (([main_v0, main_v1, main_v2] : List (Ref sig .tc)).map (Proc.devRef (τ := τ) .tc)).toFinset := by
  simp only [List.Forall, StableHlo.reshape_writes, Finset.singleton_subset_iff, List.mem_toFinset]
  exact ⟨List.mem_map_of_mem (by decide), List.mem_map_of_mem (by decide), List.mem_map_of_mem (by decide)⟩
theorem hostOps1_writes : (hostOps1 : List (HloOp τ sig (Elt Ideal))).Forall fun op =>
    op.writes ⊆ (([main_v4] : List (Ref sig .tc)).map (Proc.devRef (τ := τ) .tc)).toFinset := by
  simp only [List.Forall, StableHlo.reshape_writes, Finset.singleton_subset_iff, List.mem_toFinset]
  exact List.mem_map_of_mem (by decide)
theorem hostOps2_writes : (hostOps2 : List (HloOp τ sig (Elt Ideal))).Forall fun op =>
    op.writes ⊆ (([main_v6] : List (Ref sig .tc)).map (Proc.devRef (τ := τ) .tc)).toFinset := by
  simp only [List.Forall, StableHlo.reshape_writes, Finset.singleton_subset_iff, List.mem_toFinset]
  exact List.mem_map_of_mem (by decide)
theorem hostOps3_writes : (hostOps3 : List (HloOp τ sig (Elt Ideal))).Forall fun op =>
    op.writes ⊆ (([main_v8, main_v9, main_v10, main_v11, main_v12, main_v13, main_v14, main_v15] : List (Ref sig .tc)).map (Proc.devRef (τ := τ) .tc)).toFinset := by
  simp only [List.Forall, StableHlo.unary_writes, StableHlo.binary_writes, Finset.singleton_subset_iff, List.mem_toFinset]
  exact ⟨List.mem_map_of_mem (by decide), List.mem_map_of_mem (by decide), List.mem_map_of_mem (by decide), List.mem_map_of_mem (by decide),
    List.mem_map_of_mem (by decide), List.mem_map_of_mem (by decide), List.mem_map_of_mem (by decide), List.mem_map_of_mem (by decide)⟩

theorem host0_of (r : Ref sig .tc) (h : r ∉ ([main_v0, main_v1, main_v2] : List (Ref sig .tc))) :
    StableHlo.after hostOps0 W (Proc.devRef .tc r) = W (Proc.devRef .tc r) :=
  StableHlo.after_of_writes_sub hostOps0 W hostOps0_writes h
theorem host1_of (r : Ref sig .tc) (h : r ∉ ([main_v4] : List (Ref sig .tc))) :
    StableHlo.after hostOps1 W (Proc.devRef .tc r) = W (Proc.devRef .tc r) :=
  StableHlo.after_of_writes_sub hostOps1 W hostOps1_writes h
theorem host2_of (r : Ref sig .tc) (h : r ∉ ([main_v6] : List (Ref sig .tc))) :
    StableHlo.after hostOps2 W (Proc.devRef .tc r) = W (Proc.devRef .tc r) :=
  StableHlo.after_of_writes_sub hostOps2 W hostOps2_writes h
theorem host3_of (r : Ref sig .tc) (h : r ∉ ([main_v8, main_v9, main_v10, main_v11, main_v12, main_v13, main_v14, main_v15] : List (Ref sig .tc))) :
    StableHlo.after hostOps3 W (Proc.devRef .tc r) = W (Proc.devRef .tc r) :=
  StableHlo.after_of_writes_sub hostOps3 W hostOps3_writes h

/-! ## What each host stretch computes -/

theorem host0_v0 : StableHlo.after hostOps0 W (Proc.devRef .tc main_v0)
    = (shapeCast S1x512 (W (Proc.devRef .tc main_arg2) : S512.Idx → EReal) shapeCasts_S512_S1x512 : S1x512.Idx → EReal) := by
  after_results
  rfl
theorem host0_v1 : StableHlo.after hostOps0 W (Proc.devRef .tc main_v1)
    = (shapeCast S1x1024 (W (Proc.devRef .tc main_arg4) : S1024.Idx → EReal) shapeCasts_S1024_S1x1024 : S1x1024.Idx → EReal) := by
  after_results
  rfl
theorem host0_v2 : StableHlo.after hostOps0 W (Proc.devRef .tc main_v2)
    = (shapeCast S1x1024 (W (Proc.devRef .tc main_arg6) : S1024.Idx → EReal) shapeCasts_S1024_S1x1024 : S1x1024.Idx → EReal) := by
  after_results
  rfl
theorem host1_v4 : StableHlo.after hostOps1 W (Proc.devRef .tc main_v4)
    = (shapeCast S1024x10240 (W (Proc.devRef .tc main_arg7) : S1024x512x20.Idx → EReal) shapeCasts_S1024x512x20_S1024x10240 : S1024x10240.Idx → EReal) := by
  after_results
  rfl
theorem host2_v6 : StableHlo.after hostOps2 W (Proc.devRef .tc main_v6)
    = (shapeCast S128x512x20 (W (Proc.devRef .tc main_v5) : S128x10240.Idx → EReal) shapeCasts_S128x10240_S128x512x20 : S128x512x20.Idx → EReal) := by
  after_results
  rfl
theorem host3_v15 : StableHlo.after hostOps3 W (Proc.devRef .tc main_v15)
    = (addf (F := Ideal) (addf (F := Ideal)
        (Host.dotGeneral (F := Ideal) (φ₁ := .f32) (φ₂ := .f32) dot_S128x1024_S1024x1_S128x1_1_0_0_1_n_n none (W (Proc.devRef .tc main_v3) : FVec Ideal S128x1024 .f32)
          (extractStridedSlice S1024x1 ![0, 0] (W (Proc.devRef .tc main_arg8) : FVec Ideal S1536x1 .f32) slices_S1536x1_S1024x1_0_0 : FVec Ideal S1024x1 .f32))
        (Host.dotGeneral (F := Ideal) (φ₁ := .f32) (φ₂ := .f32) dot_S128x512_S512x1_S128x1_1_0_0_1_n_n none (W (Proc.devRef .tc main_v7) : FVec Ideal S128x512 .f32)
          (extractStridedSlice S512x1 ![1024, 0] (W (Proc.devRef .tc main_arg8) : FVec Ideal S1536x1 .f32) slices_S1536x1_S512x1_1024_0 : FVec Ideal S512x1 .f32)))
        (broadcastInDim S128x1 ![0, 1] bcast_S1x1_S128x1_0_1 (broadcastInDim S1x1 ![1] bcast_S1_S1x1_1 (W (Proc.devRef .tc main_arg9) : FVec Ideal S1 .f32)) : FVec Ideal S128x1 .f32)
      : FVec Ideal S128x1 .f32) := by
  after_results

/-! ## The same, read at an index, over named arrays -/

theorem host0_v0_at (B : S512.Idx → EReal) (h : W (Proc.devRef .tc main_arg2) = B) :
    StableHlo.after hostOps0 W (Proc.devRef .tc main_v0) = (fun i => B (ix1 (i 1)) : S1x512.Idx → EReal) := by
  subst h; rw [host0_v0]; funext i
  obtain ⟨u, b, rfl⟩ : ∃ (u : Fin 1) (b : Fin 512), i = ix2 u b := ⟨i 0, i 1, eq_ix2 i⟩
  exact row512_apply _ u b
theorem host0_v1_at (B : S1024.Idx → EReal) (h : W (Proc.devRef .tc main_arg4) = B) :
    StableHlo.after hostOps0 W (Proc.devRef .tc main_v1) = (fun i => B (ix1 (i 1)) : S1x1024.Idx → EReal) := by
  subst h; rw [host0_v1]; funext i
  obtain ⟨u, b, rfl⟩ : ∃ (u : Fin 1) (b : Fin 1024), i = ix2 u b := ⟨i 0, i 1, eq_ix2 i⟩
  exact row1024_apply _ u b
theorem host0_v2_at (B : S1024.Idx → EReal) (h : W (Proc.devRef .tc main_arg6) = B) :
    StableHlo.after hostOps0 W (Proc.devRef .tc main_v2) = (fun i => B (ix1 (i 1)) : S1x1024.Idx → EReal) := by
  subst h; rw [host0_v2]; funext i
  obtain ⟨u, b, rfl⟩ : ∃ (u : Fin 1) (b : Fin 1024), i = ix2 u b := ⟨i 0, i 1, eq_ix2 i⟩
  exact row1024_apply _ u b

theorem host1_v4_at (A7 : S1024x512x20.Idx → EReal) (h : W (Proc.devRef .tc main_arg7) = A7) (j : Fin 1024) (o : Fin 512) (k : Fin 20) :
    (StableHlo.after hostOps1 W (Proc.devRef .tc main_v4) : S1024x10240.Idx → EReal) (ix2 j (⟨o.val * 20 + k.val, by omega⟩ : Fin 10240))
      = A7 (ix3 j o k) := by
  subst h; rw [host1_v4]; exact flatT_apply _ j o k
theorem host2_v6_at (M : S128x10240.Idx → EReal) (h : W (Proc.devRef .tc main_v5) = M) (p : Fin 128) (o : Fin 512) (k : Fin 20) :
    (StableHlo.after hostOps2 W (Proc.devRef .tc main_v6) : S128x512x20.Idx → EReal) (ix3 p o k)
      = M (ix2 p (⟨o.val * 20 + k.val, by omega⟩ : Fin 10240)) := by
  subst h; rw [host2_v6]; exact fold_apply _ p o k

theorem host3_v15_at (Hf : S128x1024.Idx → EReal) (P : S128x512.Idx → EReal) (Wc : S1536x1.Idx → EReal) (Bc : S1.Idx → EReal)
    (h3 : W (Proc.devRef .tc main_v3) = Hf) (h7 : W (Proc.devRef .tc main_v7) = P)
    (h8 : W (Proc.devRef .tc main_arg8) = Wc) (h9 : W (Proc.devRef .tc main_arg9) = Bc) (p : Fin 128) (u : Fin 1) :
    (StableHlo.after hostOps3 W (Proc.devRef .tc main_v15) : S128x1.Idx → EReal) (ix2 p u)
      = ((∑ j : Fin 1024, Hf (ix2 p j) * Wc (ix2 (⟨j.val, by omega⟩ : Fin 1536) u))
          + ∑ o : Fin 512, P (ix2 p o) * Wc (ix2 (⟨1024 + o.val, by omega⟩ : Fin 1536) u)) + Bc (ix1 (0 : Fin 1)) := by
  subst h3 h7 h8 h9
  rw [host3_v15, addf_apply, addf_apply, dotA_apply, dotB_apply, bias_apply]
  simp only [sliceLo_apply, sliceHi_apply]

end Cert.KernelIdeal.HostValue

end
-- ==== Proof.KernelValue.lean ====
/-
  The kernel program computes the specified result.

  The contents of a core's buffers are followed from the launch through the program. The first host stretch recasts
  the bias rows; the first region leaves the three dense layers of the launch arrays — the hidden activations h — in
  its output array. The second stretch flattens the tensor T; the second region leaves the product of h with the
  flattened tensor. The third stretch folds that product back to [128, 512, 20], which at (p, o, k) is
  Σ_j h[p,j]·T[j,o,k], the minibatch features; the third region leaves their pairwise term. The last stretch reads h,
  the pairwise term and the launch weights and bias — a buffer that no stretch writes and that is no region's output
  array holds on, and a region's input array is left as entered — and forms
  Σ_j h[p,j]·Wc[j] + Σ_o ob[p,o]·Wc[1024+o] + bc, the specified result at row p.
-/
import proofs.«123244_j24532853195159_2_alg».proof.Proof.Run
import proofs.«123244_j24532853195159_2_alg».proof.Proof.Value0
import proofs.«123244_j24532853195159_2_alg».proof.Proof.Value1
import proofs.«123244_j24532853195159_2_alg».proof.Proof.Value2
import proofs.«123244_j24532853195159_2_alg».proof.Proof.HostValue

noncomputable section

open scoped BigOperators

namespace Cert.KernelIdeal.KernelValue

open Cert.KernelIdeal Cert.KernelIdeal.Gen Cert.KernelIdeal.Run Cert.KernelIdeal.RegionValue Cert.KernelIdeal.HostValue
open Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

set_option quotPrecheck false

local notation "A0" => (m ((c : Thread nD τ).loc main_arg0) : S128x512.Idx → EReal)
local notation "A1" => (m ((c : Thread nD τ).loc main_arg1) : S512x512.Idx → EReal)
local notation "A2" => (m ((c : Thread nD τ).loc main_arg2) : S512.Idx → EReal)
local notation "A3" => (m ((c : Thread nD τ).loc main_arg3) : S512x1024.Idx → EReal)
local notation "A4" => (m ((c : Thread nD τ).loc main_arg4) : S1024.Idx → EReal)
local notation "A5" => (m ((c : Thread nD τ).loc main_arg5) : S1024x1024.Idx → EReal)
local notation "A6" => (m ((c : Thread nD τ).loc main_arg6) : S1024.Idx → EReal)
local notation "A7" => (m ((c : Thread nD τ).loc main_arg7) : S1024x512x20.Idx → EReal)
local notation "A8" => (m ((c : Thread nD τ).loc main_arg8) : S1536x1.Idx → EReal)
local notation "A9" => (m ((c : Thread nD τ).loc main_arg9) : S1.Idx → EReal)
-- the hidden activations of the launch arrays
local notation "hidA" => Cert.Spec.hid (fun p k => A0 (ix2 p k)) (fun k j => A1 (ix2 k j)) (fun j => A2 (ix1 j)) (fun k j => A3 (ix2 k j)) (fun j => A4 (ix1 j)) (fun k j => A5 (ix2 k j)) (fun j => A6 (ix1 j))
-- the same as an array over [128, 1024]
local notation "hidF" => ((fun i => hidA (i 0) (i 1)) : S128x1024.Idx → EReal)

/-! ## The arguments on entry to the first region -/

/-- A buffer the first host stretch does not write holds its launch contents on entry to the first region. -/
theorem w1_arg (r : Ref sig .tc) (h : r ∉ ([main_v0, main_v1, main_v2] : List (Ref sig .tc))) :
    W1 m ρ c (Proc.devRef .tc r) = m ((c : Thread nD τ).loc r) :=
  (host0_of (W0 m ρ c) r h).trans rfl

/-- The first region leaves the hidden activations in its output array. -/
theorem w2_v3 : W2 m ρ c (Proc.devRef .tc main_v3) = hidF :=
  (W2_arr m ρ c 7).trans <|
    (final0_of (V1 m ρ) c A0 A1 (fun i => A2 (ix1 (i 1))) A3 (fun i => A4 (ix1 (i 1))) A5 (fun i => A6 (ix1 (i 1)))
      (w1_arg m ρ c main_arg0 (by decide)) (w1_arg m ρ c main_arg1 (by decide)) (host0_v0_at (W0 m ρ c) A2 rfl)
      (w1_arg m ρ c main_arg3 (by decide)) (host0_v1_at (W0 m ρ c) A4 rfl)
      (w1_arg m ρ c main_arg5 (by decide)) (host0_v2_at (W0 m ρ c) A6 rfl)).trans rfl

/-! ## The second region: the product with the flattened tensor -/

theorem v3_v3 : V3 m ρ c main_v3 = hidF :=
  (host1_of (W2 m ρ c) main_v3 (by decide)).trans (w2_v3 m ρ c)

theorem w2_arg7 : W2 m ρ c (Proc.devRef .tc main_arg7) = A7 :=
  (W2_of_ne m ρ c main_arg7 (by decide)).trans (w1_arg m ρ c main_arg7 (by decide))

/-- The flattened tensor on entry to the second region, read at column o·20 + k. -/
theorem t2_at (j : Fin 1024) (o : Fin 512) (k : Fin 20) :
    (V3 m ρ c main_v4 : S1024x10240.Idx → EReal) (ix2 j (⟨o.val * 20 + k.val, by omega⟩ : Fin 10240)) = A7 (ix3 j o k) :=
  host1_v4_at (W2 m ρ c) A7 (w2_arg7 m ρ c) j o k

theorem w4_v5 : W4 m ρ c (Proc.devRef .tc main_v5)
    = (fun i => ∑ j : Fin 1024, hidF (ix2 (i 0) j) * (V3 m ρ c main_v4 : S1024x10240.Idx → EReal) (ix2 j (i 1)) : S128x10240.Idx → EReal) :=
  (W4_arr m ρ c 2).trans (final1_of (V3 m ρ) c hidF (V3 m ρ c main_v4) (v3_v3 m ρ c) rfl)

/-! ## The third region: the pairwise term of the minibatch features -/

/-- The features on entry to the third region are the specification's. -/
theorem v5_v6_at (p : Fin 128) (o : Fin 512) (k : Fin 20) :
    (V5 m ρ c main_v6 : S128x512x20.Idx → EReal) (ix3 p o k) = Cert.Spec.mbd hidA (fun j o k => A7 (ix3 j o k)) p o k := by
  refine (host2_v6_at (W4 m ρ c) _ (w4_v5 m ρ c) p o k).trans ?_
  show (∑ j : Fin 1024, hidA p j * (V3 m ρ c main_v4 : S1024x10240.Idx → EReal) (ix2 j (⟨o.val * 20 + k.val, by omega⟩ : Fin 10240))) = _
  exact Finset.sum_congr rfl fun j _ => congrArg (hidA p j * ·) (t2_at m ρ c j o k)

theorem w6_v7 : W6 m ρ c (Proc.devRef .tc main_v7)
    = (fun i => Cert.Spec.pair (Cert.Spec.mbd hidA (fun j o k => A7 (ix3 j o k))) (i 0) (i 1) : S128x512.Idx → EReal) :=
  (W6_out m ρ c).trans <| (final2_of (V5 m ρ) c (V5 m ρ c main_v6) rfl).trans <|
    congrArg (fun M : Fin 128 → Fin 512 → Fin 20 → EReal => (fun i => Cert.Spec.pair M (i 0) (i 1) : S128x512.Idx → EReal))
      (funext fun p => funext fun o => funext fun k => v5_v6_at m ρ c p o k)

/-! ## The buffers the last host stretch reads -/

theorem w6_v3 : W6 m ρ c (Proc.devRef .tc main_v3) = hidF :=
  (W6_of_ne m ρ c main_v3 (by decide)).trans <| (host2_of (W4 m ρ c) main_v3 (by decide)).trans <|
    (W4_arr m ρ c 0).trans <| ((dat1 (V3 m ρ) c).arrAt_in 0 rfl _).trans <| (A_eq1 (V3 m ρ) c 0).trans (v3_v3 m ρ c)

/-- An argument that no region reads holds its launch contents on entry to the last host stretch. -/
theorem w6_arg (r : Ref sig .tc) (h6 : r ≠ main_v7) (h5 : r ∉ ([main_v6] : List (Ref sig .tc))) (h4 : ∀ w, Pipeline.arrRef spec1 w ≠ r)
    (h3 : r ∉ ([main_v4] : List (Ref sig .tc))) (h2 : ∀ w, Pipeline.arrRef spec0 w ≠ r)
    (h1 : r ∉ ([main_v0, main_v1, main_v2] : List (Ref sig .tc))) :
    W6 m ρ c (Proc.devRef .tc r) = m ((c : Thread nD τ).loc r) :=
  (W6_of_ne m ρ c r h6).trans <| (host2_of (W4 m ρ c) r h5).trans <| (W4_of_ne m ρ c r h4).trans <|
    (host1_of (W2 m ρ c) r h3).trans <| (W2_of_ne m ρ c r h2).trans (w1_arg m ρ c r h1)

/-! ## The result -/

/-- THE KERNEL PROGRAM COMPUTES THE SPECIFICATION: the result buffer after the last host stretch, as a function of the
    launch arrays, is the specified result at every row. -/
theorem kernel_out :
    Cert.KernelIdeal.Run.W7 (F := Ideal) m ρ c (Proc.devRef .tc main_v15)
      = fun i => Cert.Spec.out (fun p k => m ((c : Thread nD τ).loc main_arg0) (ix2 p k)) (fun k j => m ((c : Thread nD τ).loc main_arg1) (ix2 k j))
          (fun j => m ((c : Thread nD τ).loc main_arg2) (ix1 j)) (fun k j => m ((c : Thread nD τ).loc main_arg3) (ix2 k j))
          (fun j => m ((c : Thread nD τ).loc main_arg4) (ix1 j)) (fun k j => m ((c : Thread nD τ).loc main_arg5) (ix2 k j))
          (fun j => m ((c : Thread nD τ).loc main_arg6) (ix1 j)) (fun j o k => m ((c : Thread nD τ).loc main_arg7) (ix3 j o k))
          (fun j => m ((c : Thread nD τ).loc main_arg8) (ix2 j 0)) (m ((c : Thread nD τ).loc main_arg9) (ix1 0)) (i 0) := by
  funext i
  obtain ⟨p, rfl⟩ : ∃ p : Fin 128, i = ix2 p (0 : Fin 1) :=
    ⟨i 0, funext fun a => match a with
      | ⟨0, _⟩ => rfl
      | ⟨1, _⟩ => Subsingleton.elim (α := Fin 1) _ _⟩
  exact (host3_v15_at (W6 m ρ c) _ _ A8 A9 (w6_v3 m ρ c) (w6_v7 m ρ c)
    (w6_arg m ρ c main_arg8 (by decide) (by decide) (by decide) (by decide) (by decide) (by decide))
    (w6_arg m ρ c main_arg9 (by decide) (by decide) (by decide) (by decide) (by decide) (by decide)) p 0).trans rfl

end Cert.KernelIdeal.KernelValue

end
-- ==== Proof.SpecLaws.lean ====
/-
  Laws of the extended reals that join the two arrangements of the result: the word of zero is the number zero, the
  absolute value of a difference does not depend on the order of its operands (at infinite operands too), and a sum
  over 1536 indices is the sum over the first 1024 plus the sum over the last 512.
-/
import proofs.«123244_j24532853195159_2_alg».proof.Proof.Spec
import Idealize.ShloMosaic.PureOps.Ideal.Laws
import Mathlib.Algebra.BigOperators.Fin

noncomputable section

namespace Cert.Spec

open Idealize.ShloMosaic

/-- The float word of zero is the extended real zero. -/
theorem zeroW_eq : zeroW = 0 := Ideal.ofBits_zero_f32

/-- Subtracting from the word of zero negates. -/
theorem zeroW_sub (v : EReal) : zeroW - v = -v := by rw [zeroW_eq, zero_sub]

/-- Adding to the word of zero changes nothing. -/
theorem zeroW_add (v : EReal) : zeroW + v = v := by rw [zeroW_eq, zero_add]

/-- The absolute value of a difference is symmetric in its operands, for all extended reals: where both are real the
    two differences are negatives of each other; where one is infinite both absolute values are +∞ or both differences
    are the same -∞ + ∞ corner. -/
theorem absE_sub_comm (x y : EReal) : absE (x - y) = absE (y - x) := by
  unfold absE
  induction x using EReal.rec with
  | bot =>
    induction y using EReal.rec with
    | bot => rfl
    | coe b => simp
    | top => simp
  | coe a =>
    induction y using EReal.rec with
    | bot => simp
    | coe b =>
      rw [EReal.neg_sub (Or.inl (EReal.coe_ne_bot a)) (Or.inl (EReal.coe_ne_top a)),
        EReal.neg_sub (Or.inl (EReal.coe_ne_bot b)) (Or.inl (EReal.coe_ne_top b)),
        add_comm (-(a : EReal)) b, add_comm (-(b : EReal)) a, ← sub_eq_add_neg, ← sub_eq_add_neg]
      exact max_comm (α := EReal) _ _
    | top => simp
  | top =>
    induction y using EReal.rec with
    | bot => simp
    | coe b => simp
    | top => rfl

/-- A sum over 1536 indices splits at 1024. -/
theorem sum_split_1024 {M : Type*} [AddCommMonoid M] (g : Fin 1536 → M) :
    ∑ k : Fin 1536, g k = (∑ j : Fin 1024, g ⟨j.val, by omega⟩) + ∑ o : Fin 512, g ⟨1024 + o.val, by omega⟩ :=
  Fin.sum_univ_add (a := 1024) (b := 512) g

end Cert.Spec

end
-- ==== Proof.RefValue.lean ====
/-
  The reference computes the specified result.

  Each stage of the reference is read at an index and identified with the specification's function of the argument
  arrays: the three dense layers (a contraction over the inner axis, the bias row broadcast over the rows, the leaky
  rectifier as a select on v ≥ 0 between v and slope·v); the product of the activations with the tensor flattened to
  1024 × 10240 and folded back, where entry (o, k) of a row sits at column o·20 + k; the pairwise distance, where the
  reference takes |m[p,o,k] − m[r,o,k]| and the specification |m[r,o,k] − m[p,o,k]|, equal on all extended reals; the
  sum over the rows r of exp(−distance), whose negation the specification writes as a difference from the zero word,
  less one; and the last projection of the joined array [activations, pairwise term], a sum over 1536 columns that is
  the sum over the first 1024 plus the sum over the last 512. The reduce-sums start from the zero word, which is the
  number zero. No step needs the inputs finite.
-/
import proofs.«123244_j24532853195159_2_alg».proof.Proof.Gen.ReferenceIdeal.Read
import proofs.«123244_j24532853195159_2_alg».proof.Proof.SpecLaws
import Idealize.ShloMosaic.Lib.ValueIdx
import Idealize.ShloMosaic.Lib.Pipeline.Value

noncomputable section

namespace Cert.RefValue

open Cert.ReferenceIdeal Cert.ReferenceIdeal.Read Idealize.ShloMosaic Idealize.ShloMosaic.ValueIdx

/-! ## The reference's index maps at coordinates -/

theorem lidx0 (p : Fin 128) (j k : Fin 512) : lidx_main_v0 (ix2 p j) k = ix2 p k := by
  funext a; match a with | ⟨0, _⟩ => rfl | ⟨1, _⟩ => rfl
theorem ridx0 (p : Fin 128) (j k : Fin 512) : ridx_main_v0 (ix2 p j) k = ix2 k j := by
  funext a; match a with | ⟨0, _⟩ => rfl | ⟨1, _⟩ => rfl
theorem idx2 (p : Fin 128) (j : Fin 512) : idx_main_v1 (idx_main_v2 (ix2 p j)) = ix1 j := by
  funext a; match a with | ⟨0, _⟩ => rfl

theorem lidx9 (p : Fin 128) (j : Fin 1024) (k : Fin 512) : lidx_main_v9 (ix2 p j) k = ix2 p k := by
  funext a; match a with | ⟨0, _⟩ => rfl | ⟨1, _⟩ => rfl
theorem ridx9 (p : Fin 128) (j : Fin 1024) (k : Fin 512) : ridx_main_v9 (ix2 p j) k = ix2 k j := by
  funext a; match a with | ⟨0, _⟩ => rfl | ⟨1, _⟩ => rfl
theorem idx11 (p : Fin 128) (j : Fin 1024) : idx_main_v10 (idx_main_v11 (ix2 p j)) = ix1 j := by
  funext a; match a with | ⟨0, _⟩ => rfl

theorem lidx18 (p : Fin 128) (j k : Fin 1024) : lidx_main_v18 (ix2 p j) k = ix2 p k := by
  funext a; match a with | ⟨0, _⟩ => rfl | ⟨1, _⟩ => rfl
theorem ridx18 (p : Fin 128) (j k : Fin 1024) : ridx_main_v18 (ix2 p j) k = ix2 k j := by
  funext a; match a with | ⟨0, _⟩ => rfl | ⟨1, _⟩ => rfl
theorem idx20 (p : Fin 128) (j : Fin 1024) : idx_main_v19 (idx_main_v20 (ix2 p j)) = ix1 j := by
  funext a; match a with | ⟨0, _⟩ => rfl

section
variable (a0 : FVec Ideal S128x512 .f32) (a1 : FVec Ideal S512x512 .f32) (a2 : FVec Ideal S512 .f32)
  (a3 : FVec Ideal S512x1024 .f32) (a4 : FVec Ideal S1024 .f32) (a5 : FVec Ideal S1024x1024 .f32) (a6 : FVec Ideal S1024 .f32)
  (a7 : FVec Ideal S1024x512x20 .f32) (a8 : FVec Ideal S1536x1 .f32) (a9 : FVec Ideal S1 .f32)

/-! ## The three dense layers -/

/-- The first layer at row p, column j. -/
theorem layer1 (p : Fin 128) (j : Fin 512) :
    val_main_v8 (F := Ideal) a0 a1 a2 (ix2 p j)
      = Spec.dense (fun p k => a0 (ix2 p k)) (fun k j => a1 (ix2 k j)) (fun j => a2 (ix1 j)) p j := by
  rw [val_main_v8_apply, val_main_v5_apply, val_main_v7_apply, val_main_v6_apply, val_main_cst_0_apply, val_main_v4_apply,
    val_main_cst_apply, val_main_v3_apply, val_main_v0_apply, val_main_v2_apply, val_main_v1_apply]
  simp only [lidx0, ridx0, idx2]
  rfl

/-- The second layer at row p, column j. -/
theorem layer2 (p : Fin 128) (j : Fin 1024) :
    val_main_v17 (F := Ideal) a0 a1 a2 a3 a4 (ix2 p j)
      = Spec.dense (Spec.dense (fun p k => a0 (ix2 p k)) (fun k j => a1 (ix2 k j)) (fun j => a2 (ix1 j)))
          (fun k j => a3 (ix2 k j)) (fun j => a4 (ix1 j)) p j := by
  rw [val_main_v17_apply, val_main_v14_apply, val_main_v16_apply, val_main_v15_apply, val_main_cst_2_apply, val_main_v13_apply,
    val_main_cst_1_apply, val_main_v12_apply, val_main_v9_apply, val_main_v11_apply, val_main_v10_apply]
  simp only [lidx9, ridx9, idx11, layer1]
  rfl

/-- The third layer at row p, column j: the hidden activations. -/
theorem layer3 (p : Fin 128) (j : Fin 1024) :
    val_main_v26 (F := Ideal) a0 a1 a2 a3 a4 a5 a6 (ix2 p j)
      = Spec.hid (fun p k => a0 (ix2 p k)) (fun k j => a1 (ix2 k j)) (fun j => a2 (ix1 j))
          (fun k j => a3 (ix2 k j)) (fun j => a4 (ix1 j)) (fun k j => a5 (ix2 k j)) (fun j => a6 (ix1 j)) p j := by
  rw [val_main_v26_apply, val_main_v23_apply, val_main_v25_apply, val_main_v24_apply, val_main_cst_4_apply, val_main_v22_apply,
    val_main_cst_3_apply, val_main_v21_apply, val_main_v18_apply, val_main_v20_apply, val_main_v19_apply]
  simp only [lidx18, ridx18, idx20, layer2]
  rfl

end

theorem lidx28 (p : Fin 128) (c : Fin 10240) (j : Fin 1024) : lidx_main_v28 (ix2 p c) j = ix2 p j := by
  funext a; match a with | ⟨0, _⟩ => rfl | ⟨1, _⟩ => rfl
theorem ridx28 (p : Fin 128) (c : Fin 10240) (j : Fin 1024) : ridx_main_v28 (ix2 p c) j = ix2 j c := by
  funext a; match a with | ⟨0, _⟩ => rfl | ⟨1, _⟩ => rfl
/-- Feature o, kernel index k sit at column o·20 + k of the flattened product (row-major). -/
theorem idx29 (p : Fin 128) (o : Fin 512) (k : Fin 20) :
    idx_main_v29 (ix3 p o k) = ix2 p (⟨o.val * 20 + k.val, by omega⟩ : Fin 10240) := by
  have hp := p.isLt; have ho := o.isLt; have hk := k.isLt
  funext a
  match a with
  | ⟨0, _⟩ => exact Fin.ext (by show ((p.val * 512 + o.val) * 20 + k.val) / 10240 = p.val; omega)
  | ⟨1, _⟩ => exact Fin.ext (by show ((p.val * 512 + o.val) * 20 + k.val) % 10240 = o.val * 20 + k.val; omega)
/-- The flattened tensor's column o·20 + k is its entry (o, k). -/
theorem idx27 (j : Fin 1024) (o : Fin 512) (k : Fin 20) :
    idx_main_v27 (ix2 j (⟨o.val * 20 + k.val, by omega⟩ : Fin 10240)) = ix3 j o k := by
  have hj := j.isLt; have ho := o.isLt; have hk := k.isLt
  funext a
  match a with
  | ⟨0, _⟩ => exact Fin.ext (by show (j.val * 10240 + (o.val * 20 + k.val)) / 10240 = j.val; omega)
  | ⟨1, _⟩ => exact Fin.ext (by show (j.val * 10240 + (o.val * 20 + k.val)) / 20 % 512 = o.val; omega)
  | ⟨2, _⟩ => exact Fin.ext (by show (j.val * 10240 + (o.val * 20 + k.val)) % 20 = k.val; omega)

theorem idx36 (r p : Fin 128) (o : Fin 512) (k : Fin 20) : idx_main_v36 (ix3 r p o) k = ix4 r p o k := by
  funext a; match a with | ⟨0, _⟩ => rfl | ⟨1, _⟩ => rfl | ⟨2, _⟩ => rfl | ⟨3, _⟩ => rfl
theorem idx32 (r p : Fin 128) (o : Fin 512) (k : Fin 20) :
    idx_main_v30 (idx_main_v32 (ix4 r p o k)) = ix3 p o k := by
  funext a; match a with | ⟨0, _⟩ => rfl | ⟨1, _⟩ => rfl | ⟨2, _⟩ => rfl
theorem idx33 (r p : Fin 128) (o : Fin 512) (k : Fin 20) :
    idx_main_v31 (idx_main_v33 (ix4 r p o k)) = ix3 r o k := by
  funext a; match a with | ⟨0, _⟩ => rfl | ⟨1, _⟩ => rfl | ⟨2, _⟩ => rfl
theorem idx39 (p : Fin 128) (o : Fin 512) (r : Fin 128) : idx_main_v39 (ix2 p o) r = ix3 r p o := by
  funext a; match a with | ⟨0, _⟩ => rfl | ⟨1, _⟩ => rfl | ⟨2, _⟩ => rfl

theorem lidx43 (p : Fin 128) (c : Fin 1536) : lidx_main_v43 (ix2 p (0 : Fin 1)) c = ix2 p c := by
  funext a; match a with | ⟨0, _⟩ => rfl | ⟨1, _⟩ => rfl
theorem ridx43 (p : Fin 128) (c : Fin 1536) : ridx_main_v43 (ix2 p (0 : Fin 1)) c = ix2 c (0 : Fin 1) := by
  funext a; match a with | ⟨0, _⟩ => rfl | ⟨1, _⟩ => rfl
theorem idx45 (p : Fin 128) : idx_main_v44 (idx_main_v45 (ix2 p (0 : Fin 1))) = ix1 (0 : Fin 1) := by
  funext a; match a with | ⟨0, _⟩ => rfl

section
variable (a0 : FVec Ideal S128x512 .f32) (a1 : FVec Ideal S512x512 .f32) (a2 : FVec Ideal S512 .f32)
  (a3 : FVec Ideal S512x1024 .f32) (a4 : FVec Ideal S1024 .f32) (a5 : FVec Ideal S1024x1024 .f32) (a6 : FVec Ideal S1024 .f32)
  (a7 : FVec Ideal S1024x512x20 .f32) (a8 : FVec Ideal S1536x1 .f32) (a9 : FVec Ideal S1 .f32)

local notation "hH" => Spec.hid (fun p k => a0 (ix2 p k)) (fun k j => a1 (ix2 k j)) (fun j => a2 (ix1 j))
  (fun k j => a3 (ix2 k j)) (fun j => a4 (ix1 j)) (fun k j => a5 (ix2 k j)) (fun j => a6 (ix1 j))
local notation "mM" => Spec.mbd hH (fun j o k => a7 (ix3 j o k))

/-! ## The minibatch features: the product against the flattened tensor, folded back to three axes -/

theorem feat (p : Fin 128) (o : Fin 512) (k : Fin 20) :
    val_main_v29 (F := Ideal) a0 a1 a2 a3 a4 a5 a6 a7 (ix3 p o k) = mM p o k := by
  rw [val_main_v29_apply, idx29, val_main_v28_apply]
  simp only [lidx28, ridx28, val_main_v27_apply, idx27, layer3]
  rfl

/-! ## The pairwise distance: the reference subtracts row r from row p, the specification row p from row r -/

theorem dist_at (r p : Fin 128) (o : Fin 512) :
    val_main_v36 (F := Ideal) a0 a1 a2 a3 a4 a5 a6 a7 (ix3 r p o) = Spec.dist mM r p o := by
  rw [val_main_v36_apply, val_main_cst_5_apply]
  simp only [idx36, val_main_v35_apply, val_main_v34_apply, val_main_v32_apply, val_main_v30_apply, val_main_v33_apply,
    val_main_v31_apply, idx32, idx33, feat]
  show Spec.zeroW + ∑ k : Fin 20, Spec.absE (mM p o k - mM r o k) = ∑ k : Fin 20, Spec.absE (mM r o k - mM p o k)
  rw [Spec.zeroW_add]
  exact Finset.sum_congr rfl fun k _ => Spec.absE_sub_comm _ _

/-! ## The sum over the rows of the exponentials, less one -/

theorem pair_at (p : Fin 128) (o : Fin 512) :
    val_main_v41 (F := Ideal) a0 a1 a2 a3 a4 a5 a6 a7 (ix2 p o) = Spec.pair mM p o := by
  rw [val_main_v41_apply, val_main_v40_apply, val_main_cst_7_apply, val_main_v39_apply, val_main_cst_6_apply]
  simp only [idx39, val_main_v38_apply, val_main_v37_apply, dist_at]
  show (Spec.zeroW + ∑ r : Fin 128, Ideal.exp (-(Spec.dist mM r p o))) - Spec.oneW
    = (∑ r : Fin 128, Ideal.exp (Spec.zeroW - Spec.dist mM r p o)) - Spec.oneW
  rw [Spec.zeroW_add]
  simp only [Spec.zeroW_sub]

/-! ## The joined array: the activations in columns below 1024, the pairwise term from 1024 on -/

theorem cat_left (p : Fin 128) (j : Fin 1024) :
    val_main_v42 (F := Ideal) a0 a1 a2 a3 a4 a5 a6 a7 (ix2 p (⟨j.val, by omega⟩ : Fin 1536))
      = val_main_v26 (F := Ideal) a0 a1 a2 a3 a4 a5 a6 (ix2 p j) := by
  unfold val_main_v42
  exact concatenate_pair_apply_left (t := S128x1536) (s₁ := S128x1024) (s₂ := S128x512) (1 : Fin S128x1536.rank) _ _ _ _ rfl (ix2 p j)
    (fun b => match b with | ⟨0, _⟩ => rfl | ⟨1, _⟩ => rfl)

theorem cat_right (p : Fin 128) (o : Fin 512) :
    val_main_v42 (F := Ideal) a0 a1 a2 a3 a4 a5 a6 a7 (ix2 p (⟨1024 + o.val, by omega⟩ : Fin 1536))
      = val_main_v41 (F := Ideal) a0 a1 a2 a3 a4 a5 a6 a7 (ix2 p o) := by
  unfold val_main_v42
  exact concatenate_pair_apply_right (t := S128x1536) (s₁ := S128x1024) (s₂ := S128x512) (1 : Fin S128x1536.rank) _ _ _ _ rfl rfl (ix2 p o)
    (fun b hb => match b, hb with | ⟨0, _⟩, _ => rfl | ⟨1, _⟩, hb => absurd rfl hb)
    (by show o.val + 1024 = 1024 + o.val; omega)

/-! ## The last projection and the whole result -/

theorem out_at (p : Fin 128) :
    val_main_v46 (F := Ideal) a0 a1 a2 a3 a4 a5 a6 a7 a8 a9 (ix2 p (0 : Fin 1))
      = Spec.out (fun p k => a0 (ix2 p k)) (fun k j => a1 (ix2 k j)) (fun j => a2 (ix1 j)) (fun k j => a3 (ix2 k j))
          (fun j => a4 (ix1 j)) (fun k j => a5 (ix2 k j)) (fun j => a6 (ix1 j)) (fun j o k => a7 (ix3 j o k))
          (fun j => a8 (ix2 j (0 : Fin 1))) (a9 (ix1 (0 : Fin 1))) p := by
  rw [val_main_v46_apply, val_main_v45_apply, val_main_v44_apply, idx45, val_main_v43_apply]
  simp only [lidx43, ridx43]
  rw [Spec.sum_split_1024]
  simp only [cat_left, cat_right, layer3, pair_at]
  rfl

end

/-- THE REFERENCE COMPUTES THE SPECIFICATION: the reference's result, as a function of its ten argument arrays, is the
    specified result at every row. -/
theorem ref_out (a0 : FVec Ideal Cert.ReferenceIdeal.S128x512 .f32) (a1 : FVec Ideal Cert.ReferenceIdeal.S512x512 .f32)
    (a2 : FVec Ideal Cert.ReferenceIdeal.S512 .f32) (a3 : FVec Ideal Cert.ReferenceIdeal.S512x1024 .f32)
    (a4 : FVec Ideal Cert.ReferenceIdeal.S1024 .f32) (a5 : FVec Ideal Cert.ReferenceIdeal.S1024x1024 .f32)
    (a6 : FVec Ideal Cert.ReferenceIdeal.S1024 .f32) (a7 : FVec Ideal Cert.ReferenceIdeal.S1024x512x20 .f32)
    (a8 : FVec Ideal Cert.ReferenceIdeal.S1536x1 .f32) (a9 : FVec Ideal Cert.ReferenceIdeal.S1 .f32) :
    Cert.ReferenceIdeal.Read.val_main_v46 (F := Ideal) a0 a1 a2 a3 a4 a5 a6 a7 a8 a9
      = fun i => Cert.Spec.out (fun p k => a0 (ix2 p k)) (fun k j => a1 (ix2 k j)) (fun j => a2 (ix1 j))
          (fun k j => a3 (ix2 k j)) (fun j => a4 (ix1 j)) (fun k j => a5 (ix2 k j)) (fun j => a6 (ix1 j))
          (fun j o k => a7 (ix3 j o k)) (fun j => a8 (ix2 j 0)) (a9 (ix1 0)) (i 0) := by
  funext i
  obtain ⟨p, rfl⟩ : ∃ p : Fin 128, i = ix2 p (0 : Fin 1) :=
    ⟨i 0, funext fun a => match a with
      | ⟨0, _⟩ => rfl
      | ⟨1, _⟩ => Subsingleton.elim (α := Fin 1) _ _⟩
  exact out_at a0 a1 a2 a3 a4 a5 a6 a7 a8 a9 p

end Cert.RefValue

end
-- ==== Proof.lean ====
/-
  The certificate of a three-kernel dense network with minibatch discrimination against its jnp reference.

  Both programs compute, on the extended reals, out[p] = Σ_j h[p,j]·Wc[j] + Σ_o ob[p,o]·Wc[1024+o] + bc, where h is
  three dense layers with the leaky rectifier, m[p,o,k] = Σ_j h[p,j]·T[j,o,k] and ob[p,o] = (Σ_r exp(−Σ_k |m[r,o,k] −
  m[p,o,k]|)) − 1 (Proof/Spec.lean). The kernel program computes h in a first region (a grid over column blocks of
  the third weight matrix), m in a second (column blocks of T recast as a matrix) and ob in a third, whose two input
  windows read the one array m, and finishes on the host with two products against the two parts of Wc. The
  reference does the same on the host with one product against the concatenation [h, ob] and the distance written
  with the operands of the difference swapped; |x − y| = |y − x| on all extended reals, a finite sum may be taken in
  any order and split at 1024, and a change of float format is the identity, so the two results agree index by
  index with no appeal to finiteness of the inputs.

  The frames of the two kernel programs are the run of their three regions between host stretches (Proof/Run.lean
  for the idealized program, the same text for the word-level one); the reference's frame is its run. The ideal pass
  rewrote nothing, so there is nothing to preserve.
-/
import proofs.«123244_j24532853195159_2_alg».proof.Defs
import proofs.«123244_j24532853195159_2_alg».proof.Proof.Gen.Kernel
import proofs.«123244_j24532853195159_2_alg».proof.Proof.Gen.KernelIdeal
import proofs.«123244_j24532853195159_2_alg».proof.Proof.Gen.ReferenceIdeal
import proofs.«123244_j24532853195159_2_alg».proof.Proof.Gen.Pre_finite_inputs
import proofs.«123244_j24532853195159_2_alg».proof.Proof.Gen.ReferenceIdeal.Run
import proofs.«123244_j24532853195159_2_alg».proof.Proof.Gen.ReferenceIdeal.Read
import proofs.«123244_j24532853195159_2_alg».proof.Proof.Run
import proofs.«123244_j24532853195159_2_alg».proof.Proof.KRun
import proofs.«123244_j24532853195159_2_alg».proof.Proof.KernelValue
import proofs.«123244_j24532853195159_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel :=
  fun m ρ _ => Cert.Kernel.Run.frame (F := Bits) m ρ

/-- So does the idealized kernel program. -/
theorem frame_ki : Cert.frame_KernelIdeal :=
  fun m ρ _ => Cert.KernelIdeal.Run.frame (F := Ideal) m ρ

/-- The reference's frame is its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

open Cert.KernelIdeal Cert.KernelIdeal.Run in
/-- From memories agreeing on the arguments both idealized programs end with the same result: each is the function
    Spec.out of the launch arrays. -/
theorem algebraic : Cert.algebraic_KernelIdeal_ReferenceIdeal := by
  intro m ρ m' ρ' _ hagree
  refine ⟨fun c => W7 (F := Ideal) m ρ c (Proc.devRef .tc main_v15), ?_, ?_⟩
  · exact (θ_run Cert.KernelIdeal.defs _ _).mono (fun r h c =>
      ⟨h c _ (mem_uc main_v15 (by decide)),
        (h c _ (mem_uc main_arg0 (by decide))).trans (W7_main_arg0 m ρ c),
        (h c _ (mem_uc main_arg1 (by decide))).trans (W7_main_arg1 m ρ c),
        (h c _ (mem_uc main_arg2 (by decide))).trans (W7_main_arg2 m ρ c),
        (h c _ (mem_uc main_arg3 (by decide))).trans (W7_main_arg3 m ρ c),
        (h c _ (mem_uc main_arg4 (by decide))).trans (W7_main_arg4 m ρ c),
        (h c _ (mem_uc main_arg5 (by decide))).trans (W7_main_arg5 m ρ c),
        (h c _ (mem_uc main_arg6 (by decide))).trans (W7_main_arg6 m ρ c),
        (h c _ (mem_uc main_arg7 (by decide))).trans (W7_main_arg7 m ρ c),
        (h c _ (mem_uc main_arg8 (by decide))).trans (W7_main_arg8 m ρ c),
        (h c _ (mem_uc main_arg9 (by decide))).trans (W7_main_arg9 m ρ c)⟩)
      (run_main (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v46_eq, Cert.RefValue.ref_out, e0, e1, e2, e3, e4, e5, e6, e7, e8, e9]
    exact (Cert.KernelIdeal.KernelValue.kernel_out m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
